-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400x256 : Shape := ⟨2, ![400, 256]⟩
abbrev S160000x5 : Shape := ⟨2, ![160000, 5]⟩
abbrev S256x128 : Shape := ⟨2, ![256, 128]⟩
abbrev S261x400 : Shape := ⟨2, ![261, 400]⟩
abbrev S160000x400 : Shape := ⟨2, ![160000, 400]⟩
abbrev S_ : Shape := ⟨0, ![]⟩

class Facts : Prop where
  bcast_S_S400x256 : S_.BroadcastsInDim S400x256 (![] : Fin 0 → Fin S400x256.rank)
  reducesTo_S400x256_S_d0_1 : S400x256.ReducesTo [0, 1] S_
  h_S_ : 0 < S_.numel
  bcast_S_S160000x5 : S_.BroadcastsInDim S160000x5 (![] : Fin 0 → Fin S160000x5.rank)
  reducesTo_S160000x5_S_d0_1 : S160000x5.ReducesTo [0, 1] S_
  bcast_S_S256x128 : S_.BroadcastsInDim S256x128 (![] : Fin 0 → Fin S256x128.rank)
  reducesTo_S256x128_S_d0_1 : S256x128.ReducesTo [0, 1] S_
  bcast_S_S261x400 : S_.BroadcastsInDim S261x400 (![] : Fin 0 → Fin S261x400.rank)
  reducesTo_S261x400_S_d0_1 : S261x400.ReducesTo [0, 1] S_
  bcast_S_S160000x400 : S_.BroadcastsInDim S160000x400 (![] : Fin 0 → Fin S160000x400.rank)
  reducesTo_S160000x400_S_d0_1 : S160000x400.ReducesTo [0, 1] S_

variable [Facts]

def fn_part1 {F : FTy → Type} [FloatOps F] (main_arg4 : FVec F S160000x400 .f32) (main_v13 : IVec S_ 1) (main_v16 : IVec S261x400 1) : IVec S_ 1 :=
  let main_c_5 : IVec S_ 1 := constantI S_ 1 1#1
  let main_v17 : IVec S_ 1 := (fun x v => Host.reduce IntOp.andi x v reducesTo_S261x400_S_d0_1 h_S_) main_v16 main_c_5
  let main_v18 : IVec S_ 1 := andi main_v13 main_v17
  let main_v19 : FVec F S160000x400 .f32 := Host.absf main_arg4
  let main_cst_6 : FVec F S_ .f32 := constant S_ .f32 0x7F800000#32
  let main_v20 : FVec F S160000x400 .f32 := broadcastInDim S160000x400 ![] bcast_S_S160000x400 main_cst_6
  let main_v21 : IVec S160000x400 1 := cmpf .olt main_v19 main_v20
  let main_c_7 : IVec S_ 1 := constantI S_ 1 1#1
  let main_v22 : IVec S_ 1 := (fun x v => Host.reduce IntOp.andi x v reducesTo_S160000x400_S_d0_1 h_S_) main_v21 main_c_7
  let main_v23 : IVec S_ 1 := andi main_v18 main_v22
  main_v23

def fn {F : FTy → Type} [FloatOps F] (main_arg0 : FVec F S400x256 .f32) (main_arg1 : FVec F S160000x5 .f32) (main_arg2 : FVec F S256x128 .f32) (main_arg3 : FVec F S261x400 .f32) (main_arg4 : FVec F S160000x400 .f32) : IVec S_ 1 :=
  let main_v0 : FVec F S400x256 .f32 := Host.absf main_arg0
  let main_cst : FVec F S_ .f32 := constant S_ .f32 0x7F800000#32
  let main_v1 : FVec F S400x256 .f32 := broadcastInDim S400x256 ![] bcast_S_S400x256 main_cst
  let main_v2 : IVec S400x256 1 := cmpf .olt main_v0 main_v1
  let main_c : IVec S_ 1 := constantI S_ 1 1#1
  let main_v3 : IVec S_ 1 := (fun x v => Host.reduce IntOp.andi x v reducesTo_S400x256_S_d0_1 h_S_) main_v2 main_c
  let main_v4 : FVec F S160000x5 .f32 := Host.absf main_arg1
  let main_cst_0 : FVec F S_ .f32 := constant S_ .f32 0x7F800000#32
  let main_v5 : FVec F S160000x5 .f32 := broadcastInDim S160000x5 ![] bcast_S_S160000x5 main_cst_0
  let main_v6 : IVec S160000x5 1 := cmpf .olt main_v4 main_v5
  let main_c_1 : IVec S_ 1 := constantI S_ 1 1#1
  let main_v7 : IVec S_ 1 := (fun x v => Host.reduce IntOp.andi x v reducesTo_S160000x5_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S261x400 .f32 := Host.absf main_arg3
  let main_cst_4 : FVec F S_ .f32 := constant S_ .f32 0x7F800000#32
  let main_v15 : FVec F S261x400 .f32 := broadcastInDim S261x400 ![] bcast_S_S261x400 main_cst_4
  let main_v16 : IVec S261x400 1 := cmpf .olt main_v14 main_v15
  fn_part1 (F := F) main_arg4 main_v13 main_v16
-- ==== Kernel.lean ====
abbrev S400x256 : Shape := ⟨2, ![400, 256]⟩
abbrev S160000x5 : Shape := ⟨2, ![160000, 5]⟩
abbrev S256x128 : Shape := ⟨2, ![256, 128]⟩
abbrev S261x400 : Shape := ⟨2, ![261, 400]⟩
abbrev S160000x400 : Shape := ⟨2, ![160000, 400]⟩
abbrev S400x128 : Shape := ⟨2, ![400, 128]⟩
abbrev S128x400 : Shape := ⟨2, ![128, 400]⟩
abbrev S5x400 : Shape := ⟨2, ![5, 400]⟩
abbrev S5x160000 : Shape := ⟨2, ![5, 160000]⟩
abbrev S5x3200 : Shape := ⟨2, ![5, 3200]⟩
abbrev S3200x400 : Shape := ⟨2, ![3200, 400]⟩
abbrev S8x128 : Shape := ⟨2, ![8, 128]⟩
abbrev S400x400 : Shape := ⟨2, ![400, 400]⟩
abbrev S400x5 : Shape := ⟨2, ![400, 5]⟩
abbrev S400 : Shape := ⟨1, ![400]⟩
abbrev S1x400 : Shape := ⟨2, ![1, 400]⟩
abbrev S8x400 : Shape := ⟨2, ![8, 400]⟩
abbrev S400x1 : Shape := ⟨2, ![400, 1]⟩

abbrev nBuf : Space → Nat
  | .hbm => 11
  | .vmem => 18
  | .smem => 0
  | _ => 0

abbrev bufTy : (tb : Table) → Fin (tcTables nBuf tb) → BufTy
  | .hbm, ⟨0, _⟩ => ⟨S400x256, .f32⟩
  | .hbm, ⟨1, _⟩ => ⟨S160000x5, .f32⟩
  | .hbm, ⟨2, _⟩ => ⟨S256x128, .f32⟩
  | .hbm, ⟨3, _⟩ => ⟨S261x400, .f32⟩
  | .hbm, ⟨4, _⟩ => ⟨S160000x400, .f32⟩
  | .hbm, ⟨5, _⟩ => ⟨S400x128, .f32⟩
  | .hbm, ⟨6, _⟩ => ⟨S128x400, .f32⟩
  | .hbm, ⟨7, _⟩ => ⟨S128x400, .f32⟩
  | .hbm, ⟨8, _⟩ => ⟨S5x400, .f32⟩
  | .hbm, ⟨9, _⟩ => ⟨S5x160000, .f32⟩
  | .hbm, ⟨10, _⟩ => ⟨S400x128, .f32⟩
  | .local _ .vmem, ⟨0, _⟩ => ⟨S400x256, .f32⟩
  | .local _ .vmem, ⟨1, _⟩ => ⟨S256x128, .f32⟩
  | .local _ .vmem, ⟨2, _⟩ => ⟨S400x128, .f32⟩
  | .local _ .vmem, ⟨3, _⟩ => ⟨S5x3200, .f32⟩
  | .local _ .vmem, ⟨4, _⟩ => ⟨S5x3200, .f32⟩
  | .local _ .vmem, ⟨5, _⟩ => ⟨S3200x400, .f32⟩
  | .local _ .vmem, ⟨6, _⟩ => ⟨S3200x400, .f32⟩
  | .local _ .vmem, ⟨7, _⟩ => ⟨S8x128, .f32⟩
  | .local _ .vmem, ⟨8, _⟩ => ⟨S8x128, .f32⟩
  | .local _ .vmem, ⟨9, _⟩ => ⟨S400x128, .f32⟩
  | .local _ .vmem, ⟨10, _⟩ => ⟨S128x400, .f32⟩
  | .local _ .vmem, ⟨11, _⟩ => ⟨S128x400, .f32⟩
  | .local _ .vmem, ⟨12, _⟩ => ⟨S5x400, .f32⟩
  | .local _ .vmem, ⟨13, _⟩ => ⟨S400x128, .f32⟩
  | .local _ .vmem, ⟨14, _⟩ => ⟨S400x400, .f32⟩
  | .local _ .vmem, ⟨15, _⟩ => ⟨S400x400, .f32⟩
  | .local _ .vmem, ⟨16, _⟩ => ⟨S400x5, .f32⟩
  | .local _ .vmem, ⟨17, _⟩ => ⟨S400x400, .f32⟩
  | _, _ => ⟨S400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S400x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v102 : BitVec 1 := Scalar.cmpi .eq arg0 c49_i32
  let v103 : BitVec 32 := Scalar.extui v102
  let c0_i32_83 : BitVec 32 := 0#32
  let v104 : BitVec 1 := Scalar.cmpi .ne v103 c0_i32_83
  v104

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S400x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x400 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x400 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5x400 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S400x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  inb_S400x256_S400x256_0_0 : ∀ a, (![0, 0] : Fin 2 → Nat) a + S400x256.size a ≤ S400x256.size a
  h_S400x256 : 0 < S400x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  slices_S261x400_S128x400_0_0 : S261x400.Slices ![0, 0] S128x400
  slices_S261x400_S128x400_128_0 : S261x400.Slices ![128, 0] S128x400
  slices_S261x400_S5x400_256_0 : S261x400.Slices ![256, 0] S5x400
  transposes_S160000x5_S5x160000_1_0 : S160000x5.Transposes [1, 0] S5x160000
  inb_S400x400_S400x400_0_0 : ∀ a, (![0, 0] : Fin 2 → Nat) a + S400x400.size a ≤ S400x400.size a
  h_S400x400 : 0 < S400x400.numel
  shapeCasts_S400x400_S400x400 : S400x400.ShapeCasts S400x400
  inb_S400x5_S400x5_0_0 : ∀ a, (![0, 0] : Fin 2 → Nat) a + S400x5.size a ≤ S400x5.size a
  h_S400x5 : 0 < S400x5.numel
  shapeCasts_S400x5_S400x5 : S400x5.ShapeCasts S400x5
  shapeCasts_S400x128_S400x128 : S400x128.ShapeCasts S400x128
  inb_S128x400_S128x400_0_0 : ∀ a, (![0, 0] : Fin 2 → Nat) a + S128x400.size a ≤ S128x400.size a
  h_S128x400 : 0 < S128x400.numel
  shapeCasts_S128x400_S128x400 : S128x400.ShapeCasts S128x400
  inb_S3200x400_S400x400_0_0 : ∀ a, (![0, 0] : Fin 2 → Nat) a + S400x400.size a ≤ S3200x400.size a
  reduces_S400x400_S400 : S400x400.Reduces [0] S400
  shapeCasts_S400_S1x400 : S400.ShapeCasts S1x400
  inb_S3200x400_S400x400_400_0 : ∀ a, (![400, 0] : Fin 2 → Nat) a + S400x400.size a ≤ S3200x400.size a
  inb_S3200x400_S400x400_800_0 : ∀ a, (![800, 0] : Fin 2 → Nat) a + S400x400.size a ≤ S3200x400.size a
  inb_S3200x400_S400x400_1200_0 : ∀ a, (![1200, 0] : Fin 2 → Nat) a + S400x400.size a ≤ S3200x400.size a
  inb_S3200x400_S400x400_1600_0 : ∀ a, (![1600, 0] : Fin 2 → Nat) a + S400x400.size a ≤ S3200x400.size a
  inb_S3200x400_S400x400_2000_0 : ∀ a, (![2000, 0] : Fin 2 → Nat) a + S400x400.size a ≤ S3200x400.size a
  inb_S3200x400_S400x400_2400_0 : ∀ a, (![2400, 0] : Fin 2 → Nat) a + S400x400.size a ≤ S3200x400.size a
  inb_S3200x400_S400x400_2800_0 : ∀ a, (![2800, 0] : Fin 2 → Nat) a + S400x400.size a ≤ S3200x400.size a
  concatenates_S1x400_S1x400_S1x400_S1x400_S1x400_S1x400_S1x400_S1x400_S8x400_d0 : Shape.Concatenates [S1x400, S1x400, S1x400, S1x400, S1x400, S1x400, S1x400, S1x400] S8x400 0
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S3200x400_S3200x400_0_0 : ∀ a, (![0, 0] : Fin 2 → Nat) a + S3200x400.size a ≤ S3200x400.size a
  h_S3200x400 : 0 < S3200x400.numel
  inb_S5x3200_S5x3200_0_0 : ∀ a, (![0, 0] : Fin 2 → Nat) a + S5x3200.size a ≤ S5x3200.size a
  h_S5x3200 : 0 < S5x3200.numel
  shapeCasts_S5x3200_S5x3200 : S5x3200.ShapeCasts S5x3200
  inb_S5x400_S5x400_0_0 : ∀ a, (![0, 0] : Fin 2 → Nat) a + S5x400.size a ≤ S5x400.size a
  h_S5x400 : 0 < S5x400.numel
  shapeCasts_S5x400_S5x400 : S5x400.ShapeCasts S5x400
  iota_S400x400_d0_w32 : S400x400.Iotas .tc 32 [0]
  iota_S400x400_d1_w32 : S400x400.Iotas .tc 32 [1]
  reduces_S400x400_S400_2 : S400x400.Reduces [1] S400
  shapeCasts_S400_S400x1 : S400.ShapeCasts S400x1
  broadcasts_S400x1_S400x400 : S400x1.Broadcasts S400x400
  dot_S400x256_S256x128_S400x128_1_0_0_1_n_n_wf : DotDims.WF S400x256 S256x128 S400x128 [1] [0] [0] [1] [] []
  dot_S400x128_S128x400_S400x400_1_0_0_1_n_n_wf : DotDims.WF S400x128 S128x400 S400x400 [1] [0] [0] [1] [] []
  dot_S8x128_S128x400_S8x400_1_0_0_1_n_n_wf : DotDims.WF S8x128 S128x400 S8x400 [1] [0] [0] [1] [] []
  dot_S8x400_S8x400_S400x400_0_0_1_1_n_n_wf : DotDims.WF S8x400 S8x400 S400x400 [0] [0] [1] [1] [] []
  dot_S3200x400_S5x3200_S400x5_0_1_1_0_n_n_wf : DotDims.WF S3200x400 S5x3200 S400x5 [0] [1] [1] [0] [] []
  dot_S400x400_S400x400_S400x400_0_0_1_1_n_n_wf : DotDims.WF S400x400 S400x400 S400x400 [0] [0] [1] [1] [] []
  dot_S400x5_S5x400_S400x400_1_0_0_1_n_n_wf : DotDims.WF S400x5 S5x400 S400x400 [1] [0] [0] [1] [] []
  dot_S400x400_S400x128_S400x128_1_0_0_1_n_n_wf : DotDims.WF S400x400 S400x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S400x256.size a
  hwx0_0 : ∀ i : grid0.Coords, EltTy.bits .f32 = 32 ∨ (Rect.block (s := S400x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S400x128.size a
  hwx0_2 : ∀ i : grid0.Coords, EltTy.bits .f32 = 32 ∨ (Rect.block (s := S400x128) S400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x3200.size a ≤ S5x160000.size a
  hwx1_0 : ∀ i : grid1.Coords, EltTy.bits .f32 = 32 ∨ (Rect.block (s := S5x160000) S5x3200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x400.size a ≤ S160000x400.size a
  hwx1_1 : ∀ i : grid1.Coords, EltTy.bits .f32 = 32 ∨ (Rect.block (s := S160000x400) S3200x400.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S400x128.size a
  hwx1_2 : ∀ i : grid1.Coords, EltTy.bits .f32 = 32 ∨ (Rect.block (s := S400x128) S8x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S400x128.size a
  hwx1_3 : ∀ i : grid1.Coords, EltTy.bits .f32 = 32 ∨ (Rect.block (s := S400x128) S400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x400.size a ≤ S128x400.size a
  hwx1_4 : ∀ i : grid1.Coords, EltTy.bits .f32 = 32 ∨ (Rect.block (s := S128x400) S128x400.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x400.size a ≤ S128x400.size a
  hwx1_5 : ∀ i : grid1.Coords, EltTy.bits .f32 = 32 ∨ (Rect.block (s := S128x400) S128x400.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S5x400.size a ≤ S5x400.size a
  hwx1_6 : ∀ i : grid1.Coords, EltTy.bits .f32 = 32 ∨ (Rect.block (s := S5x400) S5x400.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S400x128.size a
  hwx1_7 : ∀ i : grid1.Coords, EltTy.bits .f32 = 32 ∨ (Rect.block (s := S400x128) S400x128.size (cc1_transform_7 i) (hinb1_7 i)).WholeWords (EltTy.packing .f32)

variable [Facts₀]

def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x400_S400x400_1_0_0_1_n_n : DotDims S400x128 S128x400 S400x400 where
  lhsContracting := [1]
  rhsContracting := [0]
  lhsNonContracting := [0]
  rhsNonContracting := [1]
  lhsBatch := []
  rhsBatch := []
  wf := dot_S400x128_S128x400_S400x400_1_0_0_1_n_n_wf
def dot_S8x128_S128x400_S8x400_1_0_0_1_n_n : DotDims S8x128 S128x400 S8x400 where
  lhsContracting := [1]
  rhsContracting := [0]
  lhsNonContracting := [0]
  rhsNonContracting := [1]
  lhsBatch := []
  rhsBatch := []
  wf := dot_S8x128_S128x400_S8x400_1_0_0_1_n_n_wf
def dot_S8x400_S8x400_S400x400_0_0_1_1_n_n : DotDims S8x400 S8x400 S400x400 where
  lhsContracting := [0]
  rhsContracting := [0]
  lhsNonContracting := [1]
  rhsNonContracting := [1]
  lhsBatch := []
  rhsBatch := []
  wf := dot_S8x400_S8x400_S400x400_0_0_1_1_n_n_wf
def dot_S3200x400_S5x3200_S400x5_0_1_1_0_n_n : DotDims S3200x400 S5x3200 S400x5 where
  lhsContracting := [0]
  rhsContracting := [1]
  lhsNonContracting := [1]
  rhsNonContracting := [0]
  lhsBatch := []
  rhsBatch := []
  wf := dot_S3200x400_S5x3200_S400x5_0_1_1_0_n_n_wf
def dot_S400x400_S400x400_S400x400_0_0_1_1_n_n : DotDims S400x400 S400x400 S400x400 where
  lhsContracting := [0]
  rhsContracting := [0]
  lhsNonContracting := [1]
  rhsNonContracting := [1]
  lhsBatch := []
  rhsBatch := []
  wf := dot_S400x400_S400x400_S400x400_0_0_1_1_n_n_wf
def dot_S400x5_S5x400_S400x400_1_0_0_1_n_n : DotDims S400x5 S5x400 S400x400 where
  lhsContracting := [1]
  rhsContracting := [0]
  lhsNonContracting := [0]
  rhsNonContracting := [1]
  lhsBatch := []
  rhsBatch := []
  wf := dot_S400x5_S5x400_S400x400_1_0_0_1_n_n_wf
def dot_S400x400_S400x128_S400x128_1_0_0_1_n_n : DotDims S400x400 S400x128 S400x128 where
  lhsContracting := [1]
  rhsContracting := [0]
  lhsNonContracting := [0]
  rhsNonContracting := [1]
  lhsBatch := []
  rhsBatch := []
  wf := dot_S400x400_S400x128_S400x128_1_0_0_1_n_n_wf

abbrev win0_0 : Pipeline.Window sig grid0 :=
  Pipeline.Window.ofSpec (Memref.whole main_arg0) S400x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S3200x400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x400.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S128x400.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S5x400.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S400x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S400x256 : Shape := ⟨2, ![400, 256]⟩
abbrev S160000x5 : Shape := ⟨2, ![160000, 5]⟩
abbrev S256x128 : Shape := ⟨2, ![256, 128]⟩
abbrev S261x400 : Shape := ⟨2, ![261, 400]⟩
abbrev S160000x400 : Shape := ⟨2, ![160000, 400]⟩
abbrev S400x128 : Shape := ⟨2, ![400, 128]⟩
abbrev S400x400x128 : Shape := ⟨3, ![400, 400, 128]⟩
abbrev S160000x128 : Shape := ⟨2, ![160000, 128]⟩
abbrev S1x400x1x128 : Shape := ⟨4, ![1, 400, 1, 128]⟩
abbrev S400x400x1x128 : Shape := ⟨4, ![400, 400, 1, 128]⟩
abbrev S160000x261 : Shape := ⟨2, ![160000, 261]⟩
abbrev S400x160000 : Shape := ⟨2, ![400, 160000]⟩
abbrev S400x400 : Shape := ⟨2, ![400, 400]⟩
abbrev S_ : Shape := ⟨0, ![]⟩
abbrev S400 : Shape := ⟨1, ![400]⟩
abbrev S400x1 : Shape := ⟨2, ![400, 1]⟩

abbrev nBuf : Space → Nat
  | .hbm => 49
  | .vmem => 0
  | .smem => 0
  | _ => 0

abbrev bufTy : (tb : Table) → Fin (tcTables nBuf tb) → BufTy
  | .hbm, ⟨0, _⟩ => ⟨S400x256, .f32⟩
  | .hbm, ⟨1, _⟩ => ⟨S160000x5, .f32⟩
  | .hbm, ⟨2, _⟩ => ⟨S256x128, .f32⟩
  | .hbm, ⟨3, _⟩ => ⟨S261x400, .f32⟩
  | .hbm, ⟨4, _⟩ => ⟨S160000x400, .f32⟩
  | .hbm, ⟨5, _⟩ => ⟨S400x128, .f32⟩
  | .hbm, ⟨6, _⟩ => ⟨S400x400x128, .f32⟩
  | .hbm, ⟨7, _⟩ => ⟨S160000x128, .f32⟩
  | .hbm, ⟨8, _⟩ => ⟨S1x400x1x128, .f32⟩
  | .hbm, ⟨9, _⟩ => ⟨S400x400x1x128, .f32⟩
  | .hbm, ⟨10, _⟩ => ⟨S160000x128, .f32⟩
  | .hbm, ⟨11, _⟩ => ⟨S160000x261, .f32⟩
  | .hbm, ⟨12, _⟩ => ⟨S160000x400, .f32⟩
  | .hbm, ⟨13, _⟩ => ⟨S400x160000, .f32⟩
  | .hbm, ⟨14, _⟩ => ⟨S400x400, .f32⟩
  | .hbm, ⟨15, _⟩ => ⟨S_, .f32⟩
  | .hbm, ⟨16, _⟩ => ⟨S_, .f32⟩
  | .hbm, ⟨17, _⟩ => ⟨S400x400, .f32⟩
  | .hbm, ⟨18, _⟩ => ⟨S400x400, .i1⟩
  | .hbm, ⟨19, _⟩ => ⟨S_, .f32⟩
  | .hbm, ⟨20, _⟩ => ⟨S400x400, .f32⟩
  | .hbm, ⟨21, _⟩ => ⟨S400x400, .f32⟩
  | .hbm, ⟨22, _⟩ => ⟨S400x400, .f32⟩
  | .hbm, ⟨23, _⟩ => ⟨S400x400, .i32⟩
  | .hbm, ⟨24, _⟩ => ⟨S400x400, .i32⟩
  | .hbm, ⟨25, _⟩ => ⟨S_, .i32⟩
  | .hbm, ⟨26, _⟩ => ⟨S400x400, .i32⟩
  | .hbm, ⟨27, _⟩ => ⟨S400x400, .i32⟩
  | .hbm, ⟨28, _⟩ => ⟨S400x400, .i1⟩
  | .hbm, ⟨29, _⟩ => ⟨S400x400, .i1⟩
  | .hbm, ⟨30, _⟩ => ⟨S_, .f32⟩
  | .hbm, ⟨31, _⟩ => ⟨S_, .f32⟩
  | .hbm, ⟨32, _⟩ => ⟨S400x400, .f32⟩
  | .hbm, ⟨33, _⟩ => ⟨S400x400, .f32⟩
  | .hbm, ⟨34, _⟩ => ⟨S_, .f32⟩
  | .hbm, ⟨35, _⟩ => ⟨S400, .f32⟩
  | .hbm, ⟨36, _⟩ => ⟨S_, .f32⟩
  | .hbm, ⟨37, _⟩ => ⟨S400, .f32⟩
  | .hbm, ⟨38, _⟩ => ⟨S400, .f32⟩
  | .hbm, ⟨39, _⟩ => ⟨S400x1, .f32⟩
  | .hbm, ⟨40, _⟩ => ⟨S400x400, .f32⟩
  | .hbm, ⟨41, _⟩ => ⟨S400x400, .f32⟩
  | .hbm, ⟨42, _⟩ => ⟨S400x400, .f32⟩
  | .hbm, ⟨43, _⟩ => ⟨S_, .f32⟩
  | .hbm, ⟨44, _⟩ => ⟨S400, .f32⟩
  | .hbm, ⟨45, _⟩ => ⟨S400x1, .f32⟩
  | .hbm, ⟨46, _⟩ => ⟨S400x400, .f32⟩
  | .hbm, ⟨47, _⟩ => ⟨S400x400, .f32⟩
  | .hbm, ⟨48, _⟩ => ⟨S400x128, .f32⟩
  | _, _ => ⟨S400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  bcast_S400x128_S400x400x128_0_2 : S400x128.BroadcastsInDim S400x400x128 (![0, 2] : Fin 2 → Fin S400x400x128.rank)
  shapeCasts_S400x400x128_S160000x128 : S400x400x128.ShapeCasts S160000x128
  shapeCasts_S400x128_S1x400x1x128 : S400x128.ShapeCasts S1x400x1x128
  bcast_S1x400x1x128_S400x400x1x128_0_1_2_3 : S1x400x1x128.BroadcastsInDim S400x400x1x128 (![0, 1, 2, 3] : Fin 4 → Fin S400x400x1x128.rank)
  shapeCasts_S400x400x1x128_S160000x128 : S400x400x1x128.ShapeCasts S160000x128
  concatenates_S160000x128_S160000x128_S160000x5_S160000x261_d1 : Shape.Concatenates [S160000x128, S160000x128, S160000x5] S160000x261 1
  transposes_S160000x400_S400x160000_1_0 : S160000x400.Transposes [1, 0] S400x160000
  bcast_S_S400x400 : S_.BroadcastsInDim S400x400 (![] : Fin 0 → Fin S400x400.rank)
  reducesTo_S400x400_S400_d1 : S400x400.ReducesTo [1] S400
  h_S_ : 0 < S_.numel
  bcast_S_S400 : S_.BroadcastsInDim S400 (![] : Fin 0 → Fin S400.rank)
  bcast_S400_S400x1_0 : S400.BroadcastsInDim S400x1 (![0] : Fin 1 → Fin S400x1.rank)
  bcast_S400x1_S400x400_0_1 : S400x1.BroadcastsInDim S400x400 (![0, 1] : Fin 2 → Fin S400x400.rank)
  dot_S400x256_S256x128_S400x128_1_0_0_1_n_n_wf : DotDims.WF S400x256 S256x128 S400x128 [1] [0] [0] [1] [] []
  dot_S160000x261_S261x400_S160000x400_1_0_0_1_n_n_wf : DotDims.WF S160000x261 S261x400 S160000x400 [1] [0] [0] [1] [] []
  dot_S400x160000_S160000x400_S400x400_1_0_0_1_n_n_wf : DotDims.WF S400x160000 S160000x400 S400x400 [1] [0] [0] [1] [] []
  dot_S400x400_S400x128_S400x128_1_0_0_1_n_n_wf : DotDims.WF S400x400 S400x128 S400x128 [1] [0] [0] [1] [] []

variable [Facts₀]

def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S160000x261_S261x400_S160000x400_1_0_0_1_n_n : DotDims S160000x261 S261x400 S160000x400 where
  lhsContracting := [1]
  rhsContracting := [0]
  lhsNonContracting := [0]
  rhsNonContracting := [1]
  lhsBatch := []
  rhsBatch := []
  wf := dot_S160000x261_S261x400_S160000x400_1_0_0_1_n_n_wf
def dot_S400x160000_S160000x400_S400x400_1_0_0_1_n_n : DotDims S400x160000 S160000x400 S400x400 where
  lhsContracting := [1]
  rhsContracting := [0]
  lhsNonContracting := [0]
  rhsNonContracting := [1]
  lhsBatch := []
  rhsBatch := []
  wf := dot_S400x160000_S160000x400_S400x400_1_0_0_1_n_n_wf
def dot_S400x400_S400x128_S400x128_1_0_0_1_n_n : DotDims S400x400 S400x128 S400x128 where
  lhsContracting := [1]
  rhsContracting := [0]
  lhsNonContracting := [0]
  rhsNonContracting := [1]
  lhsBatch := []
  rhsBatch := []
  wf := dot_S400x400_S400x128_S400x128_1_0_0_1_n_n_wf

class Facts : Prop extends Facts₀ where

variable [Facts]
-- ==== Proof.BRuns.lean ====
/-
  The second kernel region, the attention layer proper, over 50 grid points (8 source nodes each). What its three
  whole-body runs share: the block each window holds at a point; the two conditions of the body (the first point
  resets the accumulators and forms wh · a1_j; the last point finishes with the softmax and stores the output), decided
  over the grid; where the output window is idle; the staging and scratch memrefs by name; and the region's invariant
  with the four scratch buffers spelt out.
-/
import proofs.«158061_j24318104830717_2_alg».proof.Proof.Gen.Kernel.Launch
import proofs.«158061_j24318104830717_2_alg».proof.Proof.Gen.Kernel.Skeleton
import proofs.«158061_j24318104830717_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- "This is the first point": the accumulators are reset and wh · a1_j is formed. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- "This is the last point": the output is computed and stored. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from the last point the output window is idle and not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At the last point it is live. -/
theorem liveAt1_7 : ∀ t : Fin cfg1.N, cond1_1 (grid1.coords t) → cfg1.idle 7 (grid1.coords t) = false := by decide +kernel

/-! ## The memrefs by name -/

/-- One staging buffer of the output window, through which its contents are stated. -/
abbrev VO1_7 : View sig .tc .vmem S400x128 .f32 := (Memref.whole cc1_stg7_0 : Memref sig .tc .vmem S400x128 .f32).view
abbrev ms1_0 (t : Fin cfg1.N) : Memref sig .tc .vmem S5x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x400 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x400 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x400 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5x400 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S400x128 .f32 := win1_7.stage (cfg1.slots t 7)
abbrev hs1_7 (t : Fin cfg1.N) : (ms1_7 t).IsWhole := hstage1_7 ((cfg1.slots t 7).cast nbuf1_7)
/-- The four scratch buffers: the source-term accumulator, the a3 column-sum accumulator, the a3ᵀ·ef accumulator, wh · a1_j. -/
abbrev scM1_0 : Memref sig .tc .vmem S400x400 .f32 := Memref.whole cc1_scratch0
abbrev VS1_0 : View sig .tc .vmem S400x400 .f32 := scM1_0.view
abbrev scM1_1 : Memref sig .tc .vmem S400x400 .f32 := Memref.whole cc1_scratch1
abbrev VS1_1 : View sig .tc .vmem S400x400 .f32 := scM1_1.view
abbrev scM1_2 : Memref sig .tc .vmem S400x5 .f32 := Memref.whole cc1_scratch2
abbrev VS1_2 : View sig .tc .vmem S400x5 .f32 := scM1_2.view
abbrev scM1_3 : Memref sig .tc .vmem S400x400 .f32 := Memref.whole cc1_scratch3
abbrev VS1_3 : View sig .tc .vmem S400x400 .f32 := scM1_3.view
/-- The first region's three staging buffers, which this region never touches. -/
abbrev othM1_0 : Memref sig .tc .vmem S400x256 .f32 := Memref.whole cc0_stg0_0
abbrev othM1_1 : Memref sig .tc .vmem S256x128 .f32 := Memref.whole cc0_stg1_0
abbrev othM1_2 : Memref sig .tc .vmem S400x128 .f32 := Memref.whole cc0_stg2_0

/-- What of the invariant the body never reads: the other region's staging buffers and the generator register. -/
def Oth1 (c : Dev nD) : sProp 𝕄 :=
  iprop((∃ d, owns (c : Thread nD τ) othM1_0 fullShare d) ∗ (∃ d, owns (c : Thread nD τ) othM1_1 fullShare d) ∗ (∃ d, owns (c : Thread nD τ) othM1_2 fullShare d))

/-- The region's invariant before the first point, with the scratch buffers as memrefs owned at some contents. -/
theorem PhiA1_eq (c : Dev nD) :
    (Pipeline.ΦA spec1 c : sProp 𝕄)
      = iprop(iprop((∃ d, owns (c : Thread nD τ) othM1_0 fullShare d) ∗ (∃ d, owns (c : Thread nD τ) othM1_1 fullShare d) ∗ (∃ d, owns (c : Thread nD τ) othM1_2 fullShare d)
          ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [othM1_0, othM1_1, othM1_2, scM1_0, scM1_1, scM1_2, scM1_3, owns_whole]; try rfl

end Cert.Kernel.Hand

end
-- ==== Proof.BRunB.lean ====
/-
  The body's whole run at a middle point (neither the first nor the last): the three accumulators, entering at what
  the point before left, are each loaded, added to and stored back whole — the source term once, the column sums of
  a3 eight times (once per source node of the chunk), a3ᵀ·ef once; wh · a1_j is only kept. The pieces each accumulator
  ends with are found by the run itself.
-/
import proofs.«158061_j24318104830717_2_alg».proof.Proof.BRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The run at a middle point, on whole memrefs: the seven inputs at their blocks, the idle output handed back
    untouched, the four scratch buffers at what the point before left. -/
noncomputable def kernelRun1_B (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i)
    (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32)
    (xs0 : Vec F S400x400 .f32) (xs1 : Vec F S400x400 .f32) (xs2 : Vec F S400x5 .f32) (xs3 : Vec F S400x400 .f32) :
    Σ' (LS0 : List (View.Piece (Elt F) S400x400 .f32)) (LS1 : List (View.Piece (Elt F) S400x400 .f32)), { LS2 : List (View.Piece (Elt F) S400x5 .f32) //
      ∀ (xi7 : Vec F S400x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__gat_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi7 E K => ?run⟩
  case run =>
    simp only [cc1__gat_kernel_eq_skeleton]; unfold cc1__gat_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    iexists _; isplitr; · ipureintro; exact harg12.read_unread _
    iexact HS3

end Cert.Kernel.Hand

end
-- ==== Proof.BRunA.lean ====
/-
  The body's whole run at the first point: the three accumulators are reset to zero and wh · a1_j is formed and kept,
  all four scratch buffers stored whole before anything reads them; then the point's own contributions are added as at
  every point. The output window is idle.
-/
import proofs.«158061_j24318104830717_2_alg».proof.Proof.BRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The run at the first point, on whole memrefs: the seven inputs at their blocks, the idle output handed back
    untouched, the four scratch buffers at anything. -/
noncomputable def kernelRun1_A (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i)
    (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) :
    Σ' (LS0 : List (View.Piece (Elt F) S400x400 .f32)) (LS1 : List (View.Piece (Elt F) S400x400 .f32)) (LS2 : List (View.Piece (Elt F) S400x5 .f32)), { LS3 : List (View.Piece (Elt F) S400x400 .f32) //
      ∀ (xi7 : Vec F S400x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__gat_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun xi7 E K => ?run⟩
  case run =>
    simp only [cc1__gat_kernel_eq_skeleton]; unfold cc1__gat_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    iexists _; iexact HS3

end Cert.Kernel.Hand

end
-- ==== Proof.BRunC.lean ====
/-
  The body's whole run at the last point: the accumulators are updated as at a middle point, and then read once more:
  the score is assembled from them and wh · a1_j, passed through the leaky ReLU, the diagonal mask and the row softmax,
  multiplied with wh, and stored whole into the output window.
-/
import proofs.«158061_j24318104830717_2_alg».proof.Proof.BRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The run at the last point, on whole memrefs: the seven inputs at their blocks, the output at anything, the four
    scratch buffers at what the point before left. -/
noncomputable def kernelRun1_C (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i)
    (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32)
    (xs0 : Vec F S400x400 .f32) (xs1 : Vec F S400x400 .f32) (xs2 : Vec F S400x5 .f32) (xs3 : Vec F S400x400 .f32) :
    Σ' (L7 : List (View.Piece (Elt F) S400x128 .f32)) (LS0 : List (View.Piece (Elt F) S400x400 .f32)) (LS1 : List (View.Piece (Elt F) S400x400 .f32)), { LS2 : List (View.Piece (Elt F) S400x5 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__gat_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__gat_kernel_eq_skeleton]; unfold cc1__gat_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    isplitl [HS2]; · iexists _; iexact HS2
    iexists _; isplitr; · ipureintro; exact harg12.read_unread _
    iexact HS3

end Cert.Kernel.Hand

end
-- ==== Proof.BRegion1.lean ====
/-
  The second region point by point. After each grid point the four scratch buffers hold: the source term summed over the
  chunks so far, the column sums of a3 over the chunks so far, a3ᵀ·ef over the chunks so far, and wh · a1_j (formed at
  the first point and kept). Each is what the point's run leaves — its pieces read back — over what the point before
  left. The output window's buffer is written at the last point only. From these: the region's invariant, its proof
  data, and the body obligation at every point.
-/
import proofs.«158061_j24318104830717_2_alg».proof.Proof.BRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves, read back from its pieces -/

theorem scover1_A_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (y : S400x400.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S400x400.size (by sl_kernel_rfl) y
/-- What the first point leaves in scratch buffer 0. -/
def sout1_A_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) : Vec F S400x400 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)
theorem scover1_A_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (y : S400x400.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 S400x400.size (by sl_kernel_rfl) y
/-- What the first point leaves in scratch buffer 1. -/
def sout1_A_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) : Vec F S400x400 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1)
theorem scover1_A_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (y : S400x5.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 S400x5.size (by sl_kernel_rfl) y
/-- What the first point leaves in scratch buffer 2. -/
def sout1_A_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) : Vec F S400x5 .f32 :=
  VS1_2.read (Elt F) (VS1_2.writes (Elt F) VS1_2.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1)
theorem scover1_A_3 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (y : S400x400.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S400x400.size (by sl_kernel_rfl) y
/-- What the first point leaves in scratch buffer 3. -/
def sout1_A_3 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) : Vec F S400x400 .f32 :=
  VS1_3.read (Elt F) (VS1_3.writes (Elt F) VS1_3.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)
theorem scover1_B_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x400.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1 S400x400.size (by sl_kernel_rfl) y
/-- What a middle point leaves in accumulator 0, over what the point before left. -/
def sout1_B_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x400 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1)
theorem scover1_B_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x400.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1 S400x400.size (by sl_kernel_rfl) y
/-- What a middle point leaves in accumulator 1, over what the point before left. -/
def sout1_B_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x400 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1)
theorem scover1_B_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x5.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1 S400x5.size (by sl_kernel_rfl) y
/-- What a middle point leaves in accumulator 2, over what the point before left. -/
def sout1_B_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x5 .f32 :=
  VS1_2.read (Elt F) (VS1_2.writes (Elt F) VS1_2.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1)
theorem scover1_C_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x400.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1 S400x400.size (by sl_kernel_rfl) y
/-- What the last point leaves in accumulator 0, over what the point before left. -/
def sout1_C_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x400 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1)
theorem scover1_C_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x400.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1 S400x400.size (by sl_kernel_rfl) y
/-- What the last point leaves in accumulator 1, over what the point before left. -/
def sout1_C_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x400 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1)
theorem scover1_C_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x5.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.2.1 S400x5.size (by sl_kernel_rfl) y
/-- What the last point leaves in accumulator 2, over what the point before left. -/
def sout1_C_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x5 .f32 :=
  VS1_2.read (Elt F) (VS1_2.writes (Elt F) VS1_2.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.2.1)
theorem cover1_C_7 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1 S400x128.size (by sl_kernel_rfl) y
/-- What the last point leaves in the output window's staging buffer. -/
def out1_C_7 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1)

/-! ## Which case a point is in -/

theorem c0_pos (t : Fin cfg1.N) (hz : t.val = 0) : cond1_0 (grid1.coords t) := (hcond1_0 t).mpr (by omega)
theorem c0_neg (t : Fin cfg1.N) (hz : t.val ≠ 0) : ¬cond1_0 (grid1.coords t) := fun h => by
  have h' := (hcond1_0 t).mp h
  have hN : t.val < 50 := lt_of_lt_of_eq t.isLt (show cfg1.N = 50 from N_1)
  omega
theorem c1_pos (t : Fin cfg1.N) (h1 : t.val % 50 = 49) : cond1_1 (grid1.coords t) := (hcond1_1 t).mpr h1
theorem c1_neg (t : Fin cfg1.N) (h1 : ¬t.val % 50 = 49) : ¬cond1_1 (grid1.coords t) := fun h => h1 ((hcond1_1 t).mp h)

section Region1

variable (V : (c : Dev nD) → (b : Ref sig .tc) → Buf (Elt F) ((c : Thread nD τ).loc b))

/-- The output buffer and the four scratch buffers, in that order. -/
abbrev Outs1 (F : FTy → Type) [FloatOps F] : Type := Vec F S400x128 .f32 × Vec F S400x400 .f32 × Vec F S400x400 .f32 × Vec F S400x5 .f32 × Vec F S400x400 .f32

/-- The output window's buffer where the body does not store into it: a placeholder nothing consults. -/
def junk7 : Vec F S400x128 .f32 := VO1_7.read (Elt F) VO1_7.junk

/-- THE ACCUMULATION: what the output buffer and the four scratch buffers hold after the body at position n. -/
def outsAt1 (c : Dev nD) : (n : ℕ) → n < cfg1.N → Outs1 F
  | 0, hn =>
    (junk7,
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) (c0_pos ⟨0, hn⟩ rfl) (c1_neg ⟨0, hn⟩ (show ¬(0 % 50 = 49) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
     sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) (c0_pos ⟨0, hn⟩ rfl) (c1_neg ⟨0, hn⟩ (show ¬(0 % 50 = 49) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
     sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) (c0_pos ⟨0, hn⟩ rfl) (c1_neg ⟨0, hn⟩ (show ¬(0 % 50 = 49) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
     sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) (c0_pos ⟨0, hn⟩ rfl) (c1_neg ⟨0, hn⟩ (show ¬(0 % 50 = 49) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h1 : (n + 1) % 50 = 49 then
      (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_pos ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_pos ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_pos ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_pos ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       (outsAt1 c n (Nat.lt_of_succ_lt hn)).2.2.2.2)
    else
      (junk7,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_neg ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_neg ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_neg ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       (outsAt1 c n (Nat.lt_of_succ_lt hn)).2.2.2.2)

/-- At the first point: what the reset-and-add run leaves. -/
theorem outsAt1_A (c : Dev nD) (t : Fin cfg1.N) (hz : t.val = 0) (h1 : ¬t.val % 50 = 49) :
    outsAt1 V c t.val t.isLt = (junk7,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t),
      sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t),
      sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact absurd hz (Nat.succ_ne_zero n)

/-- At a middle point: that run's contents, over what the point before left. -/
theorem outsAt1_B (c : Dev nD) (t : Fin cfg1.N) (hz : t.val ≠ 0) (h1 : ¬t.val % 50 = 49) :
    outsAt1 V c t.val t.isLt = (junk7,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      (outsAt1 V c (t.val - 1) (Nat.lt_of_le_of_lt (Nat.sub_le _ _) t.isLt)).2.2.2.2) := by
  obtain ⟨n, hn⟩ := t
  cases n with
  | zero => exact absurd rfl hz
  | succ n => exact (dif_neg h1).trans rfl

/-- At the last point: that run's contents, over what the point before left. -/
theorem outsAt1_C (c : Dev nD) (t : Fin cfg1.N) (hz : t.val ≠ 0) (h1 : t.val % 50 = 49) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      (outsAt1 V c (t.val - 1) (Nat.lt_of_le_of_lt (Nat.sub_le _ _) t.isLt)).2.2.2.2) := by
  obtain ⟨n, hn⟩ := t
  cases n with
  | zero => exact absurd rfl hz
  | succ n => exact (dif_pos h1).trans rfl

/-! ## The invariant -/

/-- Before position n: at the start the launch's (every scratch buffer at anything); afterwards each scratch buffer at
    what the point before left in it. -/
def PhiS1 (c : Dev nD) : (n : ℕ) → n ≤ cfg1.N → sProp 𝕄
  | 0, _ => Pipeline.ΦA spec1 c
  | n + 1, hn => iprop(iprop((∃ d, owns (c : Thread nD τ) othM1_0 fullShare d) ∗ (∃ d, owns (c : Thread nD τ) othM1_1 fullShare d) ∗ (∃ d, owns (c : Thread nD τ) othM1_2 fullShare d)
      ∗ owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2.1) ∗ owns (c : Thread nD τ) scM1_3 fullShare ((outsAt1 V c n hn).2.2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ d, owns (c : Thread nD τ) othM1_0 fullShare d) ∗ (∃ d, owns (c : Thread nD τ) othM1_1 fullShare d) ∗ (∃ d, owns (c : Thread nD τ) othM1_2 fullShare d)
      ∗ owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS1_pos (c : Dev nD) (n : ℕ) (h : n ≤ cfg1.N) (hz : n ≠ 0) :
    PhiS1 V c n h = iprop(iprop((∃ d, owns (c : Thread nD τ) othM1_0 fullShare d) ∗ (∃ d, owns (c : Thread nD τ) othM1_1 fullShare d) ∗ (∃ d, owns (c : Thread nD τ) othM1_2 fullShare d)
      ∗ owns (c : Thread nD τ) scM1_0 fullShare ((outsAt1 V c (n - 1) (by omega)).2.1) ∗ owns (c : Thread nD τ) scM1_1 fullShare ((outsAt1 V c (n - 1) (by omega)).2.2.1)
      ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The proof data -/

/-- The region's proof data on core c. The two windows that stage wh (the chunk's eight rows; the whole array) hold
    its buffer at the two halves of the full share; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; which of the three runs applies is decided by the
    point's position; the invariant hands the run the scratch buffers at what the point before left (at anything at the
    first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h1 : t.val % 50 = 49
  · have hz : t.val ≠ 0 := by omega
    rw [show (dat1 V c).leavesExact 7 t = owns (c : Thread nD τ) (ms1_7 t) fullShare ((dat1 V c).after 7 t) from by
      unfold Dat.leavesExact; rw [liveAt1_7 t (c1_pos t h1)], after1_7]
    rw [outsAt1_C V c t hz h1]
    unfold out1_C_7 sout1_C_0 sout1_C_1 sout1_C_2; (try dsimp only)
    rw [PhiS1_castSucc V c t, PhiS1_pos V c _ _ hz]
    iintro ⟨⟨⟨HO0, HO1, HO2, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_C c (grid1.coords t) _ _ _ _ _ _ _ _ _ _ _ _ _ _ _ _ _ _ _ _ _ _ _ _ (c0_neg t hz) (c1_pos t h1) (iblk1 V c 0 t) (iblk1 V c 1 t) (iblk1 V c 2 t) (iblk1 V c 3 t) (iblk1 V c 4 t) (iblk1 V c 5 t) (iblk1 V c 6 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, ⟨%e7, H7⟩, ⟨%es0, HS0⟩, ⟨%es1, HS1⟩, ⟨%es2, HS2⟩, HS3⟩
    isplitl [HO0 HO1 HO2 HS0 HS1 HS2 HS3 Hg]
    · isplitl [HO0 HO1 HO2 HS0 HS1 HS2 HS3]
      · skip
        isplitl [HO0]; · iexact HO0
        isplitl [HO1]; · iexact HO1
        isplitl [HO2]; · iexact HO2
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _ _ _ _ _ _ _)
        iexact HS3
      · iexact Hg
    · skip
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _ _ _ _ _ _ _ _ _ _)
  · rw [Dat.leavesExact_idle (dat1 V c) 7 t (idleAt1_7 t (c1_neg t h1)) (noFlush1_7 t (c1_neg t h1))]
    by_cases hz : t.val = 0
    · rw [outsAt1_A V c t hz h1]
      unfold sout1_A_0 sout1_A_1 sout1_A_2 sout1_A_3; (try dsimp only)
      rw [PhiS1_castSucc V c t, PhiS1_zero V c _ _ hz, PhiA1_eq]
      iintro ⟨⟨⟨HO0, HO1, HO2, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ _ _ _ _ (c0_pos t hz) (c1_neg t h1) (iblk1 V c 0 t) (iblk1 V c 1 t) (iblk1 V c 2 t) (iblk1 V c 3 t) (iblk1 V c 4 t) (iblk1 V c 5 t) (iblk1 V c 6 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, ⟨%es1, HS1⟩, ⟨%es2, HS2⟩, ⟨%es3, HS3⟩⟩
      isplitl [HO0 HO1 HO2 HS0 HS1 HS2 HS3 Hg]
      · isplitl [HO0 HO1 HO2 HS0 HS1 HS2 HS3]
        · skip
          isplitl [HO0]; · iexact HO0
          isplitl [HO1]; · iexact HO1
          isplitl [HO2]; · iexact HO2
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _ _ _ _ _ _ _ _ _ _)
        · iexact Hg
      · skip
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
    · rw [outsAt1_B V c t hz h1]
      unfold sout1_B_0 sout1_B_1 sout1_B_2; (try dsimp only)
      rw [PhiS1_castSucc V c t, PhiS1_pos V c _ _ hz]
      iintro ⟨⟨⟨HO0, HO1, HO2, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ _ _ _ _ (c0_neg t hz) (c1_neg t h1) (iblk1 V c 0 t) (iblk1 V c 1 t) (iblk1 V c 2 t) (iblk1 V c 3 t) (iblk1 V c 4 t) (iblk1 V c 5 t) (iblk1 V c 6 t) _ _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, ⟨%es1, HS1⟩, ⟨%es2, HS2⟩, HS3⟩
      isplitl [HO0 HO1 HO2 HS0 HS1 HS2 HS3 Hg]
      · isplitl [HO0 HO1 HO2 HS0 HS1 HS2 HS3]
        · skip
          isplitl [HO0]; · iexact HO0
          isplitl [HO1]; · iexact HO1
          isplitl [HO2]; · iexact HO2
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _ _ _ _ _)
          iexact HS3
        · iexact Hg
      · skip
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BShare.lean ====
/-
  Entering and leaving the second region when two of its windows stage the same array. The eight windows stand on
  seven distinct buffers: wh is read both eight rows at a time and whole. At entry the seven buffers, each held whole,
  become the eight windows' arrays — wh's full share split in two halves, one per window; at exit the halves join again.
-/
import proofs.«158061_j24318104830717_2_alg».proof.Proof.BRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The distinct buffers behind the second region's windows. -/
theorem arrImage1 : (Finset.univ.image (Pipeline.arrRef spec1) : Finset (Ref sig .tc))
    = ([main_v4, main_arg4, main_v0, main_v1, main_v2, main_v3, main_v5] : List (Ref sig .tc)).toFinset := by decide

/-- Those buffers, each whole at the full share, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v4) ↦{fullShare} Vc main_v4) ∗ (((c : Thread nD τ).loc main_arg4) ↦{fullShare} Vc main_arg4) ∗ (((c : Thread nD τ).loc main_v0) ↦{fullShare} Vc main_v0)
          ∗ (((c : Thread nD τ).loc main_v1) ↦{fullShare} Vc main_v1) ∗ (((c : Thread nD τ).loc main_v2) ↦{fullShare} Vc main_v2) ∗ (((c : Thread nD τ).loc main_v3) ↦{fullShare} Vc main_v3) ∗ (((c : Thread nD τ).loc main_v5) ↦{fullShare} Vc main_v5)) := by
  unfold Pipeline.arrBufs
  exact bigSep_eq_bigSepL_of_eq _ arrImage1 (by decide) _

/-- The eight windows' arrays at contents G, one by one, each at the share the proof data names. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v4) ↦{fullShare} G 0) ∗ (((c : Thread nD τ).loc main_arg4) ↦{fullShare} G 1) ∗ (((c : Thread nD τ).loc main_v0) ↦{fullShare.left} G 2) ∗ (((c : Thread nD τ).loc main_v0) ↦{fullShare.right} G 3)
          ∗ (((c : Thread nD τ).loc main_v1) ↦{fullShare} G 4) ∗ (((c : Thread nD τ).loc main_v2) ↦{fullShare} G 5) ∗ (((c : Thread nD τ).loc main_v3) ↦{fullShare} G 6) ∗ (((c : Thread nD τ).loc main_v5) ↦{fullShare} G 7)) := by
  unfold Dat.arrays
  rw [bigSep_W1]
  have e (w : Fin cfg1.W) : ((cfg1.win w).arr.view.loc (c.tc : Thread nD τ) ↦[(cfg1.win w).arr.view.set]{(dat1 V c).share w} G w : sProp 𝕄)
      = ((cfg1.win w).arr.view.loc (c.tc : Thread nD τ) ↦{(dat1 V c).share w} G w) := by rw [(arr_whole1 w).set_eq_univ]
  rw [e 0, e 1, e 2, e 3, e 4, e 5, e 6, e 7]
  rfl

/-- ENTRY: the seven buffers at contents Vc are the eight arrays at the same contents. -/
theorem hsplit1 (c : Dev nD) (Vc : (b : Ref sig .tc) → Buf (Elt F) ((c : Thread nD τ).loc b))
    (G : (w : Fin cfg1.W) → Buf (Elt F) ((cfg1.win w).arr.view.loc (c.tc : Thread nD τ))) (hG : ∀ w, G w = Vc (Pipeline.arrRef spec1 w)) :
    (Pipeline.arrBufs (Ix := Unit) (Name := ℕ) (U := UR sig nD τ) (Lvl := ℕ) spec1 c Vc : sProp 𝕄) ⊢ (dat1 V c).arrays G := by
  rw [arrBufs1_eq, arrays1_eq, hG 0, hG 1, hG 2, hG 3, hG 4, hG 5, hG 6, hG 7]
  iintro ⟨H4, Ha4, H0, H1, H2, H3, H5⟩
  ihave H0' := (pointsTo_share (PosShare.mem_left_op_right fullShare)).1 $$ H0
  icases H0' with ⟨H0l, H0r⟩
  isplitl [H4]; · iexact H4
  isplitl [Ha4]; · iexact Ha4
  isplitl [H0l]; · iexact H0l
  isplitl [H0r]; · iexact H0r
  isplitl [H1]; · iexact H1
  isplitl [H2]; · iexact H2
  isplitl [H3]; · iexact H3
  iexact H5

/-- EXIT: the eight arrays at contents G are the seven buffers at any contents Vc' that read G at the arrays. -/
theorem hjoin1 (c : Dev nD) (Vc' : (b : Ref sig .tc) → Buf (Elt F) ((c : Thread nD τ).loc b))
    (G : (w : Fin cfg1.W) → Buf (Elt F) ((cfg1.win w).arr.view.loc (c.tc : Thread nD τ))) (hG : ∀ w, G w = Vc' (Pipeline.arrRef spec1 w)) :
    ((dat1 V c).arrays G : sProp 𝕄) ⊢ Pipeline.arrBufs (Ix := Unit) (Name := ℕ) (U := UR sig nD τ) (Lvl := ℕ) spec1 c Vc' := by
  rw [arrBufs1_eq, arrays1_eq, hG 0, hG 1, hG 2, hG 3, hG 4, hG 5, hG 6, hG 7]
  iintro ⟨H4, Ha4, H0l, H0r, H1, H2, H3, H5⟩
  isplitl [H4]; · iexact H4
  isplitl [Ha4]; · iexact Ha4
  isplitl [H0l H0r]
  · iapply (pointsTo_share (PosShare.mem_left_op_right fullShare)).2
    isplitl [H0l] <;> iassumption
  isplitl [H1]; · iexact H1
  isplitl [H2]; · iexact H2
  isplitl [H3]; · iexact H3
  iexact H5

end Region1

end Cert.Kernel.Hand

end
-- ==== Proof.BRegion0.lean ====
/-
  The first kernel region: wh = h · W in one grid point. Its two input windows are the whole arrays h and W, its
  output window the whole 400 × 128 result; the body loads both, forms the product into a zero accumulator, and
  stores it whole. What follows: the block each window holds at the point, what the body leaves in the output's
  staging buffer as a function of the two input blocks, the body's triple, and the region's proof data at any
  contents V of the buffers at the region's entry.
-/
import proofs.«158061_j24318104830717_2_alg».proof.Proof.Gen.Kernel.Launch
import proofs.«158061_j24318104830717_2_alg».proof.Proof.Gen.Kernel.Skeleton
import proofs.«158061_j24318104830717_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole rectangles the body reads and writes. -/
abbrev r0_0 : Rect S400x256 := Rect.unit (s := S400x256) ![0, 0] S400x256.size inb_S400x256_S400x256_0_0
abbrev r0_1 : Rect S256x128 := Rect.unit (s := S256x128) ![0, 0] S256x128.size inb_S256x128_S256x128_0_0
abbrev r0_2 : Rect S400x128 := Rect.unit (s := S400x128) ![0, 0] S400x128.size inb_S400x128_S400x128_0_0

/-- What the body leaves in the output's staging buffer: its one whole store, the product of the two input blocks. -/
def out0_2 (x0 : Vec F S400x256 .f32) (x1 : Vec F S256x128 .f32) : Vec F S400x128 .f32 :=
  View.canon [⟨r0_2, k0_pay1 (View.ld x0 r0_0) (View.ld x1 r0_1)⟩]

/-- The one store covers the buffer. -/
theorem cover0_2 (p0 : Vec F S400x128 .f32) (y : S400x128.Idx) :
    ∃ pc ∈ ([⟨r0_2, p0⟩] : List (View.Piece (Elt F) S400x128 .f32)), y ∈ pc.1.set :=
  View.cover_of_tiled [⟨r0_2, p0⟩] S400x128.size (by rfl) y

set_option maxHeartbeats 1000000 in
/-- The body on whole staging memrefs: the inputs' at contents x0, x1 and the output's at anything; it ends with the
    inputs' as they were and the output's at the product. -/
theorem sound_kernel0 (c : Dev nD) (E : Set ℕ) (i : grid0.Coords) (arg1 : Memref sig .tc .vmem S400x256 .f32) (harg1 : arg1.IsWhole)
    (arg2 : Memref sig .tc .vmem S256x128 .f32) (harg2 : arg2.IsWhole) (arg3 : Memref sig .tc .vmem S400x128 .f32) (harg3 : arg3.IsWhole)
    (x0 : Vec F S400x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__wh_kernel i arg1 harg1 arg2 harg2 arg3 harg3) K := by
  simp only [cc0__wh_kernel_eq_skeleton]; unfold cc0__wh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as the region finds them; after the body each input's buffer at its
    block and the output's at the product of the two blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BRun.lean ====
/-
  The whole program as a chain of three segments — the first region (wh = h · W), the host stretch that slices a1
  into its three row blocks and transposes the edge features, the second region — with the contents of every
  unscoped buffer named at each boundary. From the two regions' body obligations the several-regions launch gives:
  every weakly fair execution terminates, the five argument arrays end as launched, and the result array ends holding
  what the second region's output window wrote back.
-/
import proofs.«158061_j24318104830717_2_alg».proof.Proof.BShare
import proofs.«158061_j24318104830717_2_alg».proof.Proof.BRegion0
import proofs.«158061_j24318104830717_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev Vr0 : (c : Dev nD) → (b : Ref sig .tc) → Buf (Elt F) ((c : Thread nD τ).loc b) := fun c b => W0 m ρ c b
/-- After the first region: its arrays at what the pipeline leaves, every other buffer as launched. -/
def W1 (c : Dev nD) : Valuation τ sig (Elt F) :=
  Pipeline.withArrays spec0 c (W0 m ρ c) fun w => (dat0 (Vr0 m ρ) c).arrAt w cfg0.N
theorem W1_arr (c : Dev nD) (w : Fin cfg0.W) :
    W1 m ρ c (Proc.devRef .tc (Pipeline.arrRef spec0 w)) = (dat0 (Vr0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vr1 : (c : Dev nD) → (b : Ref sig .tc) → Buf (Elt F) ((c : Thread nD τ).loc b) := fun c b => W1 m ρ c b
theorem hF0 (c : Dev nD) (w : Fin cfg0.W) : (dat0 (Vr0 m ρ) c).arrAt w cfg0.N = Vr1 m ρ c (Pipeline.arrRef spec0 w) :=
  (W1_arr m ρ c w).symm
theorem hrest0 (c : Dev nD) : ∀ b, b ∉ Finset.univ.image (Pipeline.arrRef spec0) → Vr1 m ρ c b = Vr0 m ρ c b :=
  fun b hb => W1_of_ne m ρ c b fun w e => hb (Finset.mem_image.mpr ⟨w, Finset.mem_univ _, e⟩)
/-- After the host stretch: the second region's entry. -/
abbrev W2 : Dev nD → Valuation τ sig (Elt F) := fun c => StableHlo.after hostOps1 (W1 m ρ c)
abbrev Vr2 : (c : Dev nD) → (b : Ref sig .tc) → Buf (Elt F) ((c : Thread nD τ).loc b) := fun c b => W2 m ρ c b
/-- What the second region leaves in the result array. -/
def res1 (c : Dev nD) : Buf (Elt F) ((c : Thread nD τ).loc main_v5) := (dat1 (Vr2 m ρ) c).arrAt 7 cfg1.N
/-- After the second region: the result array at what its output window wrote back, every other buffer as entered. -/
def W3 (c : Dev nD) : Valuation τ sig (Elt F) := Function.update (W2 m ρ c) (Proc.devRef .tc main_v5) (res1 m ρ c)
abbrev Vr3 : (c : Dev nD) → (b : Ref sig .tc) → Buf (Elt F) ((c : Thread nD τ).loc b) := fun c b => W3 m ρ c b

theorem W3_of_ne (c : Dev nD) (b : Ref sig .tc) (hb : b ≠ main_v5) : W3 m ρ c (Proc.devRef .tc b) = W2 m ρ c (Proc.devRef .tc b) := by
  unfold W3
  exact Function.update_of_ne (StableHlo.devRef_ne_of_ne hb : (Proc.devRef .tc b : DevRef τ sig) ≠ Proc.devRef .tc main_v5) _ _
theorem W3_res (c : Dev nD) : W3 m ρ c (Proc.devRef .tc main_v5) = res1 m ρ c := by
  unfold W3; exact Function.update_self _ _ _

/-- At the second region's exit each window's array holds what the pipeline leaves: the inputs as entered, the output
    what was written back. -/
theorem hG1 (c : Dev nD) (w : Fin cfg1.W) : (dat1 (Vr2 m ρ) c).arrAt w cfg1.N = Vr3 m ρ c (Pipeline.arrRef spec1 w) := by
  match w with
  | ⟨0, _⟩ => exact ((dat1 (Vr2 m ρ) c).arrAt_in 0 rfl _).trans ((A_eq1 (Vr2 m ρ) c 0).trans (W3_of_ne m ρ c main_v4 (by decide)).symm)
  | ⟨1, _⟩ => exact ((dat1 (Vr2 m ρ) c).arrAt_in 1 rfl _).trans ((A_eq1 (Vr2 m ρ) c 1).trans (W3_of_ne m ρ c main_arg4 (by decide)).symm)
  | ⟨2, _⟩ => exact ((dat1 (Vr2 m ρ) c).arrAt_in 2 rfl _).trans ((A_eq1 (Vr2 m ρ) c 2).trans (W3_of_ne m ρ c main_v0 (by decide)).symm)
  | ⟨3, _⟩ => exact ((dat1 (Vr2 m ρ) c).arrAt_in 3 rfl _).trans ((A_eq1 (Vr2 m ρ) c 3).trans (W3_of_ne m ρ c main_v0 (by decide)).symm)
  | ⟨4, _⟩ => exact ((dat1 (Vr2 m ρ) c).arrAt_in 4 rfl _).trans ((A_eq1 (Vr2 m ρ) c 4).trans (W3_of_ne m ρ c main_v1 (by decide)).symm)
  | ⟨5, _⟩ => exact ((dat1 (Vr2 m ρ) c).arrAt_in 5 rfl _).trans ((A_eq1 (Vr2 m ρ) c 5).trans (W3_of_ne m ρ c main_v2 (by decide)).symm)
  | ⟨6, _⟩ => exact ((dat1 (Vr2 m ρ) c).arrAt_in 6 rfl _).trans ((A_eq1 (Vr2 m ρ) c 6).trans (W3_of_ne m ρ c main_v3 (by decide)).symm)
  | ⟨7, _⟩ => exact (W3_res m ρ c).symm
theorem hrest1 (c : Dev nD) : ∀ b, b ∉ Finset.univ.image (Pipeline.arrRef spec1) → Vr3 m ρ c b = Vr2 m ρ c b :=
  fun b hb => W3_of_ne m ρ c b fun e => hb (Finset.mem_image.mpr ⟨7, Finset.mem_univ _, e.symm⟩)

/-! ## The arguments end as launched -/

theorem W2_of (c : Dev nD) (r : Ref sig .tc) (h : r ∉ hostOps1_W) : W2 m ρ c (Proc.devRef .tc r) = W1 m ρ c (Proc.devRef .tc r) :=
  StableHlo.after_of_writes_sub hostOps1 _ hostOps1_writes h

theorem W3_main_arg0 (c : Dev nD) : W3 m ρ c (Proc.devRef .tc main_arg0) = m ((c : Thread nD τ).loc main_arg0) :=
  (W3_of_ne m ρ c main_arg0 (by decide)).trans <| (W2_of m ρ c main_arg0 (by decide)).trans <|
    (W1_arr m ρ c 0).trans (((dat0 (Vr0 m ρ) c).arrAt_in 0 rfl _).trans (A_eq0 (Vr0 m ρ) c 0))
theorem W3_main_arg2 (c : Dev nD) : W3 m ρ c (Proc.devRef .tc main_arg2) = m ((c : Thread nD τ).loc main_arg2) :=
  (W3_of_ne m ρ c main_arg2 (by decide)).trans <| (W2_of m ρ c main_arg2 (by decide)).trans <|
    (W1_arr m ρ c 1).trans (((dat0 (Vr0 m ρ) c).arrAt_in 1 rfl _).trans (A_eq0 (Vr0 m ρ) c 1))
theorem W3_main_arg1 (c : Dev nD) : W3 m ρ c (Proc.devRef .tc main_arg1) = m ((c : Thread nD τ).loc main_arg1) :=
  (W3_of_ne m ρ c main_arg1 (by decide)).trans <| (W2_of m ρ c main_arg1 (by decide)).trans <| (W1_of_ne m ρ c main_arg1 (by decide)).trans rfl
theorem W3_main_arg3 (c : Dev nD) : W3 m ρ c (Proc.devRef .tc main_arg3) = m ((c : Thread nD τ).loc main_arg3) :=
  (W3_of_ne m ρ c main_arg3 (by decide)).trans <| (W2_of m ρ c main_arg3 (by decide)).trans <| (W1_of_ne m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of m ρ c main_arg4 (by decide)).trans <| (W1_of_ne m ρ c main_arg4 (by decide)).trans rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer as launched, left with its three arrays at what the
    pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After any point but the first the second region's invariant gives the launch's form back: the scratch buffers'
    named contents are forgotten. -/
theorem Phi1_out_at (V : (c : Dev nD) → (b : Ref sig .tc) → Buf (Elt F) ((c : Thread nD τ).loc b)) (c : Dev nD)
    (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HO0, HO1, HO2, HS0, HS1, HS2, HS3⟩, Hg⟩
  isplitl [HO0 HO1 HO2 HS0 HS1 HS2 HS3]
  · isplitl [HO0]; · iexact HO0
    isplitl [HO1]; · iexact HO1
    isplitl [HO2]; · iexact HO2
    isplitl [HS0]; · iexists _; iexact HS0
    isplitl [HS1]; · iexists _; iexact HS1
    isplitl [HS2]; · iexists _; iexact HS2
    iexists _; iexact HS3
  · iexact Hg

/-- The same after the last point. -/
theorem Phi1_out (c : Dev nD) : (dat1 (Vr2 m ρ) c).Φ (Fin.last cfg1.N) ⊢ Pipeline.ΦA spec1 c :=
  Phi1_out_at (Vr2 m ρ) c _ (by rw [Fin.val_last]; have : cfg1.N = 50 := N_1; omega)

set_option backward.isDefEq.respectTransparency.types false in
/-- The second region: entered from the contents after the host stretch; its eight windows stand on seven buffers
    (wh's share split in halves at entry and joined at exit); left with the result array at what was written back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0) ∗ Pipeline.unscopedRest spec1 c (Vr2 m ρ c)) := by
      rw [← Pipeline.unscopedBufs_held c (W2 m ρ c), Pipeline.unscopedBufs_split₀ cfgs 1 winFacts₀1.arr_unscoped c _]
      exact sep_mono (hsplit1 (Vr2 m ρ) c _ _ (fun w => A_eq1 (Vr2 m ρ) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_out m ρ c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (Vr2 m ρ c))
        ⊢ (StableHlo.held (c : Thread nD τ) (Pipeline.ucRefs τ sig) (W3 m ρ c) : sProp 𝕄) := by
      rw [← Pipeline.unscopedBufs_held c (W3 m ρ c), Pipeline.unscopedBufs_split₀ cfgs 1 winFacts₀1.arr_unscoped c _]
      refine sep_mono (hjoin1 (Vr2 m ρ) c (Vr3 m ρ c) _ (hG1 m ρ c)) (Entails.of_eq ?_)
      unfold Pipeline.unscopedRest
      exact bigSep_congr fun b hb => by
        show (_ ↦{fullShare} Vr2 m ρ c b : sProp 𝕄) = (_ ↦{fullShare} Vr3 m ρ c b)
        rw [hrest1 m ρ c b (Finset.mem_sdiff.mp hb).2]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting; the result array ends at what the second region wrote back and the five arguments end as launched. -/
theorem run_main : θ_run defs (onTc (τ := τ) (main (F := F))) ⟨m, fun _ => 0, ρ⟩ (fun r => ∀ c : Dev nD,
      r.2.mem ((c.tc : Thread nD τ).loc main_v5) = res1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_res m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Hand

end
-- ==== Proof.KRuns.lean ====
/-
  The second kernel region, the attention layer proper, over 50 grid points (8 source nodes each). What its three
  whole-body runs share: the block each window holds at a point; the two conditions of the body (the first point
  resets the accumulators and forms wh · a1_j; the last point finishes with the softmax and stores the output), decided
  over the grid; where the output window is idle; the staging and scratch memrefs by name; and the region's invariant
  with the four scratch buffers spelt out.
-/
import proofs.«158061_j24318104830717_2_alg».proof.Proof.Gen.KernelIdeal.Launch
import proofs.«158061_j24318104830717_2_alg».proof.Proof.Gen.KernelIdeal.Skeleton
import proofs.«158061_j24318104830717_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- "This is the first point": the accumulators are reset and wh · a1_j is formed. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- "This is the last point": the output is computed and stored. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from the last point the output window is idle and not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At the last point it is live. -/
theorem liveAt1_7 : ∀ t : Fin cfg1.N, cond1_1 (grid1.coords t) → cfg1.idle 7 (grid1.coords t) = false := by decide +kernel

/-! ## The memrefs by name -/

/-- One staging buffer of the output window, through which its contents are stated. -/
abbrev VO1_7 : View sig .tc .vmem S400x128 .f32 := (Memref.whole cc1_stg7_0 : Memref sig .tc .vmem S400x128 .f32).view
abbrev ms1_0 (t : Fin cfg1.N) : Memref sig .tc .vmem S5x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x400 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x400 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x400 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5x400 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S400x128 .f32 := win1_7.stage (cfg1.slots t 7)
abbrev hs1_7 (t : Fin cfg1.N) : (ms1_7 t).IsWhole := hstage1_7 ((cfg1.slots t 7).cast nbuf1_7)
/-- The four scratch buffers: the source-term accumulator, the a3 column-sum accumulator, the a3ᵀ·ef accumulator, wh · a1_j. -/
abbrev scM1_0 : Memref sig .tc .vmem S400x400 .f32 := Memref.whole cc1_scratch0
abbrev VS1_0 : View sig .tc .vmem S400x400 .f32 := scM1_0.view
abbrev scM1_1 : Memref sig .tc .vmem S400x400 .f32 := Memref.whole cc1_scratch1
abbrev VS1_1 : View sig .tc .vmem S400x400 .f32 := scM1_1.view
abbrev scM1_2 : Memref sig .tc .vmem S400x5 .f32 := Memref.whole cc1_scratch2
abbrev VS1_2 : View sig .tc .vmem S400x5 .f32 := scM1_2.view
abbrev scM1_3 : Memref sig .tc .vmem S400x400 .f32 := Memref.whole cc1_scratch3
abbrev VS1_3 : View sig .tc .vmem S400x400 .f32 := scM1_3.view
/-- The first region's three staging buffers, which this region never touches. -/
abbrev othM1_0 : Memref sig .tc .vmem S400x256 .f32 := Memref.whole cc0_stg0_0
abbrev othM1_1 : Memref sig .tc .vmem S256x128 .f32 := Memref.whole cc0_stg1_0
abbrev othM1_2 : Memref sig .tc .vmem S400x128 .f32 := Memref.whole cc0_stg2_0

/-- What of the invariant the body never reads: the other region's staging buffers and the generator register. -/
def Oth1 (c : Dev nD) : sProp 𝕄 :=
  iprop((∃ d, owns (c : Thread nD τ) othM1_0 fullShare d) ∗ (∃ d, owns (c : Thread nD τ) othM1_1 fullShare d) ∗ (∃ d, owns (c : Thread nD τ) othM1_2 fullShare d))

/-- The region's invariant before the first point, with the scratch buffers as memrefs owned at some contents. -/
theorem PhiA1_eq (c : Dev nD) :
    (Pipeline.ΦA spec1 c : sProp 𝕄)
      = iprop(iprop((∃ d, owns (c : Thread nD τ) othM1_0 fullShare d) ∗ (∃ d, owns (c : Thread nD τ) othM1_1 fullShare d) ∗ (∃ d, owns (c : Thread nD τ) othM1_2 fullShare d)
          ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [othM1_0, othM1_1, othM1_2, scM1_0, scM1_1, scM1_2, scM1_3, owns_whole]; try rfl

end Cert.KernelIdeal.Hand

end
-- ==== Proof.KRunB.lean ====
/-
  The body's whole run at a middle point (neither the first nor the last): the three accumulators, entering at what
  the point before left, are each loaded, added to and stored back whole — the source term once, the column sums of
  a3 eight times (once per source node of the chunk), a3ᵀ·ef once; wh · a1_j is only kept. The pieces each accumulator
  ends with are found by the run itself.
-/
import proofs.«158061_j24318104830717_2_alg».proof.Proof.KRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The run at a middle point, on whole memrefs: the seven inputs at their blocks, the idle output handed back
    untouched, the four scratch buffers at what the point before left. -/
noncomputable def kernelRun1_B (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i)
    (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32)
    (xs0 : Vec F S400x400 .f32) (xs1 : Vec F S400x400 .f32) (xs2 : Vec F S400x5 .f32) (xs3 : Vec F S400x400 .f32) :
    Σ' (LS0 : List (View.Piece (Elt F) S400x400 .f32)) (LS1 : List (View.Piece (Elt F) S400x400 .f32)), { LS2 : List (View.Piece (Elt F) S400x5 .f32) //
      ∀ (xi7 : Vec F S400x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__gat_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi7 E K => ?run⟩
  case run =>
    simp only [cc1__gat_kernel_eq_skeleton]; unfold cc1__gat_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    iexists _; isplitr; · ipureintro; exact harg12.read_unread _
    iexact HS3

end Cert.KernelIdeal.Hand

end
-- ==== Proof.KRunA.lean ====
/-
  The body's whole run at the first point: the three accumulators are reset to zero and wh · a1_j is formed and kept,
  all four scratch buffers stored whole before anything reads them; then the point's own contributions are added as at
  every point. The output window is idle.
-/
import proofs.«158061_j24318104830717_2_alg».proof.Proof.KRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The run at the first point, on whole memrefs: the seven inputs at their blocks, the idle output handed back
    untouched, the four scratch buffers at anything. -/
noncomputable def kernelRun1_A (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i)
    (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) :
    Σ' (LS0 : List (View.Piece (Elt F) S400x400 .f32)) (LS1 : List (View.Piece (Elt F) S400x400 .f32)) (LS2 : List (View.Piece (Elt F) S400x5 .f32)), { LS3 : List (View.Piece (Elt F) S400x400 .f32) //
      ∀ (xi7 : Vec F S400x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__gat_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun xi7 E K => ?run⟩
  case run =>
    simp only [cc1__gat_kernel_eq_skeleton]; unfold cc1__gat_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]; · iexists _; iexact HS2
    iexists _; iexact HS3

end Cert.KernelIdeal.Hand

end
-- ==== Proof.KRunC.lean ====
/-
  The body's whole run at the last point: the accumulators are updated as at a middle point, and then read once more:
  the score is assembled from them and wh · a1_j, passed through the leaky ReLU, the diagonal mask and the row softmax,
  multiplied with wh, and stored whole into the output window.
-/
import proofs.«158061_j24318104830717_2_alg».proof.Proof.KRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The run at the last point, on whole memrefs: the seven inputs at their blocks, the output at anything, the four
    scratch buffers at what the point before left. -/
noncomputable def kernelRun1_C (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i)
    (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32)
    (xs0 : Vec F S400x400 .f32) (xs1 : Vec F S400x400 .f32) (xs2 : Vec F S400x5 .f32) (xs3 : Vec F S400x400 .f32) :
    Σ' (L7 : List (View.Piece (Elt F) S400x128 .f32)) (LS0 : List (View.Piece (Elt F) S400x400 .f32)) (LS1 : List (View.Piece (Elt F) S400x400 .f32)), { LS2 : List (View.Piece (Elt F) S400x5 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__gat_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__gat_kernel_eq_skeleton]; unfold cc1__gat_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    isplitl [HS2]; · iexists _; iexact HS2
    iexists _; isplitr; · ipureintro; exact harg12.read_unread _
    iexact HS3

end Cert.KernelIdeal.Hand

end
-- ==== Proof.KRegion1.lean ====
/-
  The second region point by point. After each grid point the four scratch buffers hold: the source term summed over the
  chunks so far, the column sums of a3 over the chunks so far, a3ᵀ·ef over the chunks so far, and wh · a1_j (formed at
  the first point and kept). Each is what the point's run leaves — its pieces read back — over what the point before
  left. The output window's buffer is written at the last point only. From these: the region's invariant, its proof
  data, and the body obligation at every point.
-/
import proofs.«158061_j24318104830717_2_alg».proof.Proof.KRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves, read back from its pieces -/

theorem scover1_A_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (y : S400x400.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S400x400.size (by sl_kernel_rfl) y
/-- What the first point leaves in scratch buffer 0. -/
def sout1_A_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) : Vec F S400x400 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)
theorem scover1_A_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (y : S400x400.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 S400x400.size (by sl_kernel_rfl) y
/-- What the first point leaves in scratch buffer 1. -/
def sout1_A_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) : Vec F S400x400 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1)
theorem scover1_A_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (y : S400x5.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 S400x5.size (by sl_kernel_rfl) y
/-- What the first point leaves in scratch buffer 2. -/
def sout1_A_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) : Vec F S400x5 .f32 :=
  VS1_2.read (Elt F) (VS1_2.writes (Elt F) VS1_2.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1)
theorem scover1_A_3 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (y : S400x400.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.1 S400x400.size (by sl_kernel_rfl) y
/-- What the first point leaves in scratch buffer 3. -/
def sout1_A_3 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) : Vec F S400x400 .f32 :=
  VS1_3.read (Elt F) (VS1_3.writes (Elt F) VS1_3.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.1)
theorem scover1_B_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x400.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1 S400x400.size (by sl_kernel_rfl) y
/-- What a middle point leaves in accumulator 0, over what the point before left. -/
def sout1_B_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x400 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1)
theorem scover1_B_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x400.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1 S400x400.size (by sl_kernel_rfl) y
/-- What a middle point leaves in accumulator 1, over what the point before left. -/
def sout1_B_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x400 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1)
theorem scover1_B_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x5.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1 S400x5.size (by sl_kernel_rfl) y
/-- What a middle point leaves in accumulator 2, over what the point before left. -/
def sout1_B_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x5 .f32 :=
  VS1_2.read (Elt F) (VS1_2.writes (Elt F) VS1_2.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1)
theorem scover1_C_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x400.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1 S400x400.size (by sl_kernel_rfl) y
/-- What the last point leaves in accumulator 0, over what the point before left. -/
def sout1_C_0 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x400 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.1)
theorem scover1_C_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x400.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1 S400x400.size (by sl_kernel_rfl) y
/-- What the last point leaves in accumulator 1, over what the point before left. -/
def sout1_C_1 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x400 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.1)
theorem scover1_C_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x5.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.2.1 S400x5.size (by sl_kernel_rfl) y
/-- What the last point leaves in accumulator 2, over what the point before left. -/
def sout1_C_2 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x5 .f32 :=
  VS1_2.read (Elt F) (VS1_2.writes (Elt F) VS1_2.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).2.2.2.1)
theorem cover1_C_7 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) (y : S400x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1 S400x128.size (by sl_kernel_rfl) y
/-- What the last point leaves in the output window's staging buffer. -/
def out1_C_7 (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) : Vec F S400x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3).1)

/-! ## Which case a point is in -/

theorem c0_pos (t : Fin cfg1.N) (hz : t.val = 0) : cond1_0 (grid1.coords t) := (hcond1_0 t).mpr (by omega)
theorem c0_neg (t : Fin cfg1.N) (hz : t.val ≠ 0) : ¬cond1_0 (grid1.coords t) := fun h => by
  have h' := (hcond1_0 t).mp h
  have hN : t.val < 50 := lt_of_lt_of_eq t.isLt (show cfg1.N = 50 from N_1)
  omega
theorem c1_pos (t : Fin cfg1.N) (h1 : t.val % 50 = 49) : cond1_1 (grid1.coords t) := (hcond1_1 t).mpr h1
theorem c1_neg (t : Fin cfg1.N) (h1 : ¬t.val % 50 = 49) : ¬cond1_1 (grid1.coords t) := fun h => h1 ((hcond1_1 t).mp h)

section Region1

variable (V : (c : Dev nD) → (b : Ref sig .tc) → Buf (Elt F) ((c : Thread nD τ).loc b))

/-- The output buffer and the four scratch buffers, in that order. -/
abbrev Outs1 (F : FTy → Type) [FloatOps F] : Type := Vec F S400x128 .f32 × Vec F S400x400 .f32 × Vec F S400x400 .f32 × Vec F S400x5 .f32 × Vec F S400x400 .f32

/-- The output window's buffer where the body does not store into it: a placeholder nothing consults. -/
def junk7 : Vec F S400x128 .f32 := VO1_7.read (Elt F) VO1_7.junk

/-- THE ACCUMULATION: what the output buffer and the four scratch buffers hold after the body at position n. -/
def outsAt1 (c : Dev nD) : (n : ℕ) → n < cfg1.N → Outs1 F
  | 0, hn =>
    (junk7,
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) (c0_pos ⟨0, hn⟩ rfl) (c1_neg ⟨0, hn⟩ (show ¬(0 % 50 = 49) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
     sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) (c0_pos ⟨0, hn⟩ rfl) (c1_neg ⟨0, hn⟩ (show ¬(0 % 50 = 49) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
     sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) (c0_pos ⟨0, hn⟩ rfl) (c1_neg ⟨0, hn⟩ (show ¬(0 % 50 = 49) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩),
     sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) scM1_2 (Memref.isWhole_whole _) scM1_3 (Memref.isWhole_whole _) (c0_pos ⟨0, hn⟩ rfl) (c1_neg ⟨0, hn⟩ (show ¬(0 % 50 = 49) by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h1 : (n + 1) % 50 = 49 then
      (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_pos ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_pos ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_pos ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_pos ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       (outsAt1 c n (Nat.lt_of_succ_lt hn)).2.2.2.2)
    else
      (junk7,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_neg ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_neg ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) scM1_2 (Memref.isWhole_whole _) scM1_3 (Memref.isWhole_whole _) (c0_neg ⟨n + 1, hn⟩ (Nat.succ_ne_zero n)) (c1_neg ⟨n + 1, hn⟩ h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
       (outsAt1 c n (Nat.lt_of_succ_lt hn)).2.2.2.2)

/-- At the first point: what the reset-and-add run leaves. -/
theorem outsAt1_A (c : Dev nD) (t : Fin cfg1.N) (hz : t.val = 0) (h1 : ¬t.val % 50 = 49) :
    outsAt1 V c t.val t.isLt = (junk7,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t),
      sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t),
      sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact absurd hz (Nat.succ_ne_zero n)

/-- At a middle point: that run's contents, over what the point before left. -/
theorem outsAt1_B (c : Dev nD) (t : Fin cfg1.N) (hz : t.val ≠ 0) (h1 : ¬t.val % 50 = 49) :
    outsAt1 V c t.val t.isLt = (junk7,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      (outsAt1 V c (t.val - 1) (Nat.lt_of_le_of_lt (Nat.sub_le _ _) t.isLt)).2.2.2.2) := by
  obtain ⟨n, hn⟩ := t
  cases n with
  | zero => exact absurd rfl hz
  | succ n => exact (dif_neg h1).trans rfl

/-- At the last point: that run's contents, over what the point before left. -/
theorem outsAt1_C (c : Dev nD) (t : Fin cfg1.N) (hz : t.val ≠ 0) (h1 : t.val % 50 = 49) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
      (outsAt1 V c (t.val - 1) (Nat.lt_of_le_of_lt (Nat.sub_le _ _) t.isLt)).2.2.2.2) := by
  obtain ⟨n, hn⟩ := t
  cases n with
  | zero => exact absurd rfl hz
  | succ n => exact (dif_pos h1).trans rfl

/-! ## The invariant -/

/-- Before position n: at the start the launch's (every scratch buffer at anything); afterwards each scratch buffer at
    what the point before left in it. -/
def PhiS1 (c : Dev nD) : (n : ℕ) → n ≤ cfg1.N → sProp 𝕄
  | 0, _ => Pipeline.ΦA spec1 c
  | n + 1, hn => iprop(iprop((∃ d, owns (c : Thread nD τ) othM1_0 fullShare d) ∗ (∃ d, owns (c : Thread nD τ) othM1_1 fullShare d) ∗ (∃ d, owns (c : Thread nD τ) othM1_2 fullShare d)
      ∗ owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2.1) ∗ owns (c : Thread nD τ) scM1_3 fullShare ((outsAt1 V c n hn).2.2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ d, owns (c : Thread nD τ) othM1_0 fullShare d) ∗ (∃ d, owns (c : Thread nD τ) othM1_1 fullShare d) ∗ (∃ d, owns (c : Thread nD τ) othM1_2 fullShare d)
      ∗ owns (c : Thread nD τ) scM1_0 fullShare ((outsAt1 V c n hn).2.1) ∗ owns (c : Thread nD τ) scM1_1 fullShare ((outsAt1 V c n hn).2.2.1)
      ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS1_pos (c : Dev nD) (n : ℕ) (h : n ≤ cfg1.N) (hz : n ≠ 0) :
    PhiS1 V c n h = iprop(iprop((∃ d, owns (c : Thread nD τ) othM1_0 fullShare d) ∗ (∃ d, owns (c : Thread nD τ) othM1_1 fullShare d) ∗ (∃ d, owns (c : Thread nD τ) othM1_2 fullShare d)
      ∗ owns (c : Thread nD τ) scM1_0 fullShare ((outsAt1 V c (n - 1) (by omega)).2.1) ∗ owns (c : Thread nD τ) scM1_1 fullShare ((outsAt1 V c (n - 1) (by omega)).2.2.1)
      ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-! ## The proof data -/

/-- The region's proof data on core c. The two windows that stage wh (the chunk's eight rows; the whole array) hold
    its buffer at the two halves of the full share; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; which of the three runs applies is decided by the
    point's position; the invariant hands the run the scratch buffers at what the point before left (at anything at the
    first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h1 : t.val % 50 = 49
  · have hz : t.val ≠ 0 := by omega
    rw [show (dat1 V c).leavesExact 7 t = owns (c : Thread nD τ) (ms1_7 t) fullShare ((dat1 V c).after 7 t) from by
      unfold Dat.leavesExact; rw [liveAt1_7 t (c1_pos t h1)], after1_7]
    rw [outsAt1_C V c t hz h1]
    unfold out1_C_7 sout1_C_0 sout1_C_1 sout1_C_2; (try dsimp only)
    rw [PhiS1_castSucc V c t, PhiS1_pos V c _ _ hz]
    iintro ⟨⟨⟨HO0, HO1, HO2, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_C c (grid1.coords t) _ _ _ _ _ _ _ _ _ _ _ _ _ _ _ _ _ _ _ _ _ _ _ _ (c0_neg t hz) (c1_pos t h1) (iblk1 V c 0 t) (iblk1 V c 1 t) (iblk1 V c 2 t) (iblk1 V c 3 t) (iblk1 V c 4 t) (iblk1 V c 5 t) (iblk1 V c 6 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, ⟨%e7, H7⟩, ⟨%es0, HS0⟩, ⟨%es1, HS1⟩, ⟨%es2, HS2⟩, HS3⟩
    isplitl [HO0 HO1 HO2 HS0 HS1 HS2 HS3 Hg]
    · isplitl [HO0 HO1 HO2 HS0 HS1 HS2 HS3]
      · skip
        isplitl [HO0]; · iexact HO0
        isplitl [HO1]; · iexact HO1
        isplitl [HO2]; · iexact HO2
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _ _ _ _ _ _ _)
        iexact HS3
      · iexact Hg
    · skip
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _ _ _ _ _ _ _ _ _ _)
  · rw [Dat.leavesExact_idle (dat1 V c) 7 t (idleAt1_7 t (c1_neg t h1)) (noFlush1_7 t (c1_neg t h1))]
    by_cases hz : t.val = 0
    · rw [outsAt1_A V c t hz h1]
      unfold sout1_A_0 sout1_A_1 sout1_A_2 sout1_A_3; (try dsimp only)
      rw [PhiS1_castSucc V c t, PhiS1_zero V c _ _ hz, PhiA1_eq]
      iintro ⟨⟨⟨HO0, HO1, HO2, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ _ _ _ _ (c0_pos t hz) (c1_neg t h1) (iblk1 V c 0 t) (iblk1 V c 1 t) (iblk1 V c 2 t) (iblk1 V c 3 t) (iblk1 V c 4 t) (iblk1 V c 5 t) (iblk1 V c 6 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, ⟨%es1, HS1⟩, ⟨%es2, HS2⟩, ⟨%es3, HS3⟩⟩
      isplitl [HO0 HO1 HO2 HS0 HS1 HS2 HS3 Hg]
      · isplitl [HO0 HO1 HO2 HS0 HS1 HS2 HS3]
        · skip
          isplitl [HO0]; · iexact HO0
          isplitl [HO1]; · iexact HO1
          isplitl [HO2]; · iexact HO2
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _ _ _ _ _ _ _ _ _ _)
        · iexact Hg
      · skip
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
    · rw [outsAt1_B V c t hz h1]
      unfold sout1_B_0 sout1_B_1 sout1_B_2; (try dsimp only)
      rw [PhiS1_castSucc V c t, PhiS1_pos V c _ _ hz]
      iintro ⟨⟨⟨HO0, HO1, HO2, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ _ _ _ _ (c0_neg t hz) (c1_neg t h1) (iblk1 V c 0 t) (iblk1 V c 1 t) (iblk1 V c 2 t) (iblk1 V c 3 t) (iblk1 V c 4 t) (iblk1 V c 5 t) (iblk1 V c 6 t) _ _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, ⟨%es1, HS1⟩, ⟨%es2, HS2⟩, HS3⟩
      isplitl [HO0 HO1 HO2 HS0 HS1 HS2 HS3 Hg]
      · isplitl [HO0 HO1 HO2 HS0 HS1 HS2 HS3]
        · skip
          isplitl [HO0]; · iexact HO0
          isplitl [HO1]; · iexact HO1
          isplitl [HO2]; · iexact HO2
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _ _ _ _ _)
          iexact HS3
        · iexact Hg
      · skip
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KShare.lean ====
/-
  Entering and leaving the second region when two of its windows stage the same array. The eight windows stand on
  seven distinct buffers: wh is read both eight rows at a time and whole. At entry the seven buffers, each held whole,
  become the eight windows' arrays — wh's full share split in two halves, one per window; at exit the halves join again.
-/
import proofs.«158061_j24318104830717_2_alg».proof.Proof.KRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The distinct buffers behind the second region's windows. -/
theorem arrImage1 : (Finset.univ.image (Pipeline.arrRef spec1) : Finset (Ref sig .tc))
    = ([main_v4, main_arg4, main_v0, main_v1, main_v2, main_v3, main_v5] : List (Ref sig .tc)).toFinset := by decide

/-- Those buffers, each whole at the full share, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v4) ↦{fullShare} Vc main_v4) ∗ (((c : Thread nD τ).loc main_arg4) ↦{fullShare} Vc main_arg4) ∗ (((c : Thread nD τ).loc main_v0) ↦{fullShare} Vc main_v0)
          ∗ (((c : Thread nD τ).loc main_v1) ↦{fullShare} Vc main_v1) ∗ (((c : Thread nD τ).loc main_v2) ↦{fullShare} Vc main_v2) ∗ (((c : Thread nD τ).loc main_v3) ↦{fullShare} Vc main_v3) ∗ (((c : Thread nD τ).loc main_v5) ↦{fullShare} Vc main_v5)) := by
  unfold Pipeline.arrBufs
  exact bigSep_eq_bigSepL_of_eq _ arrImage1 (by decide) _

/-- The eight windows' arrays at contents G, one by one, each at the share the proof data names. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v4) ↦{fullShare} G 0) ∗ (((c : Thread nD τ).loc main_arg4) ↦{fullShare} G 1) ∗ (((c : Thread nD τ).loc main_v0) ↦{fullShare.left} G 2) ∗ (((c : Thread nD τ).loc main_v0) ↦{fullShare.right} G 3)
          ∗ (((c : Thread nD τ).loc main_v1) ↦{fullShare} G 4) ∗ (((c : Thread nD τ).loc main_v2) ↦{fullShare} G 5) ∗ (((c : Thread nD τ).loc main_v3) ↦{fullShare} G 6) ∗ (((c : Thread nD τ).loc main_v5) ↦{fullShare} G 7)) := by
  unfold Dat.arrays
  rw [bigSep_W1]
  have e (w : Fin cfg1.W) : ((cfg1.win w).arr.view.loc (c.tc : Thread nD τ) ↦[(cfg1.win w).arr.view.set]{(dat1 V c).share w} G w : sProp 𝕄)
      = ((cfg1.win w).arr.view.loc (c.tc : Thread nD τ) ↦{(dat1 V c).share w} G w) := by rw [(arr_whole1 w).set_eq_univ]
  rw [e 0, e 1, e 2, e 3, e 4, e 5, e 6, e 7]
  rfl

/-- ENTRY: the seven buffers at contents Vc are the eight arrays at the same contents. -/
theorem hsplit1 (c : Dev nD) (Vc : (b : Ref sig .tc) → Buf (Elt F) ((c : Thread nD τ).loc b))
    (G : (w : Fin cfg1.W) → Buf (Elt F) ((cfg1.win w).arr.view.loc (c.tc : Thread nD τ))) (hG : ∀ w, G w = Vc (Pipeline.arrRef spec1 w)) :
    (Pipeline.arrBufs (Ix := Unit) (Name := ℕ) (U := UR sig nD τ) (Lvl := ℕ) spec1 c Vc : sProp 𝕄) ⊢ (dat1 V c).arrays G := by
  rw [arrBufs1_eq, arrays1_eq, hG 0, hG 1, hG 2, hG 3, hG 4, hG 5, hG 6, hG 7]
  iintro ⟨H4, Ha4, H0, H1, H2, H3, H5⟩
  ihave H0' := (pointsTo_share (PosShare.mem_left_op_right fullShare)).1 $$ H0
  icases H0' with ⟨H0l, H0r⟩
  isplitl [H4]; · iexact H4
  isplitl [Ha4]; · iexact Ha4
  isplitl [H0l]; · iexact H0l
  isplitl [H0r]; · iexact H0r
  isplitl [H1]; · iexact H1
  isplitl [H2]; · iexact H2
  isplitl [H3]; · iexact H3
  iexact H5

/-- EXIT: the eight arrays at contents G are the seven buffers at any contents Vc' that read G at the arrays. -/
theorem hjoin1 (c : Dev nD) (Vc' : (b : Ref sig .tc) → Buf (Elt F) ((c : Thread nD τ).loc b))
    (G : (w : Fin cfg1.W) → Buf (Elt F) ((cfg1.win w).arr.view.loc (c.tc : Thread nD τ))) (hG : ∀ w, G w = Vc' (Pipeline.arrRef spec1 w)) :
    ((dat1 V c).arrays G : sProp 𝕄) ⊢ Pipeline.arrBufs (Ix := Unit) (Name := ℕ) (U := UR sig nD τ) (Lvl := ℕ) spec1 c Vc' := by
  rw [arrBufs1_eq, arrays1_eq, hG 0, hG 1, hG 2, hG 3, hG 4, hG 5, hG 6, hG 7]
  iintro ⟨H4, Ha4, H0l, H0r, H1, H2, H3, H5⟩
  isplitl [H4]; · iexact H4
  isplitl [Ha4]; · iexact Ha4
  isplitl [H0l H0r]
  · iapply (pointsTo_share (PosShare.mem_left_op_right fullShare)).2
    isplitl [H0l] <;> iassumption
  isplitl [H1]; · iexact H1
  isplitl [H2]; · iexact H2
  isplitl [H3]; · iexact H3
  iexact H5

end Region1

end Cert.KernelIdeal.Hand

end
-- ==== Proof.KRegion0.lean ====
/-
  The first kernel region: wh = h · W in one grid point. Its two input windows are the whole arrays h and W, its
  output window the whole 400 × 128 result; the body loads both, forms the product into a zero accumulator, and
  stores it whole. What follows: the block each window holds at the point, what the body leaves in the output's
  staging buffer as a function of the two input blocks, the body's triple, and the region's proof data at any
  contents V of the buffers at the region's entry.
-/
import proofs.«158061_j24318104830717_2_alg».proof.Proof.Gen.KernelIdeal.Launch
import proofs.«158061_j24318104830717_2_alg».proof.Proof.Gen.KernelIdeal.Skeleton
import proofs.«158061_j24318104830717_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole rectangles the body reads and writes. -/
abbrev r0_0 : Rect S400x256 := Rect.unit (s := S400x256) ![0, 0] S400x256.size inb_S400x256_S400x256_0_0
abbrev r0_1 : Rect S256x128 := Rect.unit (s := S256x128) ![0, 0] S256x128.size inb_S256x128_S256x128_0_0
abbrev r0_2 : Rect S400x128 := Rect.unit (s := S400x128) ![0, 0] S400x128.size inb_S400x128_S400x128_0_0

/-- What the body leaves in the output's staging buffer: its one whole store, the product of the two input blocks. -/
def out0_2 (x0 : Vec F S400x256 .f32) (x1 : Vec F S256x128 .f32) : Vec F S400x128 .f32 :=
  View.canon [⟨r0_2, k0_pay1 (View.ld x0 r0_0) (View.ld x1 r0_1)⟩]

/-- The one store covers the buffer. -/
theorem cover0_2 (p0 : Vec F S400x128 .f32) (y : S400x128.Idx) :
    ∃ pc ∈ ([⟨r0_2, p0⟩] : List (View.Piece (Elt F) S400x128 .f32)), y ∈ pc.1.set :=
  View.cover_of_tiled [⟨r0_2, p0⟩] S400x128.size (by rfl) y

set_option maxHeartbeats 1000000 in
/-- The body on whole staging memrefs: the inputs' at contents x0, x1 and the output's at anything; it ends with the
    inputs' as they were and the output's at the product. -/
theorem sound_kernel0 (c : Dev nD) (E : Set ℕ) (i : grid0.Coords) (arg1 : Memref sig .tc .vmem S400x256 .f32) (harg1 : arg1.IsWhole)
    (arg2 : Memref sig .tc .vmem S256x128 .f32) (harg2 : arg2.IsWhole) (arg3 : Memref sig .tc .vmem S400x128 .f32) (harg3 : arg3.IsWhole)
    (x0 : Vec F S400x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__wh_kernel i arg1 harg1 arg2 harg2 arg3 harg3) K := by
  simp only [cc0__wh_kernel_eq_skeleton]; unfold cc0__wh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as the region finds them; after the body each input's buffer at its
    block and the output's at the product of the two blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KRun.lean ====
/-
  The whole program as a chain of three segments — the first region (wh = h · W), the host stretch that slices a1
  into its three row blocks and transposes the edge features, the second region — with the contents of every
  unscoped buffer named at each boundary. From the two regions' body obligations the several-regions launch gives:
  every weakly fair execution terminates, the five argument arrays end as launched, and the result array ends holding
  what the second region's output window wrote back.
-/
import proofs.«158061_j24318104830717_2_alg».proof.Proof.KShare
import proofs.«158061_j24318104830717_2_alg».proof.Proof.KRegion0
import proofs.«158061_j24318104830717_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev Vr0 : (c : Dev nD) → (b : Ref sig .tc) → Buf (Elt F) ((c : Thread nD τ).loc b) := fun c b => W0 m ρ c b
/-- After the first region: its arrays at what the pipeline leaves, every other buffer as launched. -/
def W1 (c : Dev nD) : Valuation τ sig (Elt F) :=
  Pipeline.withArrays spec0 c (W0 m ρ c) fun w => (dat0 (Vr0 m ρ) c).arrAt w cfg0.N
theorem W1_arr (c : Dev nD) (w : Fin cfg0.W) :
    W1 m ρ c (Proc.devRef .tc (Pipeline.arrRef spec0 w)) = (dat0 (Vr0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vr1 : (c : Dev nD) → (b : Ref sig .tc) → Buf (Elt F) ((c : Thread nD τ).loc b) := fun c b => W1 m ρ c b
theorem hF0 (c : Dev nD) (w : Fin cfg0.W) : (dat0 (Vr0 m ρ) c).arrAt w cfg0.N = Vr1 m ρ c (Pipeline.arrRef spec0 w) :=
  (W1_arr m ρ c w).symm
theorem hrest0 (c : Dev nD) : ∀ b, b ∉ Finset.univ.image (Pipeline.arrRef spec0) → Vr1 m ρ c b = Vr0 m ρ c b :=
  fun b hb => W1_of_ne m ρ c b fun w e => hb (Finset.mem_image.mpr ⟨w, Finset.mem_univ _, e⟩)
/-- After the host stretch: the second region's entry. -/
abbrev W2 : Dev nD → Valuation τ sig (Elt F) := fun c => StableHlo.after hostOps1 (W1 m ρ c)
abbrev Vr2 : (c : Dev nD) → (b : Ref sig .tc) → Buf (Elt F) ((c : Thread nD τ).loc b) := fun c b => W2 m ρ c b
/-- What the second region leaves in the result array. -/
def res1 (c : Dev nD) : Buf (Elt F) ((c : Thread nD τ).loc main_v5) := (dat1 (Vr2 m ρ) c).arrAt 7 cfg1.N
/-- After the second region: the result array at what its output window wrote back, every other buffer as entered. -/
def W3 (c : Dev nD) : Valuation τ sig (Elt F) := Function.update (W2 m ρ c) (Proc.devRef .tc main_v5) (res1 m ρ c)
abbrev Vr3 : (c : Dev nD) → (b : Ref sig .tc) → Buf (Elt F) ((c : Thread nD τ).loc b) := fun c b => W3 m ρ c b

theorem W3_of_ne (c : Dev nD) (b : Ref sig .tc) (hb : b ≠ main_v5) : W3 m ρ c (Proc.devRef .tc b) = W2 m ρ c (Proc.devRef .tc b) := by
  unfold W3
  exact Function.update_of_ne (StableHlo.devRef_ne_of_ne hb : (Proc.devRef .tc b : DevRef τ sig) ≠ Proc.devRef .tc main_v5) _ _
theorem W3_res (c : Dev nD) : W3 m ρ c (Proc.devRef .tc main_v5) = res1 m ρ c := by
  unfold W3; exact Function.update_self _ _ _

/-- At the second region's exit each window's array holds what the pipeline leaves: the inputs as entered, the output
    what was written back. -/
theorem hG1 (c : Dev nD) (w : Fin cfg1.W) : (dat1 (Vr2 m ρ) c).arrAt w cfg1.N = Vr3 m ρ c (Pipeline.arrRef spec1 w) := by
  match w with
  | ⟨0, _⟩ => exact ((dat1 (Vr2 m ρ) c).arrAt_in 0 rfl _).trans ((A_eq1 (Vr2 m ρ) c 0).trans (W3_of_ne m ρ c main_v4 (by decide)).symm)
  | ⟨1, _⟩ => exact ((dat1 (Vr2 m ρ) c).arrAt_in 1 rfl _).trans ((A_eq1 (Vr2 m ρ) c 1).trans (W3_of_ne m ρ c main_arg4 (by decide)).symm)
  | ⟨2, _⟩ => exact ((dat1 (Vr2 m ρ) c).arrAt_in 2 rfl _).trans ((A_eq1 (Vr2 m ρ) c 2).trans (W3_of_ne m ρ c main_v0 (by decide)).symm)
  | ⟨3, _⟩ => exact ((dat1 (Vr2 m ρ) c).arrAt_in 3 rfl _).trans ((A_eq1 (Vr2 m ρ) c 3).trans (W3_of_ne m ρ c main_v0 (by decide)).symm)
  | ⟨4, _⟩ => exact ((dat1 (Vr2 m ρ) c).arrAt_in 4 rfl _).trans ((A_eq1 (Vr2 m ρ) c 4).trans (W3_of_ne m ρ c main_v1 (by decide)).symm)
  | ⟨5, _⟩ => exact ((dat1 (Vr2 m ρ) c).arrAt_in 5 rfl _).trans ((A_eq1 (Vr2 m ρ) c 5).trans (W3_of_ne m ρ c main_v2 (by decide)).symm)
  | ⟨6, _⟩ => exact ((dat1 (Vr2 m ρ) c).arrAt_in 6 rfl _).trans ((A_eq1 (Vr2 m ρ) c 6).trans (W3_of_ne m ρ c main_v3 (by decide)).symm)
  | ⟨7, _⟩ => exact (W3_res m ρ c).symm
theorem hrest1 (c : Dev nD) : ∀ b, b ∉ Finset.univ.image (Pipeline.arrRef spec1) → Vr3 m ρ c b = Vr2 m ρ c b :=
  fun b hb => W3_of_ne m ρ c b fun e => hb (Finset.mem_image.mpr ⟨7, Finset.mem_univ _, e.symm⟩)

/-! ## The arguments end as launched -/

theorem W2_of (c : Dev nD) (r : Ref sig .tc) (h : r ∉ hostOps1_W) : W2 m ρ c (Proc.devRef .tc r) = W1 m ρ c (Proc.devRef .tc r) :=
  StableHlo.after_of_writes_sub hostOps1 _ hostOps1_writes h

theorem W3_main_arg0 (c : Dev nD) : W3 m ρ c (Proc.devRef .tc main_arg0) = m ((c : Thread nD τ).loc main_arg0) :=
  (W3_of_ne m ρ c main_arg0 (by decide)).trans <| (W2_of m ρ c main_arg0 (by decide)).trans <|
    (W1_arr m ρ c 0).trans (((dat0 (Vr0 m ρ) c).arrAt_in 0 rfl _).trans (A_eq0 (Vr0 m ρ) c 0))
theorem W3_main_arg2 (c : Dev nD) : W3 m ρ c (Proc.devRef .tc main_arg2) = m ((c : Thread nD τ).loc main_arg2) :=
  (W3_of_ne m ρ c main_arg2 (by decide)).trans <| (W2_of m ρ c main_arg2 (by decide)).trans <|
    (W1_arr m ρ c 1).trans (((dat0 (Vr0 m ρ) c).arrAt_in 1 rfl _).trans (A_eq0 (Vr0 m ρ) c 1))
theorem W3_main_arg1 (c : Dev nD) : W3 m ρ c (Proc.devRef .tc main_arg1) = m ((c : Thread nD τ).loc main_arg1) :=
  (W3_of_ne m ρ c main_arg1 (by decide)).trans <| (W2_of m ρ c main_arg1 (by decide)).trans <| (W1_of_ne m ρ c main_arg1 (by decide)).trans rfl
theorem W3_main_arg3 (c : Dev nD) : W3 m ρ c (Proc.devRef .tc main_arg3) = m ((c : Thread nD τ).loc main_arg3) :=
  (W3_of_ne m ρ c main_arg3 (by decide)).trans <| (W2_of m ρ c main_arg3 (by decide)).trans <| (W1_of_ne m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of m ρ c main_arg4 (by decide)).trans <| (W1_of_ne m ρ c main_arg4 (by decide)).trans rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer as launched, left with its three arrays at what the
    pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After any point but the first the second region's invariant gives the launch's form back: the scratch buffers'
    named contents are forgotten. -/
theorem Phi1_out_at (V : (c : Dev nD) → (b : Ref sig .tc) → Buf (Elt F) ((c : Thread nD τ).loc b)) (c : Dev nD)
    (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HO0, HO1, HO2, HS0, HS1, HS2, HS3⟩, Hg⟩
  isplitl [HO0 HO1 HO2 HS0 HS1 HS2 HS3]
  · isplitl [HO0]; · iexact HO0
    isplitl [HO1]; · iexact HO1
    isplitl [HO2]; · iexact HO2
    isplitl [HS0]; · iexists _; iexact HS0
    isplitl [HS1]; · iexists _; iexact HS1
    isplitl [HS2]; · iexists _; iexact HS2
    iexists _; iexact HS3
  · iexact Hg

/-- The same after the last point. -/
theorem Phi1_out (c : Dev nD) : (dat1 (Vr2 m ρ) c).Φ (Fin.last cfg1.N) ⊢ Pipeline.ΦA spec1 c :=
  Phi1_out_at (Vr2 m ρ) c _ (by rw [Fin.val_last]; have : cfg1.N = 50 := N_1; omega)

set_option backward.isDefEq.respectTransparency.types false in
/-- The second region: entered from the contents after the host stretch; its eight windows stand on seven buffers
    (wh's share split in halves at entry and joined at exit); left with the result array at what was written back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0) ∗ Pipeline.unscopedRest spec1 c (Vr2 m ρ c)) := by
      rw [← Pipeline.unscopedBufs_held c (W2 m ρ c), Pipeline.unscopedBufs_split₀ cfgs 1 winFacts₀1.arr_unscoped c _]
      exact sep_mono (hsplit1 (Vr2 m ρ) c _ _ (fun w => A_eq1 (Vr2 m ρ) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_out m ρ c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (Vr2 m ρ c))
        ⊢ (StableHlo.held (c : Thread nD τ) (Pipeline.ucRefs τ sig) (W3 m ρ c) : sProp 𝕄) := by
      rw [← Pipeline.unscopedBufs_held c (W3 m ρ c), Pipeline.unscopedBufs_split₀ cfgs 1 winFacts₀1.arr_unscoped c _]
      refine sep_mono (hjoin1 (Vr2 m ρ) c (Vr3 m ρ c) _ (hG1 m ρ c)) (Entails.of_eq ?_)
      unfold Pipeline.unscopedRest
      exact bigSep_congr fun b hb => by
        show (_ ↦{fullShare} Vr2 m ρ c b : sProp 𝕄) = (_ ↦{fullShare} Vr3 m ρ c b)
        rw [hrest1 m ρ c b (Finset.mem_sdiff.mp hb).2]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting; the result array ends at what the second region wrote back and the five arguments end as launched. -/
theorem run_main : θ_run defs (onTc (τ := τ) (main (F := F))) ⟨m, fun _ => 0, ρ⟩ (fun r => ∀ c : Dev nD,
      r.2.mem ((c.tc : Thread nD τ).loc main_v5) = res1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_res m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.KBlocks.lean ====
/-
  Where each window's block sits in its array, and what the host operations between the two regions leave.

  A window's block at a grid point holds, on each axis, the array's entries from block index × block size on. In
  the second region the edge-feature window (5 × 3200 of the transposed 5 × 160000 array) moves along its second
  axis, the a3 window (3200 × 400) and the 8-row window of wh along their first; the other four input windows
  are whole arrays. In the first region both input windows are whole arrays. Between the regions a1 is cut into
  its three row blocks (rows 0..127, 128..255, 256..260) and the edge features are transposed.
-/
import proofs.«158061_j24318104830717_2_alg».proof.Proof.KRuns
import proofs.«158061_j24318104830717_2_alg».proof.Proof.KRegion0
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.ShloMosaic.TcCoe Cert.KernelIdeal Cert.KernelIdeal.Gen

variable {F : FTy → Type} [FloatOps F]

section Blocks

variable (V : (c : Dev nD) → (b : Ref sig .tc) → Buf (Elt F) ((c : Thread nD τ).loc b))

/-- The second region has 50 points. -/
theorem lt50 (t : Fin cfg1.N) : t.val < 50 := t.isLt.trans_eq (show cfg1.N = 50 from N_1)

/-- The index maps of the second region's input windows, decided over the grid: the edge-feature window moves along
    its second axis, the a3 window and the 8-row wh window along their first, the others stay at the origin. -/
theorem idx1 : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The index maps of the first region's two input windows: both stay at the origin. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The edge-feature block at point t: columns 3200 t onward of the transposed features. -/
theorem iblk1_0_apply (c : Dev nD) (t : Fin cfg1.N) (f : Fin 5) (r : Fin 3200) :
    iblk1 V c 0 t (ix2 f r) = V c main_v4 (ix2 f ⟨3200 * t.val + r.val, by have := lt50 t; omega⟩) := by
  show V c main_v4 (((cfg1.win 0).blk t).view.emb (ix2 f r)) = V c main_v4 _
  refine congrArg (V c main_v4) (funext fun a => Fin.ext ?_)
  obtain ⟨e0, e1, -⟩ := idx1 t
  match a with
  | ⟨0, _⟩ => show win1_0.index t (0 : Fin 2) * 5 + 1 * f.val = f.val; omega
  | ⟨1, _⟩ => show win1_0.index t (1 : Fin 2) * 3200 + 1 * r.val = 3200 * t.val + r.val; omega

/-- The a3 block at point t: rows 3200 t onward. -/
theorem iblk1_1_apply (c : Dev nD) (t : Fin cfg1.N) (r : Fin 3200) (p : Fin 400) :
    iblk1 V c 1 t (ix2 r p) = V c main_arg4 (ix2 ⟨3200 * t.val + r.val, by have := lt50 t; omega⟩ p) := by
  show V c main_arg4 (((cfg1.win 1).blk t).view.emb (ix2 r p)) = V c main_arg4 _
  refine congrArg (V c main_arg4) (funext fun a => Fin.ext ?_)
  obtain ⟨-, -, e0, e1, -⟩ := idx1 t
  match a with
  | ⟨0, _⟩ => show win1_1.index t (0 : Fin 2) * 3200 + 1 * r.val = 3200 * t.val + r.val; omega
  | ⟨1, _⟩ => show win1_1.index t (1 : Fin 2) * 400 + 1 * p.val = p.val; omega

/-- The 8-row block of wh at point t: rows 8 t onward. -/
theorem iblk1_2_apply (c : Dev nD) (t : Fin cfg1.N) (l : Fin 8) (d : Fin 128) :
    iblk1 V c 2 t (ix2 l d) = V c main_v0 (ix2 ⟨8 * t.val + l.val, by have := lt50 t; omega⟩ d) := by
  show V c main_v0 (((cfg1.win 2).blk t).view.emb (ix2 l d)) = V c main_v0 _
  refine congrArg (V c main_v0) (funext fun a => Fin.ext ?_)
  obtain ⟨-, -, -, -, e0, e1, -⟩ := idx1 t
  match a with
  | ⟨0, _⟩ => show win1_2.index t (0 : Fin 2) * 8 + 1 * l.val = 8 * t.val + l.val; omega
  | ⟨1, _⟩ => show win1_2.index t (1 : Fin 2) * 128 + 1 * d.val = d.val; omega

/-- The whole-array window of wh. -/
theorem iblk1_3_apply (c : Dev nD) (t : Fin cfg1.N) (i : Fin 400) (d : Fin 128) :
    iblk1 V c 3 t (ix2 i d) = V c main_v0 (ix2 i d) := by
  show V c main_v0 (((cfg1.win 3).blk t).view.emb (ix2 i d)) = V c main_v0 _
  refine congrArg (V c main_v0) (funext fun a => Fin.ext ?_)
  obtain ⟨-, -, -, -, -, -, e0, e1, -⟩ := idx1 t
  match a with
  | ⟨0, _⟩ => show win1_3.index t (0 : Fin 2) * 400 + 1 * i.val = i.val; omega
  | ⟨1, _⟩ => show win1_3.index t (1 : Fin 2) * 128 + 1 * d.val = d.val; omega

theorem iblk1_3_eq (c : Dev nD) (t : Fin cfg1.N) : iblk1 V c 3 t = V c main_v0 := by
  funext y
  obtain ⟨i, d, rfl⟩ : ∃ i d, y = ix2 i d := ⟨_, _, eq_ix2 y⟩
  exact iblk1_3_apply V c t i d

/-- The whole-array window of a1's first row block. -/
theorem iblk1_4_apply (c : Dev nD) (t : Fin cfg1.N) (i : Fin 128) (k : Fin 400) :
    iblk1 V c 4 t (ix2 i k) = V c main_v1 (ix2 i k) := by
  show V c main_v1 (((cfg1.win 4).blk t).view.emb (ix2 i k)) = V c main_v1 _
  refine congrArg (V c main_v1) (funext fun a => Fin.ext ?_)
  obtain ⟨-, -, -, -, -, -, -, -, e0, e1, -⟩ := idx1 t
  match a with
  | ⟨0, _⟩ => show win1_4.index t (0 : Fin 2) * 128 + 1 * i.val = i.val; omega
  | ⟨1, _⟩ => show win1_4.index t (1 : Fin 2) * 400 + 1 * k.val = k.val; omega

theorem iblk1_4_eq (c : Dev nD) (t : Fin cfg1.N) : iblk1 V c 4 t = V c main_v1 := by
  funext y
  obtain ⟨i, k, rfl⟩ : ∃ i k, y = ix2 i k := ⟨_, _, eq_ix2 y⟩
  exact iblk1_4_apply V c t i k

/-- The whole-array window of a1's second row block. -/
theorem iblk1_5_apply (c : Dev nD) (t : Fin cfg1.N) (i : Fin 128) (k : Fin 400) :
    iblk1 V c 5 t (ix2 i k) = V c main_v2 (ix2 i k) := by
  show V c main_v2 (((cfg1.win 5).blk t).view.emb (ix2 i k)) = V c main_v2 _
  refine congrArg (V c main_v2) (funext fun a => Fin.ext ?_)
  obtain ⟨-, -, -, -, -, -, -, -, -, -, e0, e1, -⟩ := idx1 t
  match a with
  | ⟨0, _⟩ => show win1_5.index t (0 : Fin 2) * 128 + 1 * i.val = i.val; omega
  | ⟨1, _⟩ => show win1_5.index t (1 : Fin 2) * 400 + 1 * k.val = k.val; omega

theorem iblk1_5_eq (c : Dev nD) (t : Fin cfg1.N) : iblk1 V c 5 t = V c main_v2 := by
  funext y
  obtain ⟨i, k, rfl⟩ : ∃ i k, y = ix2 i k := ⟨_, _, eq_ix2 y⟩
  exact iblk1_5_apply V c t i k

/-- The whole-array window of a1's last row block. -/
theorem iblk1_6_apply (c : Dev nD) (t : Fin cfg1.N) (i : Fin 5) (k : Fin 400) :
    iblk1 V c 6 t (ix2 i k) = V c main_v3 (ix2 i k) := by
  show V c main_v3 (((cfg1.win 6).blk t).view.emb (ix2 i k)) = V c main_v3 _
  refine congrArg (V c main_v3) (funext fun a => Fin.ext ?_)
  obtain ⟨-, -, -, -, -, -, -, -, -, -, -, -, e0, e1⟩ := idx1 t
  match a with
  | ⟨0, _⟩ => show win1_6.index t (0 : Fin 2) * 5 + 1 * i.val = i.val; omega
  | ⟨1, _⟩ => show win1_6.index t (1 : Fin 2) * 400 + 1 * k.val = k.val; omega

theorem iblk1_6_eq (c : Dev nD) (t : Fin cfg1.N) : iblk1 V c 6 t = V c main_v3 := by
  funext y
  obtain ⟨i, k, rfl⟩ : ∃ i k, y = ix2 i k := ⟨_, _, eq_ix2 y⟩
  exact iblk1_6_apply V c t i k

/-- The first region's window of h: the whole array. -/
theorem iblk0_0_apply (c : Dev nD) (t : Fin cfg0.N) (i : Fin 400) (k : Fin 256) :
    iblk0 V c 0 t (ix2 i k) = V c main_arg0 (ix2 i k) := by
  show V c main_arg0 (((cfg0.win 0).blk t).view.emb (ix2 i k)) = V c main_arg0 _
  refine congrArg (V c main_arg0) (funext fun a => Fin.ext ?_)
  obtain ⟨e0, e1, -⟩ := idx0 t
  match a with
  | ⟨0, _⟩ => show win0_0.index t (0 : Fin 2) * 400 + 1 * i.val = i.val; omega
  | ⟨1, _⟩ => show win0_0.index t (1 : Fin 2) * 256 + 1 * k.val = k.val; omega

theorem iblk0_0_eq (c : Dev nD) (t : Fin cfg0.N) : iblk0 V c 0 t = V c main_arg0 := by
  funext y
  obtain ⟨i, k, rfl⟩ : ∃ i k, y = ix2 i k := ⟨_, _, eq_ix2 y⟩
  exact iblk0_0_apply V c t i k

/-- The first region's window of W: the whole array. -/
theorem iblk0_1_apply (c : Dev nD) (t : Fin cfg0.N) (i : Fin 256) (k : Fin 128) :
    iblk0 V c 1 t (ix2 i k) = V c main_arg2 (ix2 i k) := by
  show V c main_arg2 (((cfg0.win 1).blk t).view.emb (ix2 i k)) = V c main_arg2 _
  refine congrArg (V c main_arg2) (funext fun a => Fin.ext ?_)
  obtain ⟨-, -, e0, e1⟩ := idx0 t
  match a with
  | ⟨0, _⟩ => show win0_1.index t (0 : Fin 2) * 256 + 1 * i.val = i.val; omega
  | ⟨1, _⟩ => show win0_1.index t (1 : Fin 2) * 128 + 1 * k.val = k.val; omega

theorem iblk0_1_eq (c : Dev nD) (t : Fin cfg0.N) : iblk0 V c 1 t = V c main_arg2 := by
  funext y
  obtain ⟨i, k, rfl⟩ : ∃ i k, y = ix2 i k := ⟨_, _, eq_ix2 y⟩
  exact iblk0_1_apply V c t i k

end Blocks

/-! ## The host operations between the regions -/

section Host

variable (W : Valuation τ sig (Elt F))

/-- Rows 0..127 of a1. -/
theorem after_v1 (d : Fin 128) (q : Fin 400) :
    StableHlo.after (hostOps1 (F := F)) W (Proc.devRef .tc main_v1) (ix2 d q)
      = W (Proc.devRef .tc main_arg3) (ix2 ⟨d.val, by omega⟩ q) := by
  have e : (StableHlo.after (hostOps1 (F := F)) W (Proc.devRef .tc main_v1) : S128x400.Idx → Elt F .f32)
      = extractStridedSlice S128x400 ![0, 0] (W (Proc.devRef .tc main_arg3)) slices_S261x400_S128x400_0_0 := by
    after_results
  refine (congrFun e _).trans (extractStridedSlice_apply _ _ _ _ _ fun a => ?_)
  match a with
  | ⟨0, _⟩ => show d.val = 0 + d.val; omega
  | ⟨1, _⟩ => show q.val = 0 + q.val; omega

/-- Rows 128..255 of a1. -/
theorem after_v2 (d : Fin 128) (q : Fin 400) :
    StableHlo.after (hostOps1 (F := F)) W (Proc.devRef .tc main_v2) (ix2 d q)
      = W (Proc.devRef .tc main_arg3) (ix2 ⟨128 + d.val, by omega⟩ q) := by
  have e : (StableHlo.after (hostOps1 (F := F)) W (Proc.devRef .tc main_v2) : S128x400.Idx → Elt F .f32)
      = extractStridedSlice S128x400 ![128, 0] (W (Proc.devRef .tc main_arg3)) slices_S261x400_S128x400_128_0 := by
    after_results
  refine (congrFun e _).trans (extractStridedSlice_apply _ _ _ _ _ fun a => ?_)
  match a with
  | ⟨0, _⟩ => show 128 + d.val = 128 + d.val; rfl
  | ⟨1, _⟩ => show q.val = 0 + q.val; omega

/-- Rows 256..260 of a1. -/
theorem after_v3 (f : Fin 5) (q : Fin 400) :
    StableHlo.after (hostOps1 (F := F)) W (Proc.devRef .tc main_v3) (ix2 f q)
      = W (Proc.devRef .tc main_arg3) (ix2 ⟨256 + f.val, by omega⟩ q) := by
  have e : (StableHlo.after (hostOps1 (F := F)) W (Proc.devRef .tc main_v3) : S5x400.Idx → Elt F .f32)
      = extractStridedSlice S5x400 ![256, 0] (W (Proc.devRef .tc main_arg3)) slices_S261x400_S5x400_256_0 := by
    after_results
  refine (congrFun e _).trans (extractStridedSlice_apply _ _ _ _ _ fun a => ?_)
  match a with
  | ⟨0, _⟩ => show 256 + f.val = 256 + f.val; rfl
  | ⟨1, _⟩ => show q.val = 0 + q.val; omega

/-- The edge features, transposed. -/
theorem after_v4 (f : Fin 5) (r : Fin 160000) :
    StableHlo.after (hostOps1 (F := F)) W (Proc.devRef .tc main_v4) (ix2 f r)
      = W (Proc.devRef .tc main_arg1) (ix2 r f) := by
  have e : (StableHlo.after (hostOps1 (F := F)) W (Proc.devRef .tc main_v4) : S5x160000.Idx → Elt F .f32)
      = transpose S5x160000 [1, 0] (W (Proc.devRef .tc main_arg1)) transposes_S160000x5_S5x160000_1_0 := by
    after_results
  refine (congrFun e _).trans (transpose_apply _ _ _ _ _ fun b => ?_)
  match b with
  | ⟨0, _⟩ => rfl
  | ⟨1, _⟩ => rfl

end Host

end Cert.KernelIdeal.Hand

end
-- ==== Proof.Spec.lean ====
/-
  The mathematics of the graph-attention layer both programs compute, as plain functions on the extended reals.

  With n = 400 nodes, wh = h · W (400 × 128), and the 261 rows of a1 split as a1_i (rows 0..127), a1_j (rows 128..255)
  and a1_e (rows 256..260), the pre-activation score of the pair (p, q) is

      E[p, q] = Σ_r a3[r, p] · ( Σ_d wh[r / n, d] · a1_i[d, q] + Σ_d wh[r % n, d] · a1_j[d, q] + Σ_f ef[r, f] · a1_e[f, q] ),

  r ranging over the n² edges. One program forms the inner sum as ONE product of the concatenated row
  [wh[r / n] | wh[r % n] | ef[r]] with a1 (`scoreRef`); the other never builds the n² × 261 matrix: it
  sums a3 over the edges that share a source (`rowsum`) or a target (`sAcc`) first, accumulating chunk by chunk
  over 50 chunks of 8 sources (`scoreKer`). The two agree on real entries by distributivity and exchange of finite
  sums. What follows the score is the same on both sides (`out`): leaky ReLU of slope 0.2, the diagonal replaced by
  −9·10¹⁵, a row softmax, and the product with wh.
-/
import Idealize.ShloMosaic.PureOps.Ideal
import Idealize.ShloMosaic.Lib.ValueIdx

noncomputable section

open scoped BigOperators

namespace Cert.GatSpec

open Idealize.ShloMosaic

/-- An a × b array of extended reals, by coordinates. -/
abbrev M (a b : Nat) : Type := Fin a → Fin b → EReal

/-- A rank-2 array read by coordinates. -/
abbrev arr {a b : Nat} (X : (⟨2, ![a, b]⟩ : Shape).Idx → EReal) : M a b := fun i k => X (ValueIdx.ix2 i k)

/-! ## The four float words the programs spell -/

/-- 0.2 as an f32 word: the leaky ReLU's slope. -/
def slope : EReal := Ideal.ofBits .f32 0x3E4CCCCD#32
/-- +0.0. -/
def zero32 : EReal := Ideal.ofBits .f32 0x00000000#32
/-- −9·10¹⁵ as an f32 word: what replaces the diagonal. -/
def negBig : EReal := Ideal.ofBits .f32 0xD9FFCB9E#32
/-- −∞: where a row maximum starts. -/
def negInf : EReal := Ideal.ofBits .f32 0xFF800000#32

/-! ## The node embeddings and a1's three row blocks -/

/-- wh = h · W. -/
def wh (h : M 400 256) (W : M 256 128) : M 400 128 := fun i d => ∑ k : Fin 256, h i k * W k d

/-- Rows 0..127 of a1: they meet the source node's embedding. -/
def a1i (a1 : M 261 400) : M 128 400 := fun d q => a1 ⟨d.val, by omega⟩ q
/-- Rows 128..255 of a1: they meet the target node's embedding. -/
def a1j (a1 : M 261 400) : M 128 400 := fun d q => a1 ⟨128 + d.val, by omega⟩ q
/-- Rows 256..260 of a1: they meet the edge's five features. -/
def a1e (a1 : M 261 400) : M 5 400 := fun f q => a1 ⟨256 + f.val, by omega⟩ q

/-! ## The score, as one product with the concatenated row -/

/-- Row r of the n² × 261 matrix [wh[r / n] | wh[r % n] | ef[r]]. -/
def comb (wh : M 400 128) (ef : M 160000 5) (r : Fin 160000) (k : Fin 261) : EReal :=
  if h1 : k.val < 128 then wh ⟨r.val / 400, by omega⟩ ⟨k.val, h1⟩
  else if h2 : k.val < 256 then wh ⟨r.val % 400, Nat.mod_lt _ (by decide)⟩ ⟨k.val - 128, by omega⟩
  else ef r ⟨k.val - 256, by omega⟩

/-- E[p, q] = Σ_r a3[r, p] · (Σ_k comb[r, k] · a1[k, q]). -/
def scoreRef (wh : M 400 128) (ef : M 160000 5) (a1 : M 261 400) (a3 : M 160000 400) : M 400 400 :=
  fun p q => ∑ r : Fin 160000, a3 r p * ∑ k : Fin 261, comb wh ef r k * a1 k q

/-! ## The score, factored and accumulated over 50 chunks of 8 source nodes -/

/-- Σ_j a3[i·n + j, p]: a3 summed over the edges leaving node i. -/
def rowsum (a3 : M 160000 400) (i : Fin 400) (p : Fin 400) : EReal :=
  ∑ j : Fin 400, a3 ⟨i.val * 400 + j.val, by omega⟩ p

/-- (wh · a1_i)[i, q]. -/
def wiproj (wh : M 400 128) (a1 : M 261 400) (i : Fin 400) (q : Fin 400) : EReal :=
  ∑ d : Fin 128, wh i d * a1i a1 d q

/-- The source term, chunk by chunk: Σ_c Σ_l rowsum[8c + l, p] · wiproj[8c + l, q]. -/
def eAcc (wh : M 400 128) (a1 : M 261 400) (a3 : M 160000 400) : M 400 400 :=
  fun p q => ∑ c : Fin 50, ∑ l : Fin 8,
    rowsum a3 ⟨8 * c.val + l.val, by omega⟩ p * wiproj wh a1 ⟨8 * c.val + l.val, by omega⟩ q

/-- Σ_c Σ_l a3[(8c + l)·n + j, p]: a3 summed over the edges entering node j. -/
def sAcc (a3 : M 160000 400) : M 400 400 :=
  fun j p => ∑ c : Fin 50, ∑ l : Fin 8, a3 ⟨(8 * c.val + l.val) * 400 + j.val, by omega⟩ p

/-- (wh · a1_j)[j, q]. -/
def jproj (wh : M 400 128) (a1 : M 261 400) (j : Fin 400) (q : Fin 400) : EReal :=
  ∑ d : Fin 128, wh j d * a1j a1 d q

/-- Σ_c Σ_r' a3[3200c + r', p] · ef[3200c + r', f]: a3ᵀ · ef, chunk by chunk. -/
def seAcc (a3 : M 160000 400) (ef : M 160000 5) : M 400 5 :=
  fun p f => ∑ c : Fin 50, ∑ r' : Fin 3200,
    a3 ⟨3200 * c.val + r'.val, by omega⟩ p * ef ⟨3200 * c.val + r'.val, by omega⟩ f

/-- E[p, q] = (source term + Σ_j sAcc[j, p] · jproj[j, q]) + Σ_f seAcc[p, f] · a1_e[f, q]. -/
def scoreKer (wh : M 400 128) (ef : M 160000 5) (a1 : M 261 400) (a3 : M 160000 400) : M 400 400 :=
  fun p q => (eAcc wh a1 a3 p q + ∑ j : Fin 400, sAcc a3 j p * jproj wh a1 j q)
    + ∑ f : Fin 5, seAcc a3 ef p f * a1e a1 f q

/-! ## From the score to the output -/

/-- Leaky ReLU of slope 0.2, as both programs spell it: x where x ≥ +0.0 (an ordered comparison), 0.2 · x elsewhere. -/
def lrelu (x : EReal) : EReal :=
  Scalar.select (FloatOps.cmpf (F := Ideal) (φ := .f32) .oge x zero32) x (slope * x)

/-- The activated score with the diagonal replaced. -/
def masked (E : M 400 400) : M 400 400 := fun p q => if p = q then negBig else lrelu (E p q)

/-- A row's maximum, as both programs take it: the fold of max from −∞, then max with −∞ once more. -/
def rowMax (f : Fin 400 → EReal) : EReal := max negInf ((Finset.univ : Finset (Fin 400)).fold max negInf f)

/-- exp(x[p, q] − max_q x[p, ·]). -/
def expd (E : M 400 400) : M 400 400 := fun p q => Ideal.exp (masked E p q - rowMax (masked E p))

/-- The attention weights: a row softmax. -/
def attn (E : M 400 400) : M 400 400 := fun p q => Ideal.div (expd E p q) (∑ k : Fin 400, expd E p k)

/-- attention · wh. -/
def out (E : M 400 400) (wh : M 400 128) : M 400 128 := fun p d => ∑ q : Fin 400, attn E p q * wh q d

/-- The layer's output from the five arrays, the score in its factored form. -/
def outKer (h : M 400 256) (ef : M 160000 5) (W : M 256 128) (a1 : M 261 400) (a3 : M 160000 400) : M 400 128 :=
  out (scoreKer (wh h W) ef a1 a3) (wh h W)

/-- The layer's output from the five arrays, the score as one product. -/
def outRef (h : M 400 256) (ef : M 160000 5) (W : M 256 128) (a1 : M 261 400) (a3 : M 160000 400) : M 400 128 :=
  out (scoreRef (wh h W) ef a1 a3) (wh h W)

/-- An array is real when none of its entries is ±∞. -/
def IsReal {a b : Nat} (X : M a b) : Prop := ∀ i k, ∃ r : ℝ, X i k = (r : EReal)

end Cert.GatSpec

end
-- ==== Proof.KerPayLib.lean ====
/-
  Readings of the vector operations at an index, at the ideal values, over literal rank-2 shapes: a matrix product
  contracting one axis of each operand is the sum over that axis of the products of the entries; a row vector's
  keep-dimension column forms read their one entry.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A matrix product contracting one axis of each operand -/

/-- (M × K) · (K × N): the left operand's axis 1 against the right operand's axis 0. -/
theorem matmul_10_apply {M K N : Nat} {φ₁ φ₂ : FTy}
    (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (prec : Option ContractPrecision) (lhs : FVec Ideal ⟨2, ![M, K]⟩ φ₁) (rhs : FVec Ideal ⟨2, ![K, N]⟩ φ₂)
    (i : Fin M) (j : Fin N) :
    FloatOps.matmul D prec lhs rhs (constant ⟨2, ![M, N]⟩ .f32 0x00000000#32) (ix2 i j)
      = ∑ k : Fin K, lhs (ix2 i k) * rhs (ix2 k j) := by
  obtain ⟨lc, rc, ln, rn, lb, rb, wf⟩ := D
  dsimp only at hlc hrc hln hrn hlb hrb
  subst hlc hrc hln hrn hlb hrb
  have lfree : ∀ q, (DotDims.lhsIdx (⟨[1], [0], [0], [1], [], [], wf⟩ : DotDims ⟨2, ![M, K]⟩ ⟨2, ![K, N]⟩ ⟨2, ![M, N]⟩) (ix2 i j) q 0).val = i.val := fun q => by
    unfold DotDims.lhsIdx
    rw [dif_neg (show (0 : Fin (⟨2, ![M, K]⟩ : Shape).rank) ∉ ([] : List (Fin (⟨2, ![M, K]⟩ : Shape).rank)) from List.not_mem_nil),
      dif_pos (show (0 : Fin (⟨2, ![M, K]⟩ : Shape).rank) ∈ ([0] : List (Fin (⟨2, ![M, K]⟩ : Shape).rank)) from List.mem_singleton.mpr rfl)]
    rfl
  have rfree : ∀ q, (DotDims.rhsIdx (⟨[1], [0], [0], [1], [], [], wf⟩ : DotDims ⟨2, ![M, K]⟩ ⟨2, ![K, N]⟩ ⟨2, ![M, N]⟩) (ix2 i j) q 1).val = j.val := fun q => by
    unfold DotDims.rhsIdx
    rw [dif_neg (show (1 : Fin (⟨2, ![K, N]⟩ : Shape).rank) ∉ ([] : List (Fin (⟨2, ![K, N]⟩ : Shape).rank)) from List.not_mem_nil),
      dif_pos (show (1 : Fin (⟨2, ![K, N]⟩ : Shape).rank) ∈ ([1] : List (Fin (⟨2, ![K, N]⟩ : Shape).rank)) from List.mem_singleton.mpr rfl)]
    rfl
  rw [Ideal.matmul_constant_zero_apply, ← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j) ((contrEquiv1 _ K rfl rfl).symm k) = ix2 i k := funext fun a => Fin.ext (by
    match a with
    | ⟨0, _⟩ => exact lfree _
    | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j) ((contrEquiv1 _ K rfl rfl).symm k) = ix2 k j := funext fun a => Fin.ext (by
    match a with
    | ⟨1, _⟩ => exact rfree _
    | ⟨0, _⟩ => exact (DotDims.rhsIdx_val_of_single _ rfl _ _).trans hk)
  rw [el, er]

/-- (K × M)ᵀ · (K × N): axis 0 of the left operand against axis 0 of the right operand. -/
theorem matmul_00_apply {M K N : Nat} {φ₁ φ₂ : FTy}
    (D : DotDims ⟨2, ![K, M]⟩ ⟨2, ![K, N]⟩ ⟨2, ![M, N]⟩)
    (hlc : D.lhsContracting = [0]) (hrc : D.rhsContracting = [0])
    (hln : D.lhsNonContracting = [1]) (hrn : D.rhsNonContracting = [1])
    (hlb : D.lhsBatch = []) (hrb : D.rhsBatch = [])
    (prec : Option ContractPrecision) (lhs : FVec Ideal ⟨2, ![K, M]⟩ φ₁) (rhs : FVec Ideal ⟨2, ![K, N]⟩ φ₂)
    (i : Fin M) (j : Fin N) :
    FloatOps.matmul D prec lhs rhs (constant ⟨2, ![M, N]⟩ .f32 0x00000000#32) (ix2 i j)
      = ∑ k : Fin K, lhs (ix2 k i) * rhs (ix2 k j) := by
  obtain ⟨lc, rc, ln, rn, lb, rb, wf⟩ := D
  dsimp only at hlc hrc hln hrn hlb hrb
  subst hlc hrc hln hrn hlb hrb
  have lfree : ∀ q, (DotDims.lhsIdx (⟨[0], [0], [1], [1], [], [], wf⟩ : DotDims ⟨2, ![K, M]⟩ ⟨2, ![K, N]⟩ ⟨2, ![M, N]⟩) (ix2 i j) q 1).val = i.val := fun q => by
    unfold DotDims.lhsIdx
    rw [dif_neg (show (1 : Fin (⟨2, ![K, M]⟩ : Shape).rank) ∉ ([] : List (Fin (⟨2, ![K, M]⟩ : Shape).rank)) from List.not_mem_nil),
      dif_pos (show (1 : Fin (⟨2, ![K, M]⟩ : Shape).rank) ∈ ([1] : List (Fin (⟨2, ![K, M]⟩ : Shape).rank)) from List.mem_singleton.mpr rfl)]
    rfl
  have rfree : ∀ q, (DotDims.rhsIdx (⟨[0], [0], [1], [1], [], [], wf⟩ : DotDims ⟨2, ![K, M]⟩ ⟨2, ![K, N]⟩ ⟨2, ![M, N]⟩) (ix2 i j) q 1).val = j.val := fun q => by
    unfold DotDims.rhsIdx
    rw [dif_neg (show (1 : Fin (⟨2, ![K, N]⟩ : Shape).rank) ∉ ([] : List (Fin (⟨2, ![K, N]⟩ : Shape).rank)) from List.not_mem_nil),
      dif_pos (show (1 : Fin (⟨2, ![K, N]⟩ : Shape).rank) ∈ ([1] : List (Fin (⟨2, ![K, N]⟩ : Shape).rank)) from List.mem_singleton.mpr rfl)]
    rfl
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  have el : DotDims.lhsIdx (⟨[0], [0], [1], [1], [], [], wf⟩ : DotDims ⟨2, ![K, M]⟩ ⟨2, ![K, N]⟩ ⟨2, ![M, N]⟩) (ix2 i j) ((contrEquiv1 _ K rfl rfl).symm k) = ix2 k i := funext fun a => Fin.ext (by
    match a with
    | ⟨1, _⟩ => exact lfree _
    | ⟨0, _⟩ => exact (DotDims.lhsIdx_val_of_single _ rfl _ _).trans hk)
  have er : DotDims.rhsIdx (⟨[0], [0], [1], [1], [], [], wf⟩ : DotDims ⟨2, ![K, M]⟩ ⟨2, ![K, N]⟩ ⟨2, ![M, N]⟩) (ix2 i j) ((contrEquiv1 _ K rfl rfl).symm k) = ix2 k j := funext fun a => Fin.ext (by
    match a with
    | ⟨1, _⟩ => exact rfree _
    | ⟨0, _⟩ => exact (DotDims.rhsIdx_val_of_single _ rfl _ _).trans hk)
  rw [el, er]

/-- (K × M)ᵀ · (N × K)ᵀ: axis 0 of the left operand against axis 1 of the right operand. -/
theorem matmul_01_apply {M K N : Nat} {φ₁ φ₂ : FTy}
    (D : DotDims ⟨2, ![K, M]⟩ ⟨2, ![N, K]⟩ ⟨2, ![M, N]⟩)
    (hlc : D.lhsContracting = [0]) (hrc : D.rhsContracting = [1])
    (hln : D.lhsNonContracting = [1]) (hrn : D.rhsNonContracting = [0])
    (hlb : D.lhsBatch = []) (hrb : D.rhsBatch = [])
    (prec : Option ContractPrecision) (lhs : FVec Ideal ⟨2, ![K, M]⟩ φ₁) (rhs : FVec Ideal ⟨2, ![N, K]⟩ φ₂)
    (i : Fin M) (j : Fin N) :
    FloatOps.matmul D prec lhs rhs (constant ⟨2, ![M, N]⟩ .f32 0x00000000#32) (ix2 i j)
      = ∑ k : Fin K, lhs (ix2 k i) * rhs (ix2 j k) := by
  obtain ⟨lc, rc, ln, rn, lb, rb, wf⟩ := D
  dsimp only at hlc hrc hln hrn hlb hrb
  subst hlc hrc hln hrn hlb hrb
  have lfree : ∀ q, (DotDims.lhsIdx (⟨[0], [1], [1], [0], [], [], wf⟩ : DotDims ⟨2, ![K, M]⟩ ⟨2, ![N, K]⟩ ⟨2, ![M, N]⟩) (ix2 i j) q 1).val = i.val := fun q => by
    unfold DotDims.lhsIdx
    rw [dif_neg (show (1 : Fin (⟨2, ![K, M]⟩ : Shape).rank) ∉ ([] : List (Fin (⟨2, ![K, M]⟩ : Shape).rank)) from List.not_mem_nil),
      dif_pos (show (1 : Fin (⟨2, ![K, M]⟩ : Shape).rank) ∈ ([1] : List (Fin (⟨2, ![K, M]⟩ : Shape).rank)) from List.mem_singleton.mpr rfl)]
    rfl
  have rfree : ∀ q, (DotDims.rhsIdx (⟨[0], [1], [1], [0], [], [], wf⟩ : DotDims ⟨2, ![K, M]⟩ ⟨2, ![N, K]⟩ ⟨2, ![M, N]⟩) (ix2 i j) q 0).val = j.val := fun q => by
    unfold DotDims.rhsIdx
    rw [dif_neg (show (0 : Fin (⟨2, ![N, K]⟩ : Shape).rank) ∉ ([] : List (Fin (⟨2, ![N, K]⟩ : Shape).rank)) from List.not_mem_nil),
      dif_pos (show (0 : Fin (⟨2, ![N, K]⟩ : Shape).rank) ∈ ([0] : List (Fin (⟨2, ![N, K]⟩ : Shape).rank)) from List.mem_singleton.mpr rfl)]
    rfl
  rw [Ideal.matmul_constant_zero_apply, ← Equiv.sum_comp (contrEquiv1 _ K rfl rfl).symm]
  refine Finset.sum_congr rfl fun k _ => ?_
  have hk := contrEquiv1_symm_val (⟨[0], [1], [1], [0], [], [], wf⟩ : DotDims ⟨2, ![K, M]⟩ ⟨2, ![N, K]⟩ ⟨2, ![M, N]⟩) K rfl rfl k
  have el : DotDims.lhsIdx (⟨[0], [1], [1], [0], [], [], wf⟩ : DotDims ⟨2, ![K, M]⟩ ⟨2, ![N, K]⟩ ⟨2, ![M, N]⟩) (ix2 i j) ((contrEquiv1 _ K rfl rfl).symm k) = ix2 k i := funext fun a => Fin.ext (by
    match a with
    | ⟨1, _⟩ => exact lfree _
    | ⟨0, _⟩ => exact (DotDims.lhsIdx_val_of_single _ rfl _ _).trans hk)
  have er : DotDims.rhsIdx (⟨[0], [1], [1], [0], [], [], wf⟩ : DotDims ⟨2, ![K, M]⟩ ⟨2, ![N, K]⟩ ⟨2, ![M, N]⟩) (ix2 i j) ((contrEquiv1 _ K rfl rfl).symm k) = ix2 j k := funext fun a => Fin.ext (by
    match a with
    | ⟨0, _⟩ => exact rfree _
    | ⟨1, _⟩ => exact (DotDims.rhsIdx_val_of_single _ rfl _ _).trans hk)
  rw [el, er]

/-! ## A vector as a column, and a column spread over the columns -/

section Column
variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, q)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Column

/-! ## A sum or a maximum along one axis of a matrix -/

/-- The sum over the rows (axis 0) of an `[a, b]` array, at column `p`. -/
theorem colsum_apply {a b : ℕ} (src : FVec Ideal ⟨2, ![a, b]⟩ .f32) (acc : BitVec FTy.f32.bits)
    (h : Shape.Reduces ⟨2, ![a, b]⟩ [0] ⟨1, ![b]⟩) (hφ : FKind.Formats .f32) (hacc : acc = FKind.add.neutral .f32 hφ) (p : Fin b) :
    multiReduction .add [0] ⟨1, ![b]⟩ src acc h hφ hacc (ix1 p) = ∑ j : Fin a, src (ix2 j p) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The sum over the columns (axis 1) of an `[a, b]` array, at row `p`. -/
theorem rowsum_apply {a b : ℕ} (src : FVec Ideal ⟨2, ![a, b]⟩ .f32) (acc : BitVec FTy.f32.bits)
    (h : Shape.Reduces ⟨2, ![a, b]⟩ [1] ⟨1, ![a]⟩) (hφ : FKind.Formats .f32) (hacc : acc = FKind.add.neutral .f32 hφ) (p : Fin a) :
    multiReduction .add [1] ⟨1, ![a]⟩ src acc h hφ hacc (ix1 p) = ∑ q : Fin b, src (ix2 p q) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The maximum over the columns (axis 1) of an `[a, b]` array, at row `p`: the fold of `max` from the accumulator's value. -/
theorem rowmax_apply {a b : ℕ} (src : FVec Ideal ⟨2, ![a, b]⟩ .f32) (acc : BitVec FTy.f32.bits)
    (h : Shape.Reduces ⟨2, ![a, b]⟩ [1] ⟨1, ![a]⟩) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun q => src (ix2 p q)) :=
  (Ideal.multiReduction_maximumf_single src acc h hφ hacc (ix1 p)).trans
    (congrArg ((Finset.univ : Finset (Fin b)).fold max (Ideal.ofBits .f32 acc)) (funext fun k => congrArg src (funext fun d => Fin.ext (by
      match d with
      | ⟨0, _⟩ => rfl
      | ⟨1, _⟩ => rfl))))

/-! ## Eight rows stacked -/

/-- Eight `[1, n]` rows concatenated along axis 0 read, at `(l, p)`, row `l` at `p`. -/
theorem concatenate_rows8_apply {α : Type} {n : ℕ} (r : Fin 8 → (⟨2, ![1, n]⟩ : Shape).Idx → α)
    (h : Shape.Concatenates ([(⟨⟨2, ![1, n]⟩, r 0⟩ : (s : Shape) × (s.Idx → α)), ⟨⟨2, ![1, n]⟩, r 1⟩, ⟨⟨2, ![1, n]⟩, r 2⟩,
      ⟨⟨2, ![1, n]⟩, r 3⟩, ⟨⟨2, ![1, n]⟩, r 4⟩, ⟨⟨2, ![1, n]⟩, r 5⟩, ⟨⟨2, ![1, n]⟩, r 6⟩, ⟨⟨2, ![1, n]⟩, r 7⟩].map (·.1)) ⟨2, ![8, n]⟩ 0)
    (l : Fin 8) (p : Fin n) :
    concatenate ⟨2, ![8, n]⟩ 0 [⟨⟨2, ![1, n]⟩, r 0⟩, ⟨⟨2, ![1, n]⟩, r 1⟩, ⟨⟨2, ![1, n]⟩, r 2⟩, ⟨⟨2, ![1, n]⟩, r 3⟩,
      ⟨⟨2, ![1, n]⟩, r 4⟩, ⟨⟨2, ![1, n]⟩, r 5⟩, ⟨⟨2, ![1, n]⟩, r 6⟩, ⟨⟨2, ![1, n]⟩, r 7⟩] h (ix2 l p) = r l (ix2 (0 : Fin 1) p) :=
  concatenate_ofFn_unit_apply (t := ⟨2, ![8, n]⟩) (s₁ := ⟨2, ![1, n]⟩) (0 : Fin 2) r h rfl rfl (ix2 l p) l rfl (ix2 (0 : Fin 1) p)
    (fun a ha => by
      match a with
      | ⟨0, _⟩ => exact absurd rfl ha
      | ⟨1, _⟩ => rfl)

end Cert.KernelIdeal.Pay

end
-- ==== Proof.KerPay.lean ====
/-
  The kernel's arithmetic read at an index, at the ideal values: every pure term between two memory operations of
  the two kernel bodies, as a finite sum (or a plain entry) of the vectors it is computed from.

  A change of float format is the identity on the extended reals, a matrix product into the zero accumulator is the
  sum over the contracted axis, a same-shape cast is the identity.
-/
import proofs.«158061_j24318104830717_2_alg».proof.Proof.Gen.KernelIdeal.Skeleton
import proofs.«158061_j24318104830717_2_alg».proof.Proof.Spec
import proofs.«158061_j24318104830717_2_alg».proof.Proof.KerPayLib

noncomputable section

open scoped BigOperators

namespace Cert.KernelIdeal.Pay

open Idealize.ShloMosaic Idealize.ShloMosaic.ValueIdx Cert.KernelIdeal Cert.KernelIdeal.Gen

/-! ## The first body: wh = h · W -/

/-- The first body's one product: (h · W)[i, d]. -/
theorem pay_wh (v0 : Vec Ideal S400x256 .f32) (v2 : Vec Ideal S256x128 .f32) (i : Fin 400) (d : Fin 128) :
    k0_pay1 (F := Ideal) v0 v2 (ix2 i d) = ∑ k : Fin 256, v0 (ix2 i k) * v2 (ix2 k d) := by
  unfold k0_pay1
  exact matmul_10_apply dot_S400x256_S256x128_S400x128_1_0_0_1_n_n rfl rfl rfl rfl rfl rfl none _ _ i d

/-! ## The second body -/

/-- The three accumulators are reset to zero. -/
theorem pay_zero6 (p q : Fin 400) : k1_pay6 (F := Ideal) (ix2 p q) = 0 := by
  unfold k1_pay6
  rw [shapeCast_self]
  exact Ideal.ofBits_zero_f32

theorem pay_zero7 (p q : Fin 400) : k1_pay7 (F := Ideal) (ix2 p q) = 0 := by
  unfold k1_pay7
  rw [shapeCast_self]
  exact Ideal.ofBits_zero_f32

theorem pay_zero8 (p : Fin 400) (q : Fin 5) : k1_pay8 (F := Ideal) (ix2 p q) = 0 := by
  unfold k1_pay8
  rw [shapeCast_self]
  exact Ideal.ofBits_zero_f32

/-- The target node's projection: (wh · a1_j)[j, q]. -/
theorem pay_jproj (v117 : Vec Ideal S400x128 .f32) (v120 : Vec Ideal S128x400 .f32) (j q : Fin 400) :
    k1_pay9 (F := Ideal) v117 v120 (ix2 j q) = ∑ d : Fin 128, v117 (ix2 j d) * v120 (ix2 d q) := by
  unfold k1_pay9
  simp only [shapeCast_self]
  exact matmul_10_apply dot_S400x128_S128x400_S400x400_1_0_0_1_n_n rfl rfl rfl rfl rfl rfl none _ _ j q

/-- A same-shape cast stores what it read. -/
theorem pay_id1 (x : FVec Ideal S400x400 .f32) (j p : Fin 400) : k1_pay1 (F := Ideal) x (ix2 j p) = x (ix2 j p) := by
  unfold k1_pay1
  rw [shapeCast_self]

/-! ### The target-side accumulator: one block of a3 added per step -/

/-- Each of the eight steps adds a 400 × 400 block to the accumulator, entry by entry. -/
theorem pay_sstep13 (s b : Vec Ideal S400x400 .f32) (j p : Fin 400) :
    k1_pay13 (F := Ideal) s b (ix2 j p) = s (ix2 j p) + b (ix2 j p) := by
  unfold k1_pay13
  rw [shapeCast_self]
  rfl

theorem pay_sstep14 (s b : Vec Ideal S400x400 .f32) (j p : Fin 400) :
    k1_pay14 (F := Ideal) s b (ix2 j p) = s (ix2 j p) + b (ix2 j p) := by
  unfold k1_pay14
  rw [shapeCast_self]
  rfl

theorem pay_sstep15 (s b : Vec Ideal S400x400 .f32) (j p : Fin 400) :
    k1_pay15 (F := Ideal) s b (ix2 j p) = s (ix2 j p) + b (ix2 j p) := by
  unfold k1_pay15
  rw [shapeCast_self]
  rfl

theorem pay_sstep16 (s b : Vec Ideal S400x400 .f32) (j p : Fin 400) :
    k1_pay16 (F := Ideal) s b (ix2 j p) = s (ix2 j p) + b (ix2 j p) := by
  unfold k1_pay16
  rw [shapeCast_self]
  rfl

theorem pay_sstep17 (s b : Vec Ideal S400x400 .f32) (j p : Fin 400) :
    k1_pay17 (F := Ideal) s b (ix2 j p) = s (ix2 j p) + b (ix2 j p) := by
  unfold k1_pay17
  rw [shapeCast_self]
  rfl

theorem pay_sstep18 (s b : Vec Ideal S400x400 .f32) (j p : Fin 400) :
    k1_pay18 (F := Ideal) s b (ix2 j p) = s (ix2 j p) + b (ix2 j p) := by
  unfold k1_pay18
  rw [shapeCast_self]
  rfl

theorem pay_sstep19 (s b : Vec Ideal S400x400 .f32) (j p : Fin 400) :
    k1_pay19 (F := Ideal) s b (ix2 j p) = s (ix2 j p) + b (ix2 j p) := by
  unfold k1_pay19
  rw [shapeCast_self]
  rfl

theorem pay_sstep20 (s b : Vec Ideal S400x400 .f32) (j p : Fin 400) :
    k1_pay20 (F := Ideal) s b (ix2 j p) = s (ix2 j p) + b (ix2 j p) := rfl

/-! ### The edge-feature accumulator -/

/-- (a3 blockᵀ · ef blockᵀ)[p, f] added to the accumulator: the sum over the block's 3200 edges. -/
theorem pay_se (v91 : Vec Ideal S3200x400 .f32) (v92 : Vec Ideal S5x3200 .f32) (v94 : Vec Ideal S400x5 .f32) (p : Fin 400) (f : Fin 5) :
    k1_pay2 (F := Ideal) v91 v92 v94 (ix2 p f) = v94 (ix2 p f) + ∑ r : Fin 3200, v91 (ix2 r p) * v92 (ix2 f r) := by
  unfold k1_pay2
  simp only [shapeCast_self]
  exact congrArg (v94 (ix2 p f) + ·)
    (matmul_01_apply dot_S3200x400_S5x3200_S400x5_0_1_1_0_n_n rfl rfl rfl rfl rfl rfl none _ _ p f)

/-! ### The source-side accumulator -/

/-- The eight column sums stacked as the rows of an 8 × 400 array: row l is the column sums of block l. -/
theorem pay10_apply (b : Fin 8 → Vec Ideal S400x400 .f32) (l : Fin 8) (p : Fin 400) :
    k1_pay10 (F := Ideal) (b 0) (b 1) (b 2) (b 3) (b 4) (b 5) (b 6) (b 7) (ix2 l p) = ∑ j : Fin 400, b l (ix2 j p) := by
  unfold k1_pay10
  refine (concatenate_rows8_apply (fun k : Fin 8 => shapeCast S1x400
    (multiReduction (F := Ideal) .add [0] S400 (b k) 0x00000000#32 reduces_S400x400_S400 (.inl rfl) rfl) shapeCasts_S400_S1x400) _ l p).trans ?_
  exact (shapeCast_a_1a_apply _ _ 0 p).trans (colsum_apply (b l) _ _ _ _ p)

/-- (column sums)ᵀ · (wh rows · a1_i) added to the accumulator: the sum over the chunk's eight source nodes. -/
theorem pay_eacc (b : Fin 8 → Vec Ideal S400x400 .f32) (v28 : Vec Ideal S8x128 .f32) (v30 : Vec Ideal S128x400 .f32)
    (v38 : Vec Ideal S400x400 .f32) (p q : Fin 400) :
    k1_pay12 (F := Ideal) (k1_pay10 (b 0) (b 1) (b 2) (b 3) (b 4) (b 5) (b 6) (b 7)) (k1_pay11 v28) v30 v38 (ix2 p q)
      = v38 (ix2 p q) + ∑ l : Fin 8, (∑ j : Fin 400, b l (ix2 j p)) * (∑ d : Fin 128, v28 (ix2 l d) * v30 (ix2 d q)) := by
  unfold k1_pay12 k1_pay11
  simp only [shapeCast_self]
  refine congrArg (v38 (ix2 p q) + ·) ?_
  refine (matmul_00_apply dot_S8x400_S8x400_S400x400_0_0_1_1_n_n rfl rfl rfl rfl rfl rfl none _ _ p q).trans ?_
  refine Finset.sum_congr rfl fun l _ => ?_
  exact congrArg₂ (· * ·) (pay10_apply b l p)
    (matmul_10_apply dot_S8x128_S128x400_S8x400_1_0_0_1_n_n rfl rfl rfl rfl rfl rfl none _ _ l q)

end Cert.KernelIdeal.Pay

end
-- ==== Proof.KFinal0.lean ====
/-
  The result array after the first region. The region has one grid point; its output window is the whole
  400 × 128 array wh, written back at that point: afterwards wh holds what the point left in the window's staging
  buffer, the body's product of the two input windows' blocks, which are the whole arrays h and W. At the ideal
  values that product is the matrix product h · W.
-/
import proofs.«158061_j24318104830717_2_alg».proof.Proof.KRegion0
import proofs.«158061_j24318104830717_2_alg».proof.Proof.KBlocks
import proofs.«158061_j24318104830717_2_alg».proof.Proof.KerPay
import Idealize.ShloMosaic.Lib.Pipeline.Value

set_option maxRecDepth 16384

noncomputable section

open scoped BigOperators

namespace Cert.KernelIdeal.Hand

open Idealize.ShloMosaic Idealize.ShloMosaic.ValueIdx Idealize.ShloMosaic.TcCoe Cert.KernelIdeal Cert.KernelIdeal.Gen
open Idealize.ShloMosaic.Pipeline (Dat Cfg Window)

variable {F : FTy → Type} [FloatOps F]

section Region0Final

variable (V : (c : Dev nD) → (b : Ref sig .tc) → Buf (Elt F) ((c : Thread nD τ).loc b))

/-- The first region's output window: its one block sits at the origin. -/
theorem idx0_2 : ∀ t : Fin cfg0.N, win0_2.index t (0 : Fin 2) = 0 ∧ win0_2.index t (1 : Fin 2) = 0 :=
  (by decide +kernel : ∀ t : Fin grid0.N, _)

/-- The block is the whole array: a staging buffer's contents, cut to the block, are read back unchanged. -/
theorem cut0_2_eq (t : Fin cfg0.N) (X : Vec F S400x128 .f32) :
    (cfg0.win 2).cut (grid0.coords t) X = ((cfg0.win 2).blk t).view.read (Elt F) X := by
  funext y
  obtain ⟨i, d, rfl⟩ : ∃ i d, y = ix2 i d := ⟨_, _, eq_ix2 y⟩
  show X (ix2 i d) = X (((cfg0.win 2).blk t).view.emb (ix2 i d))
  refine congrArg X (funext fun a => Fin.ext ?_)
  obtain ⟨e0, e1⟩ := idx0_2 t
  match a with
  | ⟨0, _⟩ => show i.val = win0_2.index t (0 : Fin 2) * 400 + 1 * i.val; omega
  | ⟨1, _⟩ => show d.val = win0_2.index t (1 : Fin 2) * 128 + 1 * d.val; omega

/-- An index of wh is in a point's block iff each coordinate is in the block's range on its axis. -/
theorem mem_blk0_2 (t : Fin cfg0.N) (i : S400x128.Idx) :
    i ∈ ((cfg0.win 2).blk t).view.set ↔ ∀ a : Fin 2, win0_2.index t a * S400x128.size a ≤ (i a).val
      ∧ (i a).val < win0_2.index t a * S400x128.size a + S400x128.size a := by
  show i ∈ ((View.whole main_v0).slice (win0_2.rect t)).set ↔ _
  rw [View.set_slice_whole, Rect.mem_set_unit]
  exact Iff.rfl

/-- After the first region wh holds what its one point left in the output window's buffer. -/
theorem arrAt0_2_eq (c : Dev nD) :
    (dat0 V c).arrAt 2 cfg0.N = out0_2 (iblk0 V c 0 t0_0) (iblk0 V c 1 t0_0) := by
  refine (dat0 V c).arrAt_eq_of_cover 2 _ (fun t hf => ?_) (fun i => ?_)
  · obtain rfl : t = t0_0 := fin_N0 t
    show (cfg0.win 2).cut (grid0.coords _) ((dat0 V c).after 2 _) = _
    rw [after0_2]
    exact cut0_2_eq _ _
  · refine ⟨t0_0, flush0_2 _, (mem_blk0_2 _ i).mpr fun a => ?_⟩
    obtain ⟨e0, e1⟩ := idx0_2 t0_0
    match a with
    | ⟨0, _⟩ =>
      show win0_2.index _ (0 : Fin 2) * 400 ≤ (i 0).val ∧ (i 0).val < win0_2.index _ (0 : Fin 2) * 400 + 400
      have hi : (i 0).val < 400 := (i 0).isLt
      omega
    | ⟨1, _⟩ =>
      show win0_2.index _ (1 : Fin 2) * 128 ≤ (i 1).val ∧ (i 1).val < win0_2.index _ (1 : Fin 2) * 128 + 128
      have hi : (i 1).val < 128 := (i 1).isLt
      omega

/-- The zero offsets, however spelt. -/
theorem hz2 : (![0, 0] : Fin 2 → Nat) = fun _ => 0 := funext fun a => by fin_cases a <;> rfl

/-- The one whole store leaves the body's product of the two whole loads. -/
theorem out0_2_eq (x0 : Vec F S400x256 .f32) (x1 : Vec F S256x128 .f32) : out0_2 x0 x1 = k0_pay1 x0 x1 := by
  unfold out0_2
  rw [View.canon_unit_zero hz2]
  simp only [View.ld_unit_zero (S := S400x256) hz2, View.ld_unit_zero (S := S256x128) hz2]

end Region0Final

/-- At the ideal values wh is the matrix product of the two arrays the first region finds. -/
theorem wh_eq (V : (c : Dev nD) → (b : Ref sig .tc) → Buf (Elt Ideal) ((c : Thread nD τ).loc b)) (c : Dev nD) :
    GatSpec.arr (a := 400) (b := 128) ((dat0 V c).arrAt 2 cfg0.N)
      = GatSpec.wh (GatSpec.arr (a := 400) (b := 256) (V c main_arg0)) (GatSpec.arr (a := 256) (b := 128) (V c main_arg2)) := by
  funext i d
  rw [arrAt0_2_eq, out0_2_eq, iblk0_0_eq, iblk0_1_eq]
  exact Pay.pay_wh _ _ i d

end Cert.KernelIdeal.Hand

end
-- ==== Proof.KEntry.lean ====
/-
  The second region's input arrays in terms of the launch memory, at the exact instance: the first region left
  wh = h · W in its result array; the host stretch wrote the three row blocks of a1 and the transposed edge features;
  a3 is untouched.
-/
import proofs.«158061_j24318104830717_2_alg».proof.Proof.KRun
import proofs.«158061_j24318104830717_2_alg».proof.Proof.KFinal0
import proofs.«158061_j24318104830717_2_alg».proof.Proof.KBlocks
import proofs.«158061_j24318104830717_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- wh as the second region finds it is h · W. -/
theorem entry_wh (c : Dev nD) :
    Cert.GatSpec.arr (a := 400) (b := 128) (Vr2 m ρ c main_v0)
      = Cert.GatSpec.wh (Cert.GatSpec.arr (a := 400) (b := 256) (m ((c : Thread nD τ).loc main_arg0))) (Cert.GatSpec.arr (a := 256) (b := 128) (m ((c : Thread nD τ).loc main_arg2))) := by
  have h1 : Vr2 m ρ c main_v0 = (dat0 (Vr0 m ρ) c).arrAt 2 cfg0.N := (W2_of m ρ c main_v0 (by decide)).trans (W1_arr m ρ c 2)
  rw [h1]
  exact wh_eq (Vr0 m ρ) c

/-- The first row block of a1. -/
theorem entry_a1i (c : Dev nD) :
    Cert.GatSpec.arr (a := 128) (b := 400) (Vr2 m ρ c main_v1) = Cert.GatSpec.a1i (Cert.GatSpec.arr (a := 261) (b := 400) (m ((c : Thread nD τ).loc main_arg3))) := by
  funext d q
  exact (after_v1 (W1 m ρ c) d q).trans (congrFun (W1_of_ne m ρ c main_arg3 (by decide)) _)
/-- The second row block of a1. -/
theorem entry_a1j (c : Dev nD) :
    Cert.GatSpec.arr (a := 128) (b := 400) (Vr2 m ρ c main_v2) = Cert.GatSpec.a1j (Cert.GatSpec.arr (a := 261) (b := 400) (m ((c : Thread nD τ).loc main_arg3))) := by
  funext d q
  exact (after_v2 (W1 m ρ c) d q).trans (congrFun (W1_of_ne m ρ c main_arg3 (by decide)) _)
/-- The last five rows of a1. -/
theorem entry_a1e (c : Dev nD) :
    Cert.GatSpec.arr (a := 5) (b := 400) (Vr2 m ρ c main_v3) = Cert.GatSpec.a1e (Cert.GatSpec.arr (a := 261) (b := 400) (m ((c : Thread nD τ).loc main_arg3))) := by
  funext f q
  exact (after_v3 (W1 m ρ c) f q).trans (congrFun (W1_of_ne m ρ c main_arg3 (by decide)) _)
/-- The edge features, transposed. -/
theorem entry_eft (c : Dev nD) :
    Cert.GatSpec.arr (a := 5) (b := 160000) (Vr2 m ρ c main_v4) = fun f r => Cert.GatSpec.arr (a := 160000) (b := 5) (m ((c : Thread nD τ).loc main_arg1)) r f := by
  funext f r
  exact (after_v4 (W1 m ρ c) f r).trans (congrFun (W1_of_ne m ρ c main_arg1 (by decide)) _)
/-- a3 is as launched. -/
theorem entry_a3 (c : Dev nD) : Vr2 m ρ c main_arg4 = m ((c : Thread nD τ).loc main_arg4) :=
  (W2_of m ρ c main_arg4 (by decide)).trans ((W1_of_ne m ρ c main_arg4 (by decide)).trans rfl)

end Cert.KernelIdeal.Hand

end
-- ==== Proof.KFinal.lean ====
/-
  The result array after the second region. The output window has one block, the whole 400 × 128 array, written
  back at the last of the 50 points only; so after the region the array holds what the last point left in the
  window's staging buffer.
-/
import proofs.«158061_j24318104830717_2_alg».proof.Proof.KRegion1
import proofs.«158061_j24318104830717_2_alg».proof.Proof.KBlocks
import Idealize.ShloMosaic.Lib.Pipeline.Value

set_option maxRecDepth 16384

noncomputable section

namespace Cert.KernelIdeal.Hand

open Idealize.ShloMosaic Idealize.ShloMosaic.ValueIdx Idealize.ShloMosaic.TcCoe Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The last point of the second region. -/
theorem lt49 : 49 < cfg1.N := by rw [show cfg1.N = 50 from N_1]; decide

/-- The output window's index map: its one block sits at the origin. -/
theorem idx1_7 : ∀ t : Fin cfg1.N, win1_7.index t (0 : Fin 2) = 0 ∧ win1_7.index t (1 : Fin 2) = 0 :=
  (by decide +kernel : ∀ t : Fin grid1.N, _)

/-- The output window's block is the whole array: a staging buffer's contents, cut to the block, are read back
    through the block unchanged. -/
theorem cut7_eq (t : Fin cfg1.N) (X : Vec F S400x128 .f32) :
    (cfg1.win 7).cut (grid1.coords t) X = ((cfg1.win 7).blk t).view.read (Elt F) X := by
  funext y
  obtain ⟨i, d, rfl⟩ : ∃ i d, y = ix2 i d := ⟨_, _, eq_ix2 y⟩
  show X (ix2 i d) = X (((cfg1.win 7).blk t).view.emb (ix2 i d))
  refine congrArg X (funext fun a => Fin.ext ?_)
  obtain ⟨e0, e1⟩ := idx1_7 t
  match a with
  | ⟨0, _⟩ => show i.val = win1_7.index t (0 : Fin 2) * 400 + 1 * i.val; omega
  | ⟨1, _⟩ => show d.val = win1_7.index t (1 : Fin 2) * 128 + 1 * d.val; omega

/-- An index of the output array is in a point's block iff each coordinate is in the block's range on its axis. -/
theorem mem_blk7 (t : Fin cfg1.N) (i : S400x128.Idx) :
    i ∈ ((cfg1.win 7).blk t).view.set ↔ ∀ a : Fin 2, win1_7.index t a * S400x128.size a ≤ (i a).val
      ∧ (i a).val < win1_7.index t a * S400x128.size a + S400x128.size a := by
  show i ∈ ((View.whole main_v5).slice (win1_7.rect t)).set ↔ _
  rw [View.set_slice_whole, Rect.mem_set_unit]
  exact Iff.rfl

/-- After the second region the output array holds what the last point left in the output window's buffer. -/
theorem arrAt7_eq (c : Dev nD) : (dat1 V c).arrAt 7 cfg1.N = (outsAt1 V c 49 lt49).1 := by
  refine (dat1 V c).arrAt_eq_of_cover 7 _ (fun t hf => ?_) (fun i => ?_)
  · have h49 : t.val = 49 := by have h1 := (flush1_7 t).mp hf; have h2 := lt50 t; omega
    obtain rfl : t = ⟨49, lt49⟩ := Fin.ext h49
    show (cfg1.win 7).cut (grid1.coords _) ((dat1 V c).after 7 _) = _
    rw [after1_7]
    exact cut7_eq _ _
  · refine ⟨⟨49, lt49⟩, (flush1_7 _).mpr rfl, (mem_blk7 _ i).mpr fun a => ?_⟩
    obtain ⟨e0, e1⟩ := idx1_7 ⟨49, lt49⟩
    match a with
    | ⟨0, _⟩ =>
      show win1_7.index _ (0 : Fin 2) * 400 ≤ (i 0).val ∧ (i 0).val < win1_7.index _ (0 : Fin 2) * 400 + 400
      have hi : (i 0).val < 400 := (i 0).isLt
      omega
    | ⟨1, _⟩ =>
      show win1_7.index _ (1 : Fin 2) * 128 ≤ (i 1).val ∧ (i 1).val < win1_7.index _ (1 : Fin 2) * 128 + 128
      have hi : (i 1).val < 128 := (i 1).isLt
      omega

end Cert.KernelIdeal.Hand

end
-- ==== Proof.KPieceDefs.lean ====
/-
  What the attention region's body does to its three accumulators at one grid point, as pure functions of the point's
  input blocks and of what the accumulator held: the source term gains (per-source column sums of a3)ᵀ · (wh_chunk · a1_i);
  the column-sum accumulator gains each of the chunk's eight 400-row sub-blocks of a3 in turn; the a3ᵀ·ef accumulator
  gains the chunk's product. Each is the payload of the body's last whole-buffer store into that accumulator, its loads
  read back.
-/
import proofs.«158061_j24318104830717_2_alg».proof.Proof.KRegion1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer access, however spelt. -/
theorem hz2 : (![0, 0] : Fin 2 → Nat) = fun _ => 0 := funext fun a => by fin_cases a <;> rfl

/-- Rows 0 to 399 of the chunk's a3 block: the edges leaving the chunk's source node 0. -/
def a3sub0 (x1 : Vec F S3200x400 .f32) : Vec F S400x400 .f32 :=
  View.ld x1 (Rect.unit (s := S3200x400) ![0, 0] S400x400.size inb_S3200x400_S400x400_0_0)
/-- Rows 400 to 799 of the chunk's a3 block: the edges leaving the chunk's source node 1. -/
def a3sub1 (x1 : Vec F S3200x400 .f32) : Vec F S400x400 .f32 :=
  View.ld x1 (Rect.unit (s := S3200x400) ![400, 0] S400x400.size inb_S3200x400_S400x400_400_0)
/-- Rows 800 to 1199 of the chunk's a3 block: the edges leaving the chunk's source node 2. -/
def a3sub2 (x1 : Vec F S3200x400 .f32) : Vec F S400x400 .f32 :=
  View.ld x1 (Rect.unit (s := S3200x400) ![800, 0] S400x400.size inb_S3200x400_S400x400_800_0)
/-- Rows 1200 to 1599 of the chunk's a3 block: the edges leaving the chunk's source node 3. -/
def a3sub3 (x1 : Vec F S3200x400 .f32) : Vec F S400x400 .f32 :=
  View.ld x1 (Rect.unit (s := S3200x400) ![1200, 0] S400x400.size inb_S3200x400_S400x400_1200_0)
/-- Rows 1600 to 1999 of the chunk's a3 block: the edges leaving the chunk's source node 4. -/
def a3sub4 (x1 : Vec F S3200x400 .f32) : Vec F S400x400 .f32 :=
  View.ld x1 (Rect.unit (s := S3200x400) ![1600, 0] S400x400.size inb_S3200x400_S400x400_1600_0)
/-- Rows 2000 to 2399 of the chunk's a3 block: the edges leaving the chunk's source node 5. -/
def a3sub5 (x1 : Vec F S3200x400 .f32) : Vec F S400x400 .f32 :=
  View.ld x1 (Rect.unit (s := S3200x400) ![2000, 0] S400x400.size inb_S3200x400_S400x400_2000_0)
/-- Rows 2400 to 2799 of the chunk's a3 block: the edges leaving the chunk's source node 6. -/
def a3sub6 (x1 : Vec F S3200x400 .f32) : Vec F S400x400 .f32 :=
  View.ld x1 (Rect.unit (s := S3200x400) ![2400, 0] S400x400.size inb_S3200x400_S400x400_2400_0)
/-- Rows 2800 to 3199 of the chunk's a3 block: the edges leaving the chunk's source node 7. -/
def a3sub7 (x1 : Vec F S3200x400 .f32) : Vec F S400x400 .f32 :=
  View.ld x1 (Rect.unit (s := S3200x400) ![2800, 0] S400x400.size inb_S3200x400_S400x400_2800_0)

/-- The source-term accumulator after the point, from what it held: the chunk's eight sub-blocks' column sums, the
    chunk's rows of wh against a1_i, added to `acc`. -/
def eUpd (x1 : Vec F S3200x400 .f32) (x2 : Vec F S8x128 .f32) (x4 : Vec F S128x400 .f32) (acc : Vec F S400x400 .f32) :
    FVec F S400x400 .f32 :=
  k1_pay12 (k1_pay10 (a3sub0 x1) (a3sub1 x1) (a3sub2 x1) (a3sub3 x1) (a3sub4 x1) (a3sub5 x1) (a3sub6 x1) (a3sub7 x1))
    (k1_pay11 x2) x4 acc

/-- The column-sum accumulator after the point, from what it held: the eight sub-blocks added one after the other. -/
def sUpd (x1 : Vec F S3200x400 .f32) (acc : Vec F S400x400 .f32) : FVec F S400x400 .f32 :=
  k1_pay1 (k1_pay20 (k1_pay19 (k1_pay18 (k1_pay17 (k1_pay16 (k1_pay15 (k1_pay14 (k1_pay13 acc (a3sub0 x1)) (a3sub1 x1)) (a3sub2 x1)) (a3sub3 x1)) (a3sub4 x1)) (a3sub5 x1)) (a3sub6 x1)) (a3sub7 x1))

/-- The a3ᵀ·ef accumulator after the point, from what it held. -/
def seUpd (x1 : Vec F S3200x400 .f32) (x0 : Vec F S5x3200 .f32) (acc : Vec F S400x5 .f32) : FVec F S400x5 .f32 :=
  k1_pay2 x1 x0 acc

end Cert.KernelIdeal.Hand

end
-- ==== Proof.KPiecesA.lean ====
/-
  The first grid point: the three accumulators are reset (to the body's zero payloads) and then updated, and the
  fourth scratch buffer takes wh · a1_j.
-/
import proofs.«158061_j24318104830717_2_alg».proof.Proof.KPieceDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The source term after the first point: the update of the reset value. -/
theorem sout1_A_0_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) :
    sout1_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = eUpd x1 x2 x4 (k1_pay6 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  rw [View.canon_cons_unit_zero hz2]
  sl_unfold_words
  unfold eUpd a3sub0 a3sub1 a3sub2 a3sub3 a3sub4 a3sub5 a3sub6 a3sub7
  simp only [View.readCov_cons_toLoadRect, View.readAt_eq_ld, harg2.read_unread, harg3.read_unread, harg5.read_unread, harg9.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

/-- The column sums after the first point: the update of the reset value. -/
theorem sout1_A_1_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) :
    sout1_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = sUpd x1 (k1_pay7 (F := F)) := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  rw [View.canon_cons_unit_zero hz2]
  sl_unfold_words
  unfold sUpd a3sub0 a3sub1 a3sub2 a3sub3 a3sub4 a3sub5 a3sub6 a3sub7
  simp only [View.readCov_cons_toLoadRect, View.readAt_eq_ld, harg2.read_unread, harg10.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

/-- a3ᵀ·ef after the first point: the update of the reset value. -/
theorem sout1_A_2_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) :
    sout1_A_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = seUpd x1 x0 (k1_pay8 (F := F)) := by
  unfold sout1_A_2
  rw [View.read_writes_eq_canon _ _ _ (scover1_A_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  rw [View.canon_cons_unit_zero hz2]
  sl_unfold_words
  unfold seUpd
  simp only [View.readCov_cons_toLoadRect, View.readAt_eq_ld, harg1.read_unread, harg2.read_unread, harg11.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

/-- wh · a1_j, formed at the first point. -/
theorem sout1_A_3_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) :
    sout1_A_3 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k1_pay9 x3 x5 := by
  unfold sout1_A_3
  rw [View.read_writes_eq_canon _ _ _ (scover1_A_3 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  rw [View.canon_cons_unit_zero hz2]
  sl_unfold_words
  simp only [View.readCov_cons_toLoadRect, View.readAt_eq_ld, harg4.read_unread, harg6.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

end Cert.KernelIdeal.Hand

end
-- ==== Proof.KPiecesB.lean ====
/-
  A middle grid point: each accumulator ends at its update of what the point before left.
-/
import proofs.«158061_j24318104830717_2_alg».proof.Proof.KPieceDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The source term after a middle point. -/
theorem sout1_B_0_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) :
    sout1_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3 = eUpd x1 x2 x4 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3)]
  unfold kernelRun1_B
  dsimp only
  sl_unfold_words
  rw [View.canon_unit_zero hz2]
  unfold eUpd a3sub0 a3sub1 a3sub2 a3sub3 a3sub4 a3sub5 a3sub6 a3sub7
  simp only [View.readCov_cons_toLoadRect, View.readAt_eq_ld, harg2.read_unread, harg3.read_unread, harg5.read_unread, harg9.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

/-- The column sums after a middle point. -/
theorem sout1_B_1_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) :
    sout1_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3 = sUpd x1 xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3)]
  unfold kernelRun1_B
  dsimp only
  rw [View.canon_cons_unit_zero hz2]
  sl_unfold_words
  unfold sUpd a3sub0 a3sub1 a3sub2 a3sub3 a3sub4 a3sub5 a3sub6 a3sub7
  simp only [View.readCov_cons_toLoadRect, View.readAt_eq_ld, harg2.read_unread, harg10.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

/-- a3ᵀ·ef after a middle point. -/
theorem sout1_B_2_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : ¬cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) :
    sout1_B_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3 = seUpd x1 x0 xs2 := by
  unfold sout1_B_2
  rw [View.read_writes_eq_canon _ _ _ (scover1_B_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3)]
  unfold kernelRun1_B
  dsimp only
  rw [View.canon_unit_zero hz2]
  unfold seUpd
  simp only [View.readCov_cons_toLoadRect, View.readAt_eq_ld, harg1.read_unread, harg2.read_unread, harg11.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

end Cert.KernelIdeal.Hand

end
-- ==== Proof.KPiecesC.lean ====
/-
  The last grid point: the three accumulators are updated as at a middle point, and the output buffer takes the
  softmax-and-product payload of the finished accumulators, wh · a1_j as the point before left it, and a1_e.
-/
import proofs.«158061_j24318104830717_2_alg».proof.Proof.KPieceDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The source term after the last point. -/
theorem sout1_C_0_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) :
    sout1_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3 = eUpd x1 x2 x4 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3)]
  unfold kernelRun1_C
  dsimp only
  sl_unfold_words
  rw [View.canon_cons_unit_zero hz2]
  unfold eUpd a3sub0 a3sub1 a3sub2 a3sub3 a3sub4 a3sub5 a3sub6 a3sub7
  simp only [View.readCov_cons_toLoadRect, View.readAt_eq_ld, harg2.read_unread, harg3.read_unread, harg5.read_unread, harg9.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

/-- The column sums after the last point. -/
theorem sout1_C_1_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) :
    sout1_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3 = sUpd x1 xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3)]
  unfold kernelRun1_C
  dsimp only
  sl_unfold_words
  rw [View.canon_cons_unit_zero hz2]
  unfold sUpd a3sub0 a3sub1 a3sub2 a3sub3 a3sub4 a3sub5 a3sub6 a3sub7
  simp only [View.readCov_cons_toLoadRect, View.readAt_eq_ld, harg2.read_unread, harg10.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

/-- a3ᵀ·ef after the last point. -/
theorem sout1_C_2_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) :
    sout1_C_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3 = seUpd x1 x0 xs2 := by
  unfold sout1_C_2
  rw [View.read_writes_eq_canon _ _ _ (scover1_C_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3)]
  unfold kernelRun1_C
  dsimp only
  sl_unfold_words
  rw [View.canon_cons_unit_zero hz2]
  unfold seUpd
  simp only [View.readCov_cons_toLoadRect, View.readAt_eq_ld, harg1.read_unread, harg2.read_unread, harg11.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

/-- The output buffer after the last point: the body's final payload of wh, of the three finished accumulators, of
    wh · a1_j and of a1_e, over a zero accumulator. -/
theorem out1_C_7_eq (c : Dev nD) (i : grid1.Coords) (arg1 : Memref sig .tc .vmem S5x3200 .f32) (harg1 : arg1.IsWhole) (arg2 : Memref sig .tc .vmem S3200x400 .f32) (harg2 : arg2.IsWhole) (arg3 : Memref sig .tc .vmem S8x128 .f32) (harg3 : arg3.IsWhole) (arg4 : Memref sig .tc .vmem S400x128 .f32) (harg4 : arg4.IsWhole) (arg5 : Memref sig .tc .vmem S128x400 .f32) (harg5 : arg5.IsWhole) (arg6 : Memref sig .tc .vmem S128x400 .f32) (harg6 : arg6.IsWhole) (arg7 : Memref sig .tc .vmem S5x400 .f32) (harg7 : arg7.IsWhole) (arg8 : Memref sig .tc .vmem S400x128 .f32) (harg8 : arg8.IsWhole) (arg9 : Memref sig .tc .vmem S400x400 .f32) (harg9 : arg9.IsWhole) (arg10 : Memref sig .tc .vmem S400x400 .f32) (harg10 : arg10.IsWhole) (arg11 : Memref sig .tc .vmem S400x5 .f32) (harg11 : arg11.IsWhole) (arg12 : Memref sig .tc .vmem S400x400 .f32) (harg12 : arg12.IsWhole) (hc0 : ¬cond1_0 i) (hc1 : cond1_1 i) (x0 : Vec F S5x3200 .f32) (x1 : Vec F S3200x400 .f32) (x2 : Vec F S8x128 .f32) (x3 : Vec F S400x128 .f32) (x4 : Vec F S128x400 .f32) (x5 : Vec F S128x400 .f32) (x6 : Vec F S5x400 .f32) (xs0 : Vec F S400x400 .f32) (xs1 : Vec F S400x400 .f32) (xs2 : Vec F S400x5 .f32) (xs3 : Vec F S400x400 .f32) :
    out1_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3
      = k1_pay3 (k1_pay4 x3) (k1_pay5 (sUpd x1 xs1) xs3 x6 (seUpd x1 x0 xs2) (eUpd x1 x2 x4 xs0))
          (constant S400x128 .f32 0x00000000#32) := by
  unfold out1_C_7
  rw [View.read_writes_eq_canon _ _ _ (cover1_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 xs3)]
  unfold kernelRun1_C
  dsimp only
  rw [View.canon_cons_unit_zero hz2]
  sl_unfold_words
  unfold eUpd sUpd seUpd a3sub0 a3sub1 a3sub2 a3sub3 a3sub4 a3sub5 a3sub6 a3sub7
  simp only [View.readCov_cons_toLoadRect, View.readAt_eq_ld, harg1.read_unread, harg2.read_unread, harg3.read_unread, harg4.read_unread, harg5.read_unread, harg7.read_unread, harg9.read_unread, harg10.read_unread, harg11.read_unread, harg12.read_unread,
    View.ld_unit_zero (S := S5x3200) hz2, View.ld_unit_zero (S := S3200x400) hz2, View.ld_unit_zero (S := S8x128) hz2,
    View.ld_unit_zero (S := S400x128) hz2, View.ld_unit_zero (S := S128x400) hz2, View.ld_unit_zero (S := S5x400) hz2,
    View.ld_unit_zero (S := S400x400) hz2, View.ld_unit_zero (S := S400x5) hz2]

end Cert.KernelIdeal.Hand

end
-- ==== Proof.KPieces.lean ====
/-
  What each grid point of the attention region leaves in its accumulators and, at the last point, in the output
  buffer: the three cases side by side.
-/
import proofs.«158061_j24318104830717_2_alg».proof.Proof.KPiecesA
import proofs.«158061_j24318104830717_2_alg».proof.Proof.KPiecesB
import proofs.«158061_j24318104830717_2_alg».proof.Proof.KPiecesC
-- ==== Proof.KChains.lean ====
/-
  The attention region's accumulators in closed form: after grid point n each of the three accumulators is its
  one-point update applied n + 1 times, from the body's zero payload, to the blocks of points 0 … n; the fourth scratch
  buffer holds wh · a1_j as formed at the first point; and at the last point the output buffer takes the final payload
  of the three finished accumulators. By induction on the point, one case per kind of point.
-/
import proofs.«158061_j24318104830717_2_alg».proof.Proof.KPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Region1

variable (V : (c : Dev nD) → (b : Ref sig .tc) → Buf (Elt F) ((c : Thread nD τ).loc b))

/-! ## One point -/

set_option maxHeartbeats 1600000 in
/-- The first point: the updates of the reset values, and wh · a1_j. -/
theorem scratch_A (c : Dev nD) (t : Fin cfg1.N) (hz : t.val = 0) (h1 : ¬t.val % 50 = 49) :
    (outsAt1 V c t.val t.isLt).2
      = (eUpd (iblk1 V c 1 t) (iblk1 V c 2 t) (iblk1 V c 4 t) (k1_pay6 (F := F)), sUpd (iblk1 V c 1 t) (k1_pay7 (F := F)),
          seUpd (iblk1 V c 1 t) (iblk1 V c 0 t) (k1_pay8 (F := F)), k1_pay9 (iblk1 V c 3 t) (iblk1 V c 5 t)) := by
  rw [outsAt1_A V c t hz h1]
  show (_, _, _, _) = (_, _, _, _)
  exact congrArg₂ Prod.mk (sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t))
    (congrArg₂ Prod.mk (sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t))
      (congrArg₂ Prod.mk (sout1_A_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t))
        (sout1_A_3_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_pos t hz) (c1_neg t h1) (iblk1 V c 0 t) (iblk1 V c 1 t) (iblk1 V c 2 t) (iblk1 V c 3 t) (iblk1 V c 4 t) (iblk1 V c 5 t) (iblk1 V c 6 t))))

set_option maxHeartbeats 1600000 in
/-- A middle point: the updates of what the point before left; wh · a1_j kept. -/
theorem scratch_B (c : Dev nD) (t : Fin cfg1.N) (hz : t.val ≠ 0) (h1 : ¬t.val % 50 = 49) :
    (outsAt1 V c t.val t.isLt).2
      = (eUpd (iblk1 V c 1 t) (iblk1 V c 2 t) (iblk1 V c 4 t) (outsAt1 V c (t.val - 1) (Nat.lt_of_le_of_lt (Nat.sub_le _ _) t.isLt)).2.1, sUpd (iblk1 V c 1 t) (outsAt1 V c (t.val - 1) (Nat.lt_of_le_of_lt (Nat.sub_le _ _) t.isLt)).2.2.1,
          seUpd (iblk1 V c 1 t) (iblk1 V c 0 t) (outsAt1 V c (t.val - 1) (Nat.lt_of_le_of_lt (Nat.sub_le _ _) t.isLt)).2.2.2.1, (outsAt1 V c (t.val - 1) (Nat.lt_of_le_of_lt (Nat.sub_le _ _) t.isLt)).2.2.2.2) := by
  rw [outsAt1_B V c t hz h1]
  show (_, _, _, _) = (_, _, _, _)
  exact congrArg₂ Prod.mk (sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
    (congrArg₂ Prod.mk (sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
      (congrArg₂ Prod.mk (sout1_B_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_neg t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) rfl))

set_option maxHeartbeats 1600000 in
/-- The last point: the scratch buffers as at a middle point. -/
theorem scratch_C (c : Dev nD) (t : Fin cfg1.N) (hz : t.val ≠ 0) (h1 : t.val % 50 = 49) :
    (outsAt1 V c t.val t.isLt).2
      = (eUpd (iblk1 V c 1 t) (iblk1 V c 2 t) (iblk1 V c 4 t) (outsAt1 V c (t.val - 1) (Nat.lt_of_le_of_lt (Nat.sub_le _ _) t.isLt)).2.1, sUpd (iblk1 V c 1 t) (outsAt1 V c (t.val - 1) (Nat.lt_of_le_of_lt (Nat.sub_le _ _) t.isLt)).2.2.1,
          seUpd (iblk1 V c 1 t) (iblk1 V c 0 t) (outsAt1 V c (t.val - 1) (Nat.lt_of_le_of_lt (Nat.sub_le _ _) t.isLt)).2.2.2.1, (outsAt1 V c (t.val - 1) (Nat.lt_of_le_of_lt (Nat.sub_le _ _) t.isLt)).2.2.2.2) := by
  rw [outsAt1_C V c t hz h1]
  show (_, _, _, _) = (_, _, _, _)
  exact congrArg₂ Prod.mk (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
    (congrArg₂ Prod.mk (sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
      (congrArg₂ Prod.mk (sout1_C_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) rfl))

set_option maxHeartbeats 1600000 in
/-- The last point: the output buffer. -/
theorem out_C (c : Dev nD) (t : Fin cfg1.N) (hz : t.val ≠ 0) (h1 : t.val % 50 = 49) :
    (outsAt1 V c t.val t.isLt).1
      = k1_pay3 (k1_pay4 (iblk1 V c 3 t))
          (k1_pay5 (sUpd (iblk1 V c 1 t) (outsAt1 V c (t.val - 1) (Nat.lt_of_le_of_lt (Nat.sub_le _ _) t.isLt)).2.2.1) (outsAt1 V c (t.val - 1) (Nat.lt_of_le_of_lt (Nat.sub_le _ _) t.isLt)).2.2.2.2 (iblk1 V c 6 t)
            (seUpd (iblk1 V c 1 t) (iblk1 V c 0 t) (outsAt1 V c (t.val - 1) (Nat.lt_of_le_of_lt (Nat.sub_le _ _) t.isLt)).2.2.2.1)
            (eUpd (iblk1 V c 1 t) (iblk1 V c 2 t) (iblk1 V c 4 t) (outsAt1 V c (t.val - 1) (Nat.lt_of_le_of_lt (Nat.sub_le _ _) t.isLt)).2.1))
          (constant S400x128 .f32 0x00000000#32) := by
  rw [outsAt1_C V c t hz h1]
  exact out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (c0_neg t hz) (c1_pos t h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2

/-! ## The chains -/

/-- The source-term accumulator after point n. -/
def eChain (c : Dev nD) : (n : ℕ) → n < cfg1.N → Vec F S400x400 .f32
  | 0, hn => eUpd (iblk1 V c 1 ⟨0, hn⟩) (iblk1 V c 2 ⟨0, hn⟩) (iblk1 V c 4 ⟨0, hn⟩) (k1_pay6 (F := F))
  | n + 1, hn => eUpd (iblk1 V c 1 ⟨n + 1, hn⟩) (iblk1 V c 2 ⟨n + 1, hn⟩) (iblk1 V c 4 ⟨n + 1, hn⟩) (eChain c n (Nat.lt_of_succ_lt hn))

/-- The column-sum accumulator after point n. -/
def sChain (c : Dev nD) : (n : ℕ) → n < cfg1.N → Vec F S400x400 .f32
  | 0, hn => sUpd (iblk1 V c 1 ⟨0, hn⟩) (k1_pay7 (F := F))
  | n + 1, hn => sUpd (iblk1 V c 1 ⟨n + 1, hn⟩) (sChain c n (Nat.lt_of_succ_lt hn))

/-- The a3ᵀ·ef accumulator after point n. -/
def seChain (c : Dev nD) : (n : ℕ) → n < cfg1.N → Vec F S400x5 .f32
  | 0, hn => seUpd (iblk1 V c 1 ⟨0, hn⟩) (iblk1 V c 0 ⟨0, hn⟩) (k1_pay8 (F := F))
  | n + 1, hn => seUpd (iblk1 V c 1 ⟨n + 1, hn⟩) (iblk1 V c 0 ⟨n + 1, hn⟩) (seChain c n (Nat.lt_of_succ_lt hn))

theorem pos1 : 0 < cfg1.N := by rw [show cfg1.N = 50 from N_1]; decide

/-- wh · a1_j, as the first point forms it. -/
def jFirst (c : Dev nD) : Vec F S400x400 .f32 := k1_pay9 (iblk1 V c 3 ⟨0, pos1⟩) (iblk1 V c 5 ⟨0, pos1⟩)

/-- After every point the four scratch buffers are the three chains and wh · a1_j. -/
theorem outsAt1_scratch (c : Dev nD) : ∀ (n : ℕ) (hn : n < cfg1.N),
    (outsAt1 V c n hn).2 = (eChain V c n hn, sChain V c n hn, seChain V c n hn, jFirst V c)
  | 0, hn => scratch_A V c ⟨0, hn⟩ rfl (show ¬(0 % 50 = 49) by decide)
  | n + 1, hn => by
    have ih := outsAt1_scratch c n (Nat.lt_of_succ_lt hn)
    have hz : (⟨n + 1, hn⟩ : Fin cfg1.N).val ≠ 0 := Nat.succ_ne_zero n
    have step : (outsAt1 V c (n + 1) hn).2
        = (eUpd (iblk1 V c 1 ⟨n + 1, hn⟩) (iblk1 V c 2 ⟨n + 1, hn⟩) (iblk1 V c 4 ⟨n + 1, hn⟩) (outsAt1 V c n (Nat.lt_of_succ_lt hn)).2.1,
            sUpd (iblk1 V c 1 ⟨n + 1, hn⟩) (outsAt1 V c n (Nat.lt_of_succ_lt hn)).2.2.1,
            seUpd (iblk1 V c 1 ⟨n + 1, hn⟩) (iblk1 V c 0 ⟨n + 1, hn⟩) (outsAt1 V c n (Nat.lt_of_succ_lt hn)).2.2.2.1,
            (outsAt1 V c n (Nat.lt_of_succ_lt hn)).2.2.2.2) := by
      by_cases h1 : (⟨n + 1, hn⟩ : Fin cfg1.N).val % 50 = 49
      · exact scratch_C V c ⟨n + 1, hn⟩ hz h1
      · exact scratch_B V c ⟨n + 1, hn⟩ hz h1
    rw [step, ih]
    rfl

/-- The output buffer after a last point: the final payload of the three finished chains. -/
theorem outsAt1_out (c : Dev nD) (n : ℕ) (hn : n + 1 < cfg1.N) (h1 : (n + 1) % 50 = 49) :
    (outsAt1 V c (n + 1) hn).1
      = k1_pay3 (k1_pay4 (iblk1 V c 3 ⟨n + 1, hn⟩))
          (k1_pay5 (sChain V c (n + 1) hn) (jFirst V c) (iblk1 V c 6 ⟨n + 1, hn⟩) (seChain V c (n + 1) hn) (eChain V c (n + 1) hn))
          (constant S400x128 .f32 0x00000000#32) := by
  have ih := outsAt1_scratch V c n (Nat.lt_of_succ_lt hn)
  have hz : (⟨n + 1, hn⟩ : Fin cfg1.N).val ≠ 0 := Nat.succ_ne_zero n
  have step := out_C V c ⟨n + 1, hn⟩ hz h1
  have step' : (outsAt1 V c (n + 1) hn).1
      = k1_pay3 (k1_pay4 (iblk1 V c 3 ⟨n + 1, hn⟩))
          (k1_pay5 (sUpd (iblk1 V c 1 ⟨n + 1, hn⟩) (outsAt1 V c n (Nat.lt_of_succ_lt hn)).2.2.1) (outsAt1 V c n (Nat.lt_of_succ_lt hn)).2.2.2.2
            (iblk1 V c 6 ⟨n + 1, hn⟩)
            (seUpd (iblk1 V c 1 ⟨n + 1, hn⟩) (iblk1 V c 0 ⟨n + 1, hn⟩) (outsAt1 V c n (Nat.lt_of_succ_lt hn)).2.2.2.1)
            (eUpd (iblk1 V c 1 ⟨n + 1, hn⟩) (iblk1 V c 2 ⟨n + 1, hn⟩) (iblk1 V c 4 ⟨n + 1, hn⟩) (outsAt1 V c n (Nat.lt_of_succ_lt hn)).2.1))
          (constant S400x128 .f32 0x00000000#32) := step
  rw [step', ih]
  rfl

end Region1

end Cert.KernelIdeal.Hand

end
-- ==== Proof.KerPaySub.lean ====
/-
  A block of consecutive rows of the 3200 × 400 slab, read at an index: the 400 × 400 rectangle that starts at row o
  reads, at (j, p), the slab at (o + j, p).
-/
import proofs.«158061_j24318104830717_2_alg».proof.Proof.Gen.KernelIdeal.Skeleton
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen

/-- The 400 rows from row `o` on. -/
theorem ld_rows {α : EltTy → Type} {e : EltTy} (x : S3200x400.Idx → α e) (o : Nat)
    (inb : ∀ a, (![o, 0] : Fin 2 → Nat) a + S400x400.size a ≤ S3200x400.size a) (j p : Fin 400) (h : o + j.val < 3200) :
    View.ld x (Rect.unit (s := S3200x400) ![o, 0] S400x400.size inb) (ix2 j p) = x (ix2 ⟨o + j.val, h⟩ p) := by
  show x ((Rect.unit (s := S3200x400) ![o, 0] S400x400.size inb).idx (ix2 j p)) = _
  refine congrArg x (funext fun a => Fin.ext ?_)
  match a with
  | ⟨0, _⟩ =>
    show o + 1 * j.val = o + j.val
    omega
  | ⟨1, _⟩ =>
    show 0 + 1 * p.val = p.val
    omega

/-- Block `l` of the eight: rows 400·l to 400·l + 399. -/
theorem ld_block {α : EltTy → Type} {e : EltTy} (x : S3200x400.Idx → α e) (l : Fin 8)
    (inb : ∀ a, (![400 * l.val, 0] : Fin 2 → Nat) a + S400x400.size a ≤ S3200x400.size a) (j p : Fin 400) :
    View.ld x (Rect.unit (s := S3200x400) ![400 * l.val, 0] S400x400.size inb) (ix2 j p)
      = x (ix2 ⟨400 * l.val + j.val, by have := l.isLt; have := j.isLt; omega⟩ p) :=
  ld_rows x (400 * l.val) inb j p _

end Cert.KernelIdeal.Pay

end
-- ==== Proof.LibRunTotal.lean ====
/-
  A running total built by recursion — zero plus the first term at the first index, the previous total plus the
  next term afterwards — is the finite sum of the terms so far; at the last index it is the sum of all terms. Over an
  arbitrary additive commutative monoid.
-/
import Mathlib.Algebra.BigOperators.Fin

namespace Cert.LibRunTotal

open scoped BigOperators

variable {M : Type*} [AddCommMonoid M]

/-- The running total of `f` up to and including index `n`: reset to zero and add at the first index, add at each later one. -/
def runTotal {N : ℕ} (f : Fin N → M) : (n : ℕ) → n < N → M
  | 0, h => 0 + f ⟨0, h⟩
  | n + 1, h => runTotal f n (Nat.lt_of_succ_lt h) + f ⟨n + 1, h⟩

/-- The running total up to `n` is the sum of the first `n + 1` terms. -/
theorem runTotal_eq_sum {N : ℕ} (f : Fin N → M) :
    ∀ (n : ℕ) (h : n < N), runTotal f n h = ∑ i : Fin (n + 1), f ⟨i.val, by omega⟩
  | 0, h => by simp [runTotal]
  | n + 1, h => by
    rw [runTotal, runTotal_eq_sum f n]
    exact (Fin.sum_univ_castSucc (fun i : Fin (n + 1 + 1) => f ⟨i.val, by omega⟩)).symm

/-- At the last index the running total is the sum of all terms. -/
theorem runTotal_last {N n : ℕ} (hN : N = n + 1) (f : Fin N → M) (h : n < N) : runTotal f n h = ∑ i : Fin N, f i := by
  subst hN
  rw [runTotal_eq_sum]

end Cert.LibRunTotal
-- ==== Proof.SpecAccum.lean ====
/-
  The three accumulators, point by point. Each of the 50 grid points adds one chunk's contribution — eight source
  nodes, 3200 edges — to the source-term accumulator, to the column sums of a3, and to a3ᵀ · ef; the first point
  starts from zero. After the last point the three running totals are the three factored terms of the score. Only
  the commutative-monoid laws of addition and re-indexing are used: no entry need be finite.
-/
import proofs.«158061_j24318104830717_2_alg».proof.Proof.Spec
import proofs.«158061_j24318104830717_2_alg».proof.Proof.LibRunTotal
import Mathlib.Algebra.BigOperators.Fin

noncomputable section

open scoped BigOperators

namespace Cert.GatSpec

open Cert

/-- (wh · A)[i, q] for a 128-row matrix A: the projection of node i's embedding on column q. -/
def wiprojG (wh : M 400 128) (ai : M 128 400) (i q : Fin 400) : EReal := ∑ d : Fin 128, wh i d * ai d q

theorem wiproj_eq (wh : M 400 128) (a1 : M 261 400) : wiproj wh a1 = wiprojG wh (a1i a1) := rfl
theorem jproj_eq (wh : M 400 128) (a1 : M 261 400) : jproj wh a1 = wiprojG wh (a1j a1) := rfl

/-- What point t adds to the source term: over its eight source nodes, (a3 summed over the node's 400 edges) times
    the node's projection. -/
def eStep (wh : M 400 128) (ai : M 128 400) (a3 : M 160000 400) (t : Fin 50) : M 400 400 := fun p q =>
  ∑ l : Fin 8, (∑ j : Fin 400, a3 ⟨3200 * t.val + 400 * l.val + j.val, by omega⟩ p)
    * (∑ d : Fin 128, wh ⟨8 * t.val + l.val, by omega⟩ d * ai d q)

/-- What point t adds to the column sums of a3: its eight source nodes' edges into node j. -/
def sStep (a3 : M 160000 400) (t : Fin 50) : M 400 400 := fun j p =>
  ∑ l : Fin 8, a3 ⟨3200 * t.val + 400 * l.val + j.val, by omega⟩ p

/-- What point t adds to a3ᵀ · ef: its 3200 edges, the edge features held transposed. -/
def seStep (a3 : M 160000 400) (eft : M 5 160000) (t : Fin 50) : M 400 5 := fun p f =>
  ∑ r : Fin 3200, a3 ⟨3200 * t.val + r.val, by omega⟩ p * eft f ⟨3200 * t.val + r.val, by omega⟩

/-- The source-term accumulator after point n. -/
def eUpTo (wh : M 400 128) (ai : M 128 400) (a3 : M 160000 400) : (n : ℕ) → n < 50 → M 400 400
  | 0, h => fun p q => 0 + eStep wh ai a3 ⟨0, h⟩ p q
  | n + 1, h => fun p q => eUpTo wh ai a3 n (by omega) p q + eStep wh ai a3 ⟨n + 1, h⟩ p q

/-- The column-sum accumulator after point n. -/
def sUpTo (a3 : M 160000 400) : (n : ℕ) → n < 50 → M 400 400
  | 0, h => fun j p => 0 + sStep a3 ⟨0, h⟩ j p
  | n + 1, h => fun j p => sUpTo a3 n (by omega) j p + sStep a3 ⟨n + 1, h⟩ j p

/-- The a3ᵀ · ef accumulator after point n. -/
def seUpTo (a3 : M 160000 400) (eft : M 5 160000) : (n : ℕ) → n < 50 → M 400 5
  | 0, h => fun p f => 0 + seStep a3 eft ⟨0, h⟩ p f
  | n + 1, h => fun p f => seUpTo a3 eft n (by omega) p f + seStep a3 eft ⟨n + 1, h⟩ p f

theorem eUpTo_eq_runTotal (wh : M 400 128) (ai : M 128 400) (a3 : M 160000 400) :
    ∀ (n : ℕ) (h : n < 50) (p q : Fin 400),
      eUpTo wh ai a3 n h p q = LibRunTotal.runTotal (fun t : Fin 50 => eStep wh ai a3 t p q) n h
  | 0, h, p, q => rfl
  | n + 1, h, p, q =>
    congrArg (· + eStep wh ai a3 ⟨n + 1, h⟩ p q) (eUpTo_eq_runTotal wh ai a3 n (by omega) p q)

theorem sUpTo_eq_runTotal (a3 : M 160000 400) :
    ∀ (n : ℕ) (h : n < 50) (j p : Fin 400),
      sUpTo a3 n h j p = LibRunTotal.runTotal (fun t : Fin 50 => sStep a3 t j p) n h
  | 0, h, j, p => rfl
  | n + 1, h, j, p => congrArg (· + sStep a3 ⟨n + 1, h⟩ j p) (sUpTo_eq_runTotal a3 n (by omega) j p)

theorem seUpTo_eq_runTotal (a3 : M 160000 400) (eft : M 5 160000) :
    ∀ (n : ℕ) (h : n < 50) (p : Fin 400) (f : Fin 5),
      seUpTo a3 eft n h p f = LibRunTotal.runTotal (fun t : Fin 50 => seStep a3 eft t p f) n h
  | 0, h, p, f => rfl
  | n + 1, h, p, f =>
    congrArg (· + seStep a3 eft ⟨n + 1, h⟩ p f) (seUpTo_eq_runTotal a3 eft n (by omega) p f)

/-- After the last point the source-term accumulator is the source term. -/
theorem eUpTo_last (wh : M 400 128) (a1 : M 261 400) (a3 : M 160000 400) :
    eUpTo wh (a1i a1) a3 49 (by omega) = eAcc wh a1 a3 := by
  funext p q
  rw [eUpTo_eq_runTotal, LibRunTotal.runTotal_last rfl]
  show ∑ c : Fin 50, ∑ l : Fin 8, _ = ∑ c : Fin 50, ∑ l : Fin 8, _
  refine Finset.sum_congr rfl fun c _ => Finset.sum_congr rfl fun l _ => ?_
  refine congrArg₂ (· * ·) (Finset.sum_congr rfl fun j _ => congrArg (fun r => a3 r p) (Fin.ext ?_)) rfl
  show 3200 * c.val + 400 * l.val + j.val = (8 * c.val + l.val) * 400 + j.val
  omega

/-- After the last point the column-sum accumulator holds the column sums. -/
theorem sUpTo_last (a3 : M 160000 400) : sUpTo a3 49 (by omega) = sAcc a3 := by
  funext j p
  rw [sUpTo_eq_runTotal, LibRunTotal.runTotal_last rfl]
  show ∑ c : Fin 50, ∑ l : Fin 8, _ = ∑ c : Fin 50, ∑ l : Fin 8, _
  refine Finset.sum_congr rfl fun c _ => Finset.sum_congr rfl fun l _ => congrArg (fun r => a3 r p) (Fin.ext ?_)
  show 3200 * c.val + 400 * l.val + j.val = (8 * c.val + l.val) * 400 + j.val
  omega

/-- After the last point the third accumulator holds a3ᵀ · ef. -/
theorem seUpTo_last (a3 : M 160000 400) (ef : M 160000 5) :
    seUpTo a3 (fun f r => ef r f) 49 (by omega) = seAcc a3 ef := by
  funext p f
  rw [seUpTo_eq_runTotal, LibRunTotal.runTotal_last rfl]
  rfl

/-- Eight terms added one after the other are the eight-term sum added once. -/
theorem add8 (s b0 b1 b2 b3 b4 b5 b6 b7 : EReal) :
    (((((((s + b0) + b1) + b2) + b3) + b4) + b5) + b6) + b7
      = s + ∑ l : Fin 8, ![b0, b1, b2, b3, b4, b5, b6, b7] l := by
  rw [Fin.sum_univ_eight]
  simp only [add_assoc]
  rfl

/-- The factored score from the three accumulators after the last point. -/
theorem scoreKer_eq (wh : M 400 128) (ef : M 160000 5) (a1 : M 261 400) (a3 : M 160000 400) (p q : Fin 400) :
    scoreKer wh ef a1 a3 p q
      = (eUpTo wh (a1i a1) a3 49 (by omega) p q
          + ∑ j : Fin 400, sUpTo a3 49 (by omega) j p * wiprojG wh (a1j a1) j q)
        + ∑ f : Fin 5, seUpTo a3 (fun f r => ef r f) 49 (by omega) p f * a1e a1 f q := by
  rw [eUpTo_last, sUpTo_last, seUpTo_last]
  rfl

end Cert.GatSpec

end
-- ==== Proof.KUpd.lean ====
/-
  What one grid point adds to each of the three accumulators, entry by entry, at the ideal values: the chunk's eight
  400-row sub-blocks of the a3 block are rows 400·l to 400·l + 399 of it, so the source-term accumulator gains
  Σ_l (Σ_j a3blk[400·l + j, p]) · (Σ_d whblk[l, d] · a1_i[d, q]), the column-sum accumulator gains Σ_l a3blk[400·l + j, p],
  and the third gains Σ_r a3blk[r, p] · efblk[f, r].
-/
import proofs.«158061_j24318104830717_2_alg».proof.Proof.KPieceDefs
import proofs.«158061_j24318104830717_2_alg».proof.Proof.KerPay
import proofs.«158061_j24318104830717_2_alg».proof.Proof.KerPaySub
import proofs.«158061_j24318104830717_2_alg».proof.Proof.SpecAccum

noncomputable section

open scoped BigOperators

namespace Cert.KernelIdeal.Hand

open Idealize.ShloMosaic Idealize.ShloMosaic.ValueIdx Cert.KernelIdeal Cert.KernelIdeal.Gen

/-- Rows 400·l to 400·l + 399 lie inside the 3200-row block. -/
theorem inb_block (l : Fin 8) : ∀ a, (![400 * l.val, 0] : Fin 2 → Nat) a + S400x400.size a ≤ S3200x400.size a := by
  intro a
  match a with
  | ⟨0, _⟩ =>
    show 400 * l.val + 400 ≤ 3200
    omega
  | ⟨1, _⟩ =>
    show 0 + 400 ≤ 400
    omega

/-- Sub-block l of the chunk's a3 block, for any l: the eight named sub-blocks are its values at 0, …, 7. -/
def a3sub (x1 : Vec Ideal S3200x400 .f32) (l : Fin 8) : Vec Ideal S400x400 .f32 :=
  View.ld x1 (Rect.unit (s := S3200x400) ![400 * l.val, 0] S400x400.size (inb_block l))

theorem a3sub_apply (x1 : Vec Ideal S3200x400 .f32) (l : Fin 8) (j p : Fin 400) :
    a3sub x1 l (ix2 j p) = x1 (ix2 ⟨400 * l.val + j.val, by omega⟩ p) :=
  Pay.ld_block x1 l (inb_block l) j p

/-- The source-term accumulator after one point. -/
theorem eUpd_apply (x1 : Vec Ideal S3200x400 .f32) (x2 : Vec Ideal S8x128 .f32) (x4 : Vec Ideal S128x400 .f32)
    (acc : Vec Ideal S400x400 .f32) (p q : Fin 400) :
    eUpd (F := Ideal) x1 x2 x4 acc (ix2 p q)
      = acc (ix2 p q) + ∑ l : Fin 8, (∑ j : Fin 400, x1 (ix2 ⟨400 * l.val + j.val, by omega⟩ p))
          * (∑ d : Fin 128, x2 (ix2 l d) * x4 (ix2 d q)) := by
  unfold eUpd
  refine (Pay.pay_eacc (a3sub x1) x2 x4 acc p q).trans ?_
  refine congrArg (acc (ix2 p q) + ·) (Finset.sum_congr rfl fun l _ => ?_)
  exact congrArg (· * (∑ d : Fin 128, x2 (ix2 l d) * x4 (ix2 d q)))
    (Finset.sum_congr rfl fun j _ => a3sub_apply x1 l j p)

/-- The column-sum accumulator after one point. -/
theorem sUpd_apply (x1 : Vec Ideal S3200x400 .f32) (acc : Vec Ideal S400x400 .f32) (j p : Fin 400) :
    sUpd (F := Ideal) x1 acc (ix2 j p) = acc (ix2 j p) + ∑ l : Fin 8, x1 (ix2 ⟨400 * l.val + j.val, by omega⟩ p) := by
  unfold sUpd
  rw [Pay.pay_id1, Pay.pay_sstep20, Pay.pay_sstep19, Pay.pay_sstep18, Pay.pay_sstep17, Pay.pay_sstep16, Pay.pay_sstep15,
    Pay.pay_sstep14, Pay.pay_sstep13, Cert.GatSpec.add8]
  refine congrArg (acc (ix2 j p) + ·) (Finset.sum_congr rfl fun l _ => ?_)
  refine Eq.trans ?_ (a3sub_apply x1 l j p)
  match l with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The a3ᵀ · ef accumulator after one point. -/
theorem seUpd_apply (x1 : Vec Ideal S3200x400 .f32) (x0 : Vec Ideal S5x3200 .f32) (acc : Vec Ideal S400x5 .f32)
    (p : Fin 400) (f : Fin 5) :
    seUpd (F := Ideal) x1 x0 acc (ix2 p f) = acc (ix2 p f) + ∑ r : Fin 3200, x1 (ix2 r p) * x0 (ix2 f r) :=
  Pay.pay_se x1 x0 acc p f

end Cert.KernelIdeal.Hand

end
-- ==== Proof.KerPayOut.lean ====
/-
  The second body's tail read at an index, at the ideal values: the score assembled from its three terms, leaky
  ReLU, the diagonal replaced, the row softmax, and the product with wh — entry (p, d) of the layer's output as a
  function of the score.
-/
import proofs.«158061_j24318104830717_2_alg».proof.Proof.Gen.KernelIdeal.Skeleton
import proofs.«158061_j24318104830717_2_alg».proof.Proof.Spec
import proofs.«158061_j24318104830717_2_alg».proof.Proof.KerPayLib

noncomputable section

open scoped BigOperators

namespace Cert.KernelIdeal.Pay

open Idealize.ShloMosaic Idealize.ShloMosaic.ValueIdx Cert.KernelIdeal Cert.KernelIdeal.Gen

/-! ## The tail, stage by stage, as vectors -/

/-- The score: the accumulator plus the target-side product (contracting the target node) plus the edge-feature product. -/
def scoreV (v105 v107 v116 : Vec Ideal S400x400 .f32) (v110 : Vec Ideal S5x400 .f32) (v113 : Vec Ideal S400x5 .f32) :
    FVec Ideal S400x400 .f32 :=
  addf
    (addf v116
      (matmul dot_S400x400_S400x400_S400x400_0_0_1_1_n_n none (truncf .bf16 v105 bitsLt_bf16_f32)
        (truncf .bf16 v107 bitsLt_bf16_f32) (constant S400x400 .f32 0x00000000#32)))
    (matmul dot_S400x5_S5x400_S400x400_1_0_0_1_n_n none (truncf .bf16 v113 bitsLt_bf16_f32)
      (truncf .bf16 (shapeCast S5x400 v110 shapeCasts_S5x400_S5x400) bitsLt_bf16_f32) (constant S400x400 .f32 0x00000000#32))

/-- Leaky ReLU, then the diagonal (row index = column index) replaced. -/
def maskedV (s : FVec Ideal S400x400 .f32) : FVec Ideal S400x400 .f32 :=
  select (cmpi .eq (iota .tc S400x400 32 [0] iota_S400x400_d0_w32) (iota .tc S400x400 32 [1] iota_S400x400_d1_w32))
    (broadcast S400x400 (Scalar.ofBits (F := Ideal) .f32 0xD9FFCB9E#32))
    (select (cmpf .oge s (broadcast S400x400 (Scalar.ofBits (F := Ideal) .f32 0x00000000#32))) s
      (mulf (broadcast S400x400 (Scalar.ofBits (F := Ideal) .f32 0x3E4CCCCD#32)) s))

/-- Each row's maximum, spread over the row. -/
def rowMaxV (m : FVec Ideal S400x400 .f32) : FVec Ideal S400x400 .f32 :=
  broadcastTo S400x400
    (shapeCast S400x1
      (maximumf (broadcast S400 (Scalar.ofBits (F := Ideal) .f32 0xFF800000#32))
        (multiReduction .maximumf [1] S400 m 0xFF800000#32 reduces_S400x400_S400_2 (.inl rfl) rfl))
      shapeCasts_S400_S400x1)
    broadcasts_S400x1_S400x400

/-- exp of the entry less its row's maximum. -/
def expV (m : FVec Ideal S400x400 .f32) : FVec Ideal S400x400 .f32 := exp (subf m (rowMaxV m))

/-- Each row's sum, spread over the row. -/
def rowSumV (e : FVec Ideal S400x400 .f32) : FVec Ideal S400x400 .f32 :=
  broadcastTo S400x400
    (shapeCast S400x1 (multiReduction .add [1] S400 e 0x00000000#32 reduces_S400x400_S400_2 (.inl rfl) rfl) shapeCasts_S400_S400x1)
    broadcasts_S400x1_S400x400

/-- Each entry over its row's sum. -/
def attnV (e : FVec Ideal S400x400 .f32) : FVec Ideal S400x400 .bf16 :=
  truncf .bf16 (divf e (rowSumV e)) bitsLt_bf16_f32

/-- The tail's pure term is these stages composed. -/
theorem pay5_eq (v105 v107 v116 : Vec Ideal S400x400 .f32) (v110 : Vec Ideal S5x400 .f32) (v113 : Vec Ideal S400x5 .f32) :
    k1_pay5 (F := Ideal) v105 v107 v110 v113 v116 = attnV (expV (maskedV (scoreV v105 v107 v116 v110 v113))) := rfl

/-! ## Each stage at an index -/

theorem scoreV_apply (v105 v107 v116 : Vec Ideal S400x400 .f32) (v110 : Vec Ideal S5x400 .f32) (v113 : Vec Ideal S400x5 .f32)
    (p q : Fin 400) :
    scoreV v105 v107 v116 v110 v113 (ix2 p q)
      = (v116 (ix2 p q) + ∑ j : Fin 400, v105 (ix2 j p) * v107 (ix2 j q)) + ∑ f : Fin 5, v113 (ix2 p f) * v110 (ix2 f q) := by
  unfold scoreV
  rw [shapeCast_self]
  exact congrArg₂ (· + ·)
    (congrArg (v116 (ix2 p q) + ·)
      (matmul_00_apply dot_S400x400_S400x400_S400x400_0_0_1_1_n_n rfl rfl rfl rfl rfl rfl none _ _ p q))
    (matmul_10_apply dot_S400x5_S5x400_S400x400_1_0_0_1_n_n rfl rfl rfl rfl rfl rfl none _ _ p q)

/-- Two node indices below 2³² are equal exactly when their 32-bit words are. -/
theorem cmpi_eq_ofNat (p q : Fin 400) :
    IntOp.cmpi .eq (BitVec.ofNat 32 p.val) (BitVec.ofNat 32 q.val) = if p = q then 1#1 else 0#1 := by
  by_cases hpq : p = q
  · rw [if_pos hpq, hpq]
    exact IntOp.cmpi_eq.mpr rfl
  · rw [if_neg hpq]
    refine eq_zero_of_ne_one fun h => hpq (Fin.ext ?_)
    have h' := congrArg BitVec.toNat (IntOp.cmpi_eq.mp h)
    rw [BitVec.toNat_ofNat, BitVec.toNat_ofNat] at h'
    have := p.isLt
    have := q.isLt
    omega

theorem maskedV_apply (s : FVec Ideal S400x400 .f32) (p q : Fin 400) :
    maskedV s (ix2 p q) = if p = q then Cert.GatSpec.negBig else Cert.GatSpec.lrelu (s (ix2 p q)) := by
  unfold maskedV
  show Scalar.select
      (IntOp.cmpi .eq (iota .tc S400x400 32 [0] iota_S400x400_d0_w32 (ix2 p q)) (iota .tc S400x400 32 [1] iota_S400x400_d1_w32 (ix2 p q)))
      Cert.GatSpec.negBig (Cert.GatSpec.lrelu (s (ix2 p q))) = _
  rw [iota_single_apply, iota_single_apply]
  show Scalar.select (IntOp.cmpi .eq (BitVec.ofNat 32 p.val) (BitVec.ofNat 32 q.val)) _ _ = _
  rw [cmpi_eq_ofNat]
  by_cases hpq : p = q
  · rw [if_pos hpq, if_pos hpq]; exact select_one _ _
  · rw [if_neg hpq, if_neg hpq]; exact select_zero _ _

theorem rowMaxV_apply (m : FVec Ideal S400x400 .f32) (p q : Fin 400) :
    rowMaxV m (ix2 p q) = Cert.GatSpec.rowMax (fun k => m (ix2 p k)) := by
  unfold rowMaxV
  refine (broadcastTo_a1_ab_apply _ _ p q).trans ?_
  refine (shapeCast_a_a1_apply _ _ p 0).trans ?_
  show max (Ideal.ofBits .f32 0xFF800000#32)
    (multiReduction .maximumf [1] S400 m 0xFF800000#32 reduces_S400x400_S400_2 (.inl rfl) rfl (ix1 p)) = _
  exact congrArg (max _) (rowmax_apply m _ _ _ _ p)

theorem expV_apply (m : FVec Ideal S400x400 .f32) (p q : Fin 400) :
    expV m (ix2 p q) = Ideal.exp (m (ix2 p q) - Cert.GatSpec.rowMax (fun k => m (ix2 p k))) := by
  unfold expV
  show Ideal.exp (m (ix2 p q) - rowMaxV m (ix2 p q)) = _
  rw [rowMaxV_apply]

theorem rowSumV_apply (e : FVec Ideal S400x400 .f32) (p q : Fin 400) :
    rowSumV e (ix2 p q) = ∑ k : Fin 400, e (ix2 p k) := by
  unfold rowSumV
  refine (broadcastTo_a1_ab_apply _ _ p q).trans ?_
  refine (shapeCast_a_a1_apply _ _ p 0).trans ?_
  exact rowsum_apply e _ _ _ _ p

theorem attnV_apply (e : FVec Ideal S400x400 .f32) (p q : Fin 400) :
    attnV e (ix2 p q) = Ideal.div (e (ix2 p q)) (∑ k : Fin 400, e (ix2 p k)) := by
  unfold attnV
  show Ideal.div (e (ix2 p q)) (rowSumV e (ix2 p q)) = _
  rw [rowSumV_apply]

/-! ## The tail and the output -/

/-- The attention weight of the pair (p, q), as the softmax of the masked, activated score. -/
theorem pay5_apply (v105 v107 v116 : Vec Ideal S400x400 .f32) (v110 : Vec Ideal S5x400 .f32) (v113 : Vec Ideal S400x5 .f32)
    (p q : Fin 400) :
    k1_pay5 (F := Ideal) v105 v107 v110 v113 v116 (ix2 p q)
      = Cert.GatSpec.attn (fun p q => (v116 (ix2 p q) + ∑ j : Fin 400, v105 (ix2 j p) * v107 (ix2 j q))
          + ∑ f : Fin 5, v113 (ix2 p f) * v110 (ix2 f q)) p q := by
  rw [pay5_eq, attnV_apply]
  have hm : ∀ a b : Fin 400, maskedV (scoreV v105 v107 v116 v110 v113) (ix2 a b)
      = Cert.GatSpec.masked (fun p q => (v116 (ix2 p q) + ∑ j : Fin 400, v105 (ix2 j p) * v107 (ix2 j q))
          + ∑ f : Fin 5, v113 (ix2 p f) * v110 (ix2 f q)) a b := fun a b => by
    rw [maskedV_apply, scoreV_apply]; rfl
  have hrow : ∀ a : Fin 400, (fun k => maskedV (scoreV v105 v107 v116 v110 v113) (ix2 a k))
      = Cert.GatSpec.masked (fun p q => (v116 (ix2 p q) + ∑ j : Fin 400, v105 (ix2 j p) * v107 (ix2 j q))
          + ∑ f : Fin 5, v113 (ix2 p f) * v110 (ix2 f q)) a := fun a => funext (hm a)
  have he : ∀ b : Fin 400, expV (maskedV (scoreV v105 v107 v116 v110 v113)) (ix2 p b)
      = Cert.GatSpec.expd (fun p q => (v116 (ix2 p q) + ∑ j : Fin 400, v105 (ix2 j p) * v107 (ix2 j q))
          + ∑ f : Fin 5, v113 (ix2 p f) * v110 (ix2 f q)) p b := fun b => by
    rw [expV_apply, hm, hrow]; rfl
  rw [he, Finset.sum_congr rfl fun k _ => he k]
  rfl

/-- Entry (p, d) of the layer's output: the attention weights of row p against column d of wh. -/
theorem pay_out (v105 v107 v116 : Vec Ideal S400x400 .f32) (v110 : Vec Ideal S5x400 .f32) (v113 : Vec Ideal S400x5 .f32)
    (v140 : Vec Ideal S400x128 .f32) (p : Fin 400) (d : Fin 128) :
    k1_pay3 (F := Ideal) (k1_pay4 v140) (k1_pay5 v105 v107 v110 v113 v116) (constant S400x128 .f32 0x00000000#32) (ix2 p d)
      = Cert.GatSpec.out (fun p q => (v116 (ix2 p q) + ∑ j : Fin 400, v105 (ix2 j p) * v107 (ix2 j q))
          + ∑ f : Fin 5, v113 (ix2 p f) * v110 (ix2 f q)) (Cert.GatSpec.arr v140) p d := by
  unfold k1_pay3 k1_pay4
  rw [shapeCast_self]
  refine (matmul_10_apply dot_S400x400_S400x128_S400x128_1_0_0_1_n_n rfl rfl rfl rfl rfl rfl none _ _ p d).trans ?_
  unfold Cert.GatSpec.out
  refine Finset.sum_congr rfl fun q _ => ?_
  exact congrArg₂ (· * ·) (pay5_apply v105 v107 v116 v110 v113 p q) rfl

end Cert.KernelIdeal.Pay

end
-- ==== Proof.KAccum.lean ====
/-
  The attention region's accumulators at the ideal values, entry by entry: after point n the source-term accumulator,
  the column sums of a3 and a3ᵀ · ef are the specification's running totals over points 0 … n of the arrays the region
  finds in memory (wh, the three row blocks of a1, a3, the transposed edge features); the fourth scratch buffer is
  wh · a1_j; and the output after the last point is the specification's output of the score assembled from them.
-/
import proofs.«158061_j24318104830717_2_alg».proof.Proof.KChains
import proofs.«158061_j24318104830717_2_alg».proof.Proof.KBlocks
import proofs.«158061_j24318104830717_2_alg».proof.Proof.KFinal
import proofs.«158061_j24318104830717_2_alg».proof.Proof.KUpd
import proofs.«158061_j24318104830717_2_alg».proof.Proof.KerPay
import proofs.«158061_j24318104830717_2_alg».proof.Proof.KerPayOut
import proofs.«158061_j24318104830717_2_alg».proof.Proof.SpecAccum

set_option maxRecDepth 16384

noncomputable section

open scoped BigOperators

namespace Cert.KernelIdeal.Hand

open Idealize.ShloMosaic Idealize.ShloMosaic.ValueIdx Idealize.ShloMosaic.TcCoe Cert.KernelIdeal Cert.KernelIdeal.Gen

/-! ## One point against the specification's steps -/

/-- The source term's update, when the blocks are the specification's arrays at chunk t. -/
theorem eUpd_spec (x1 : Vec Ideal S3200x400 .f32) (x2 : Vec Ideal S8x128 .f32) (x4 : Vec Ideal S128x400 .f32)
    (acc : Vec Ideal S400x400 .f32) (wh : Cert.GatSpec.M 400 128) (ai : Cert.GatSpec.M 128 400) (a3 : Cert.GatSpec.M 160000 400)
    (t : Fin 50)
    (h1 : ∀ (r : Fin 3200) (p : Fin 400), x1 (ix2 r p) = a3 ⟨3200 * t.val + r.val, by omega⟩ p)
    (h2 : ∀ (l : Fin 8) (d : Fin 128), x2 (ix2 l d) = wh ⟨8 * t.val + l.val, by omega⟩ d)
    (h4 : ∀ (d : Fin 128) (q : Fin 400), x4 (ix2 d q) = ai d q) (p q : Fin 400) :
    eUpd (F := Ideal) x1 x2 x4 acc (ix2 p q) = acc (ix2 p q) + Cert.GatSpec.eStep wh ai a3 t p q := by
  rw [eUpd_apply]
  unfold Cert.GatSpec.eStep
  refine congrArg (acc (ix2 p q) + ·) (Finset.sum_congr rfl fun l _ => ?_)
  refine congrArg₂ (· * ·) (Finset.sum_congr rfl fun j _ => ?_) (Finset.sum_congr rfl fun d _ => ?_)
  · rw [h1]
    exact congrArg (fun r => a3 r p) (Fin.ext (Nat.add_assoc _ _ _).symm)
  · rw [h2, h4]

/-- The column sums' update, likewise. -/
theorem sUpd_spec (x1 : Vec Ideal S3200x400 .f32) (acc : Vec Ideal S400x400 .f32) (a3 : Cert.GatSpec.M 160000 400) (t : Fin 50)
    (h1 : ∀ (r : Fin 3200) (p : Fin 400), x1 (ix2 r p) = a3 ⟨3200 * t.val + r.val, by omega⟩ p) (j p : Fin 400) :
    sUpd (F := Ideal) x1 acc (ix2 j p) = acc (ix2 j p) + Cert.GatSpec.sStep a3 t j p := by
  rw [sUpd_apply]
  unfold Cert.GatSpec.sStep
  refine congrArg (acc (ix2 j p) + ·) (Finset.sum_congr rfl fun l _ => ?_)
  rw [h1]
  exact congrArg (fun r => a3 r p) (Fin.ext (Nat.add_assoc _ _ _).symm)

/-- The a3ᵀ · ef update, likewise. -/
theorem seUpd_spec (x1 : Vec Ideal S3200x400 .f32) (x0 : Vec Ideal S5x3200 .f32) (acc : Vec Ideal S400x5 .f32)
    (a3 : Cert.GatSpec.M 160000 400) (eft : Cert.GatSpec.M 5 160000) (t : Fin 50)
    (h1 : ∀ (r : Fin 3200) (p : Fin 400), x1 (ix2 r p) = a3 ⟨3200 * t.val + r.val, by omega⟩ p)
    (h0 : ∀ (f : Fin 5) (r : Fin 3200), x0 (ix2 f r) = eft f ⟨3200 * t.val + r.val, by omega⟩) (p : Fin 400) (f : Fin 5) :
    seUpd (F := Ideal) x1 x0 acc (ix2 p f) = acc (ix2 p f) + Cert.GatSpec.seStep a3 eft t p f := by
  rw [seUpd_apply]
  unfold Cert.GatSpec.seStep
  refine congrArg (acc (ix2 p f) + ·) (Finset.sum_congr rfl fun r _ => ?_)
  rw [h1, h0]

/-! ## The chains against the specification's running totals -/

section Region1

variable (V : (c : Dev nD) → (b : Ref sig .tc) → Buf (Elt Ideal) ((c : Thread nD τ).loc b))

/-- The arrays the region finds: wh, a1's three row blocks, a3, the transposed edge features. -/
abbrev kWH (c : Dev nD) : Cert.GatSpec.M 400 128 := Cert.GatSpec.arr (a := 400) (b := 128) (V c main_v0)
abbrev kAI (c : Dev nD) : Cert.GatSpec.M 128 400 := Cert.GatSpec.arr (a := 128) (b := 400) (V c main_v1)
abbrev kAJ (c : Dev nD) : Cert.GatSpec.M 128 400 := Cert.GatSpec.arr (a := 128) (b := 400) (V c main_v2)
abbrev kAE (c : Dev nD) : Cert.GatSpec.M 5 400 := Cert.GatSpec.arr (a := 5) (b := 400) (V c main_v3)
abbrev kA3 (c : Dev nD) : Cert.GatSpec.M 160000 400 := Cert.GatSpec.arr (a := 160000) (b := 400) (V c main_arg4)
abbrev kEFT (c : Dev nD) : Cert.GatSpec.M 5 160000 := Cert.GatSpec.arr (a := 5) (b := 160000) (V c main_v4)

theorem h50 {n : ℕ} (hn : n < cfg1.N) : n < 50 := lt_of_lt_of_eq hn (show cfg1.N = 50 from N_1)

theorem eChain_apply (c : Dev nD) : ∀ (n : ℕ) (hn : n < cfg1.N) (p q : Fin 400),
    eChain V c n hn (ix2 p q) = Cert.GatSpec.eUpTo (kWH V c) (kAI V c) (kA3 V c) n (h50 hn) p q
  | 0, hn, p, q => by
    show eUpd (F := Ideal) (iblk1 V c 1 ⟨0, hn⟩) (iblk1 V c 2 ⟨0, hn⟩) (iblk1 V c 4 ⟨0, hn⟩) (k1_pay6 (F := Ideal)) (ix2 p q)
      = 0 + Cert.GatSpec.eStep (kWH V c) (kAI V c) (kA3 V c) ⟨0, h50 hn⟩ p q
    refine (eUpd_spec (iblk1 V c 1 ⟨0, hn⟩) (iblk1 V c 2 ⟨0, hn⟩) (iblk1 V c 4 ⟨0, hn⟩) (k1_pay6 (F := Ideal))
      (kWH V c) (kAI V c) (kA3 V c) ⟨0, h50 hn⟩ (fun r p => iblk1_1_apply V c ⟨0, hn⟩ r p)
      (fun l d => iblk1_2_apply V c ⟨0, hn⟩ l d) (fun d q => iblk1_4_apply V c ⟨0, hn⟩ d q) p q).trans ?_
    rw [Pay.pay_zero6]
  | n + 1, hn, p, q => by
    show eUpd (F := Ideal) (iblk1 V c 1 ⟨n + 1, hn⟩) (iblk1 V c 2 ⟨n + 1, hn⟩) (iblk1 V c 4 ⟨n + 1, hn⟩)
        (eChain V c n (Nat.lt_of_succ_lt hn)) (ix2 p q)
      = Cert.GatSpec.eUpTo (kWH V c) (kAI V c) (kA3 V c) n (h50 (Nat.lt_of_succ_lt hn)) p q
        + Cert.GatSpec.eStep (kWH V c) (kAI V c) (kA3 V c) ⟨n + 1, h50 hn⟩ p q
    refine (eUpd_spec (iblk1 V c 1 ⟨n + 1, hn⟩) (iblk1 V c 2 ⟨n + 1, hn⟩) (iblk1 V c 4 ⟨n + 1, hn⟩)
      (eChain V c n (Nat.lt_of_succ_lt hn)) (kWH V c) (kAI V c) (kA3 V c) ⟨n + 1, h50 hn⟩
      (fun r p => iblk1_1_apply V c ⟨n + 1, hn⟩ r p) (fun l d => iblk1_2_apply V c ⟨n + 1, hn⟩ l d)
      (fun d q => iblk1_4_apply V c ⟨n + 1, hn⟩ d q) p q).trans ?_
    rw [eChain_apply c n (Nat.lt_of_succ_lt hn) p q]

theorem sChain_apply (c : Dev nD) : ∀ (n : ℕ) (hn : n < cfg1.N) (j p : Fin 400),
    sChain V c n hn (ix2 j p) = Cert.GatSpec.sUpTo (kA3 V c) n (h50 hn) j p
  | 0, hn, j, p => by
    show sUpd (F := Ideal) (iblk1 V c 1 ⟨0, hn⟩) (k1_pay7 (F := Ideal)) (ix2 j p)
      = 0 + Cert.GatSpec.sStep (kA3 V c) ⟨0, h50 hn⟩ j p
    refine (sUpd_spec (iblk1 V c 1 ⟨0, hn⟩) (k1_pay7 (F := Ideal)) (kA3 V c) ⟨0, h50 hn⟩
      (fun r p => iblk1_1_apply V c ⟨0, hn⟩ r p) j p).trans ?_
    rw [Pay.pay_zero7]
  | n + 1, hn, j, p => by
    show sUpd (F := Ideal) (iblk1 V c 1 ⟨n + 1, hn⟩) (sChain V c n (Nat.lt_of_succ_lt hn)) (ix2 j p)
      = Cert.GatSpec.sUpTo (kA3 V c) n (h50 (Nat.lt_of_succ_lt hn)) j p + Cert.GatSpec.sStep (kA3 V c) ⟨n + 1, h50 hn⟩ j p
    refine (sUpd_spec (iblk1 V c 1 ⟨n + 1, hn⟩) (sChain V c n (Nat.lt_of_succ_lt hn)) (kA3 V c) ⟨n + 1, h50 hn⟩
      (fun r p => iblk1_1_apply V c ⟨n + 1, hn⟩ r p) j p).trans ?_
    rw [sChain_apply c n (Nat.lt_of_succ_lt hn) j p]

theorem seChain_apply (c : Dev nD) : ∀ (n : ℕ) (hn : n < cfg1.N) (p : Fin 400) (f : Fin 5),
    seChain V c n hn (ix2 p f) = Cert.GatSpec.seUpTo (kA3 V c) (kEFT V c) n (h50 hn) p f
  | 0, hn, p, f => by
    show seUpd (F := Ideal) (iblk1 V c 1 ⟨0, hn⟩) (iblk1 V c 0 ⟨0, hn⟩) (k1_pay8 (F := Ideal)) (ix2 p f)
      = 0 + Cert.GatSpec.seStep (kA3 V c) (kEFT V c) ⟨0, h50 hn⟩ p f
    refine (seUpd_spec (iblk1 V c 1 ⟨0, hn⟩) (iblk1 V c 0 ⟨0, hn⟩) (k1_pay8 (F := Ideal)) (kA3 V c) (kEFT V c) ⟨0, h50 hn⟩
      (fun r p => iblk1_1_apply V c ⟨0, hn⟩ r p) (fun f r => iblk1_0_apply V c ⟨0, hn⟩ f r) p f).trans ?_
    rw [Pay.pay_zero8]
  | n + 1, hn, p, f => by
    show seUpd (F := Ideal) (iblk1 V c 1 ⟨n + 1, hn⟩) (iblk1 V c 0 ⟨n + 1, hn⟩) (seChain V c n (Nat.lt_of_succ_lt hn)) (ix2 p f)
      = Cert.GatSpec.seUpTo (kA3 V c) (kEFT V c) n (h50 (Nat.lt_of_succ_lt hn)) p f
        + Cert.GatSpec.seStep (kA3 V c) (kEFT V c) ⟨n + 1, h50 hn⟩ p f
    refine (seUpd_spec (iblk1 V c 1 ⟨n + 1, hn⟩) (iblk1 V c 0 ⟨n + 1, hn⟩) (seChain V c n (Nat.lt_of_succ_lt hn))
      (kA3 V c) (kEFT V c) ⟨n + 1, h50 hn⟩ (fun r p => iblk1_1_apply V c ⟨n + 1, hn⟩ r p)
      (fun f r => iblk1_0_apply V c ⟨n + 1, hn⟩ f r) p f).trans ?_
    rw [seChain_apply c n (Nat.lt_of_succ_lt hn) p f]

theorem jFirst_apply (c : Dev nD) (j q : Fin 400) :
    jFirst V c (ix2 j q) = Cert.GatSpec.wiprojG (kWH V c) (kAJ V c) j q := by
  unfold jFirst
  refine (Pay.pay_jproj (iblk1 V c 3 ⟨0, pos1⟩) (iblk1 V c 5 ⟨0, pos1⟩) j q).trans ?_
  unfold Cert.GatSpec.wiprojG
  exact Finset.sum_congr rfl fun d _ =>
    congrArg₂ (· * ·) (iblk1_3_apply V c ⟨0, pos1⟩ j d) (iblk1_5_apply V c ⟨0, pos1⟩ d q)

/-! ## The region's buffers after point n -/

/-- The source-term accumulator. -/
theorem e_apply (c : Dev nD) (n : ℕ) (hn : n < cfg1.N) (p q : Fin 400) :
    (outsAt1 V c n hn).2.1 (ix2 p q) = Cert.GatSpec.eUpTo (kWH V c) (kAI V c) (kA3 V c) n (h50 hn) p q := by
  rw [show (outsAt1 V c n hn).2.1 = eChain V c n hn from congrArg Prod.fst (outsAt1_scratch V c n hn)]
  exact eChain_apply V c n hn p q

/-- The column sums of a3. -/
theorem s_apply (c : Dev nD) (n : ℕ) (hn : n < cfg1.N) (j p : Fin 400) :
    (outsAt1 V c n hn).2.2.1 (ix2 j p) = Cert.GatSpec.sUpTo (kA3 V c) n (h50 hn) j p := by
  rw [show (outsAt1 V c n hn).2.2.1 = sChain V c n hn from
    congrArg (fun o : Vec Ideal S400x400 .f32 × Vec Ideal S400x400 .f32 × Vec Ideal S400x5 .f32 × Vec Ideal S400x400 .f32 => o.2.1)
      (outsAt1_scratch V c n hn)]
  exact sChain_apply V c n hn j p

/-- a3ᵀ · ef. -/
theorem se_apply (c : Dev nD) (n : ℕ) (hn : n < cfg1.N) (p : Fin 400) (f : Fin 5) :
    (outsAt1 V c n hn).2.2.2.1 (ix2 p f) = Cert.GatSpec.seUpTo (kA3 V c) (kEFT V c) n (h50 hn) p f := by
  rw [show (outsAt1 V c n hn).2.2.2.1 = seChain V c n hn from
    congrArg (fun o : Vec Ideal S400x400 .f32 × Vec Ideal S400x400 .f32 × Vec Ideal S400x5 .f32 × Vec Ideal S400x400 .f32 => o.2.2.1)
      (outsAt1_scratch V c n hn)]
  exact seChain_apply V c n hn p f

/-- wh · a1_j. -/
theorem j_apply (c : Dev nD) (n : ℕ) (hn : n < cfg1.N) (j q : Fin 400) :
    (outsAt1 V c n hn).2.2.2.2 (ix2 j q) = Cert.GatSpec.wiprojG (kWH V c) (kAJ V c) j q := by
  rw [show (outsAt1 V c n hn).2.2.2.2 = jFirst V c from
    congrArg (fun o : Vec Ideal S400x400 .f32 × Vec Ideal S400x400 .f32 × Vec Ideal S400x5 .f32 × Vec Ideal S400x400 .f32 => o.2.2.2)
      (outsAt1_scratch V c n hn)]
  exact jFirst_apply V c j q

/-- The output after the last point. -/
theorem out_apply (c : Dev nD) (p : Fin 400) (d : Fin 128) :
    (outsAt1 V c 49 lt49).1 (ix2 p d)
      = Cert.GatSpec.out (fun p q =>
          (Cert.GatSpec.eUpTo (kWH V c) (kAI V c) (kA3 V c) 49 (by omega) p q
            + ∑ j : Fin 400, Cert.GatSpec.sUpTo (kA3 V c) 49 (by omega) j p * Cert.GatSpec.wiprojG (kWH V c) (kAJ V c) j q)
          + ∑ f : Fin 5, Cert.GatSpec.seUpTo (kA3 V c) (kEFT V c) 49 (by omega) p f * kAE V c f q) (kWH V c) p d := by
  have e := outsAt1_out V c 48 lt49 (by decide)
  refine (congrFun e (ix2 p d)).trans ?_
  refine (Pay.pay_out (sChain V c 49 lt49) (jFirst V c) (eChain V c 49 lt49) (iblk1 V c 6 ⟨49, lt49⟩) (seChain V c 49 lt49)
    (iblk1 V c 3 ⟨49, lt49⟩) p d).trans ?_
  refine congrArg₂ (fun (E : Cert.GatSpec.M 400 400) (w : Cert.GatSpec.M 400 128) => Cert.GatSpec.out E w p d)
    (funext fun p' => funext fun q' => ?_) (funext fun i => funext fun k => iblk1_3_apply V c ⟨49, lt49⟩ i k)
  exact congrArg₂ (· + ·)
    (congrArg₂ (· + ·) (eChain_apply V c 49 lt49 p' q')
      (Finset.sum_congr rfl fun j _ => congrArg₂ (· * ·) (sChain_apply V c 49 lt49 j p') (jFirst_apply V c j q')))
    (Finset.sum_congr rfl fun f _ => congrArg₂ (· * ·) (seChain_apply V c 49 lt49 p' f) (iblk1_6_apply V c ⟨49, lt49⟩ f q'))

end Region1

end Cert.KernelIdeal.Hand

end
-- ==== Proof.KValue.lean ====
/-
  What the kernel's result array holds, at the exact instance, in terms of the launch memory: the last chunk's output,
  with the three accumulators at their totals over all 50 chunks, wh · a1_j, and the arrays the second region reads
  traced back to the five arguments — the layer's output with the score in its factored form.
-/
import proofs.«158061_j24318104830717_2_alg».proof.Proof.KEntry
import proofs.«158061_j24318104830717_2_alg».proof.Proof.KFinal
import proofs.«158061_j24318104830717_2_alg».proof.Proof.KAccum
import proofs.«158061_j24318104830717_2_alg».proof.Proof.SpecAccum

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The result array after the run is the layer's output of the five arguments, the score in its factored form. -/
theorem res1_eq (c : Dev nD) :
    res1 (F := Ideal) m ρ c = fun j => Cert.GatSpec.outKer
      (Cert.GatSpec.arr (a := 400) (b := 256) (m ((c.tc : Thread nD τ).loc main_arg0)))
      (Cert.GatSpec.arr (a := 160000) (b := 5) (m ((c.tc : Thread nD τ).loc main_arg1)))
      (Cert.GatSpec.arr (a := 256) (b := 128) (m ((c.tc : Thread nD τ).loc main_arg2)))
      (Cert.GatSpec.arr (a := 261) (b := 400) (m ((c.tc : Thread nD τ).loc main_arg3)))
      (Cert.GatSpec.arr (a := 160000) (b := 400) (m ((c.tc : Thread nD τ).loc main_arg4))) (j 0) (j 1) := by
  funext j
  obtain ⟨p, d, rfl⟩ : ∃ (p : Fin 400) (d : Fin 128), j = ix2 p d := ⟨j 0, j 1, eq_ix2 j⟩
  show (dat1 (Vr2 m ρ) c).arrAt 7 cfg1.N (ix2 p d) = _
  rw [arrAt7_eq (Vr2 m ρ) c]
  refine (out_apply (Vr2 m ρ) c p d).trans ?_
  unfold kWH kAI kAJ kAE kA3 kEFT
  rw [entry_wh m ρ c, entry_a1i m ρ c, entry_a1j m ρ c, entry_a1e m ρ c, entry_eft m ρ c, entry_a3 m ρ c]
  unfold Cert.GatSpec.outKer
  refine congrFun (congrFun (congrArg (fun E => Cert.GatSpec.out E _) ?_) p) d
  funext p' q'
  exact (Cert.GatSpec.scoreKer_eq _ _ _ _ p' q').symm

end Cert.KernelIdeal.Hand

end
-- ==== Proof.RefTerm.lean ====
/-
  The reference program's result as one pure term of its five arguments, built stage by stage.

  wh = h · W. Row r of the n² × 261 matrix is [wh[r / n] | wh[r % n] | ef[r]]: the first block is wh broadcast
  along a new middle axis and flattened (row r reads source node r / n), the second is wh broadcast along a new
  leading axis and flattened (row r reads target node r % n). Its product with a1, then with a3 transposed, is the
  n × n score. The score passes through the leaky ReLU (x where x ≥ 0, 0.2 · x elsewhere), has its diagonal
  replaced by −9·10¹⁵, and is normalised along each row by a softmax (subtract the row maximum, exponentiate,
  divide by the row sum); the result multiplies wh.
-/
import proofs.«158061_j24318104830717_2_alg».proof.ReferenceIdeal
import proofs.«158061_j24318104830717_2_alg».proof.Proof.Gen.ReferenceIdeal

noncomputable section

namespace Cert.ReferenceIdeal.Hand

open Cert.ReferenceIdeal Cert.ReferenceIdeal.Gen Idealize.ShloMosaic

variable {F : FTy → Type} [FloatOps F]

/-- wh = h · W. -/
def sWh (H : FVec F S400x256 .f32) (W : FVec F S256x128 .f32) : FVec F S400x128 .f32 :=
  Host.dotGeneral dot_S400x256_S256x128_S400x128_1_0_0_1_n_n none H W

/-- Row r holds wh[r / n]: wh with a new middle axis of extent n, flattened to n² rows. -/
def sSrc (wh : FVec F S400x128 .f32) : FVec F S160000x128 .f32 :=
  shapeCast S160000x128 (broadcastInDim S400x400x128 ![0, 2] bcast_S400x128_S400x400x128_0_2 wh) shapeCasts_S400x400x128_S160000x128

/-- Row r holds wh[r % n]: wh with a new leading axis of extent n (and a unit axis), flattened to n² rows. -/
def sDst (wh : FVec F S400x128 .f32) : FVec F S160000x128 .f32 :=
  shapeCast S160000x128
    (broadcastInDim S400x400x1x128 ![0, 1, 2, 3] bcast_S1x400x1x128_S400x400x1x128_0_1_2_3
      (shapeCast S1x400x1x128 wh shapeCasts_S400x128_S1x400x1x128))
    shapeCasts_S400x400x1x128_S160000x128

/-- The n² × 261 matrix [wh[r / n] | wh[r % n] | ef[r]]. -/
def sComb (wh : FVec F S400x128 .f32) (EF : FVec F S160000x5 .f32) : FVec F S160000x261 .f32 :=
  concatenate S160000x261 1 [⟨S160000x128, sSrc wh⟩, ⟨S160000x128, sDst wh⟩, ⟨S160000x5, EF⟩]
    concatenates_S160000x128_S160000x128_S160000x5_S160000x261_d1

/-- The combined rows times a1: n² × n. -/
def sProj (wh : FVec F S400x128 .f32) (EF : FVec F S160000x5 .f32) (A1 : FVec F S261x400 .f32) : FVec F S160000x400 .f32 :=
  Host.dotGeneral dot_S160000x261_S261x400_S160000x400_1_0_0_1_n_n none (sComb wh EF) A1

/-- The score: a3ᵀ times the projected rows, n × n. -/
def sScore (wh : FVec F S400x128 .f32) (EF : FVec F S160000x5 .f32) (A1 : FVec F S261x400 .f32) (A3 : FVec F S160000x400 .f32) :
    FVec F S400x400 .f32 :=
  Host.dotGeneral dot_S400x160000_S160000x400_S400x400_1_0_0_1_n_n none
    (transpose S400x160000 [1, 0] A3 transposes_S160000x400_S400x160000_1_0) (sProj wh EF A1)

/-- The leaky ReLU of slope 0.2: x where x ≥ 0, 0.2 · x elsewhere. -/
def sLrelu (E : FVec F S400x400 .f32) : FVec F S400x400 .f32 :=
  select (cmpf .oge E (broadcastInDim S400x400 ![] bcast_S_S400x400 (constant S_ .f32 0x00000000#32))) E
    (mulf (broadcastInDim S400x400 ![] bcast_S_S400x400 (id (constant S_ .f32 0x3E4CCCCD#32))) E)

/-- The off-diagonal mask: 1 where the row index (plus zero) differs from the column index. -/
def sOffDiag : IVec S400x400 1 :=
  noti (cmpi .eq (addi (iotaInDim S400x400 32 0) (broadcastInDim S400x400 ![] bcast_S_S400x400 (constantI S_ 32 0#32)))
    (iotaInDim S400x400 32 1))

/-- The activated score with the diagonal replaced by −9·10¹⁵. -/
def sMasked (E : FVec F S400x400 .f32) : FVec F S400x400 .f32 :=
  select sOffDiag (sLrelu E) (broadcastInDim S400x400 ![] bcast_S_S400x400 (id (constant S_ .f32 0xD9FFCB9E#32)))

/-- Each row's maximum (folded from −∞, then once more against −∞), as a column. -/
def sRowMax (X : FVec F S400x400 .f32) : FVec F S400x400 .f32 :=
  broadcastInDim S400x400 ![0, 1] bcast_S400x1_S400x400_0_1
    (broadcastInDim S400x1 ![0] bcast_S400_S400x1_0
      (maximumf (broadcastInDim S400 ![] bcast_S_S400 (constant S_ .f32 0xFF800000#32))
        (Host.reduce FloatOps.maximumf X (constant S_ .f32 0xFF800000#32) reducesTo_S400x400_S400_d1 h_S_)))

/-- exp(x − row maximum). -/
def sExp (X : FVec F S400x400 .f32) : FVec F S400x400 .f32 :=
  Host.exp (subf X (sRowMax X))

/-- Each row's sum, spread back along the row. -/
def sRowSum (Y : FVec F S400x400 .f32) : FVec F S400x400 .f32 :=
  broadcastInDim S400x400 ![0, 1] bcast_S400x1_S400x400_0_1
    (broadcastInDim S400x1 ![0] bcast_S400_S400x1_0
      (Host.reduceAdd Y (constant S_ .f32 0x00000000#32) reducesTo_S400x400_S400_d1 h_S_))

/-- The attention weights: the row softmax of the masked score. -/
def sAttn (X : FVec F S400x400 .f32) : FVec F S400x400 .f32 :=
  Host.divf (sExp X) (sRowSum (sExp X))

/-- The reference's result from its five arguments. -/
def resTerm (H : FVec F S400x256 .f32) (EF : FVec F S160000x5 .f32) (W : FVec F S256x128 .f32) (A1 : FVec F S261x400 .f32)
    (A3 : FVec F S160000x400 .f32) : FVec F S400x128 .f32 :=
  Host.dotGeneral dot_S400x400_S400x128_S400x128_1_0_0_1_n_n none
    (sAttn (sMasked (sScore (sWh H W) EF A1 A3))) (sWh H W)

end Cert.ReferenceIdeal.Hand

end
-- ==== Proof.RefRun.lean ====
/-
  The reference program's run: its @main is a straight line of forty-four host operations once the three outlined
  functions (the leaky ReLU, and the two selections it and the diagonal mask go through) are written out at their
  call sites over the calls' own buffers. Every weakly fair execution terminates with the result buffer at the
  operations' composed term of the five arguments (`resTerm`) and the arguments unchanged.
-/
import proofs.«158061_j24318104830717_2_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the leaky ReLU is seven (the zero, its broadcast, the comparison,
    the slope converted to its own type, its broadcast, the product, the selection), the masking selection three (the
    replacement value converted, its broadcast, the selection). -/
abbrev ops : List (HloOp τ sig (Elt F)) :=
  [ binary main_arg0 main_arg2 main_v0 ((fun l r => Host.dotGeneral dot_S400x256_S256x128_S400x128_1_0_0_1_n_n none l r) : (⟨S400x256, .f32⟩ : BufTy).Contents (Elt F) → (⟨S256x128, .f32⟩ : BufTy).Contents (Elt F) → (⟨S400x128, .f32⟩ : BufTy).Contents (Elt F)),
    unary main_v0 main_v1 (broadcastInDim S400x400x128 ![0, 2] bcast_S400x128_S400x400x128_0_2 : (⟨S400x128, .f32⟩ : BufTy).Contents (Elt F) → (⟨S400x400x128, .f32⟩ : BufTy).Contents (Elt F)),
    reshape main_v1 main_v2 rfl shapeCasts_S400x400x128_S160000x128,
    reshape main_v0 main_v3 rfl shapeCasts_S400x128_S1x400x1x128,
    unary main_v3 main_v4 (broadcastInDim S400x400x1x128 ![0, 1, 2, 3] bcast_S1x400x1x128_S400x400x1x128_0_1_2_3 : (⟨S1x400x1x128, .f32⟩ : BufTy).Contents (Elt F) → (⟨S400x400x1x128, .f32⟩ : BufTy).Contents (Elt F)),
    reshape main_v4 main_v5 rfl shapeCasts_S400x400x1x128_S160000x128,
    nary ![main_v2, main_v5, main_arg1] main_v6 (fun u => concatenate S160000x261 1 [⟨S160000x128, u 0⟩, ⟨S160000x128, u 1⟩, ⟨S160000x5, u 2⟩] concatenates_S160000x128_S160000x128_S160000x5_S160000x261_d1),
    binary main_v6 main_arg3 main_v7 ((fun l r => Host.dotGeneral dot_S160000x261_S261x400_S160000x400_1_0_0_1_n_n none l r) : (⟨S160000x261, .f32⟩ : BufTy).Contents (Elt F) → (⟨S261x400, .f32⟩ : BufTy).Contents (Elt F) → (⟨S160000x400, .f32⟩ : BufTy).Contents (Elt F)),
    unary main_arg4 main_v8 ((transpose S400x160000 [1, 0] · transposes_S160000x400_S400x160000_1_0) : (⟨S160000x400, .f32⟩ : BufTy).Contents (Elt F) → (⟨S400x160000, .f32⟩ : BufTy).Contents (Elt F)),
    binary main_v8 main_v7 main_v9 ((fun l r => Host.dotGeneral dot_S400x160000_S160000x400_S400x400_1_0_0_1_n_n none l r) : (⟨S400x160000, .f32⟩ : BufTy).Contents (Elt F) → (⟨S160000x400, .f32⟩ : BufTy).Contents (Elt F) → (⟨S400x400, .f32⟩ : BufTy).Contents (Elt F)),
    nullary main_cst (constant S_ .f32 0x3E4CCCCD#32),
    TRef.nullary main_call0.cst (constant S_ .f32 0x00000000#32),
    TRef.unary main_call0.cst main_call0.v0 (broadcastInDim S400x400 ![] bcast_S_S400x400),
    TRef.binary (.of main_v9) main_call0.v0 main_call0.v1 (cmpf .oge),
    TRef.unary (.of main_cst) main_call0.v2 id,
    TRef.unary main_call0.v2 main_call0.v3 (broadcastInDim S400x400 ![] bcast_S_S400x400),
    TRef.binary main_call0.v3 (.of main_v9) main_call0.v4 mulf,
    TRef.ternary main_call0.v1 (.of main_v9) main_call0.v4 main_call0.call0.v0 select,
    nullary main_v11 (iotaInDim S400x400 32 0),
    nullary main_v12 (iotaInDim S400x400 32 1),
    nullary main_c (constantI S_ 32 0#32),
    unary main_c main_v13 (broadcastInDim S400x400 ![] bcast_S_S400x400 : (⟨S_, .i32⟩ : BufTy).Contents (Elt F) → (⟨S400x400, .i32⟩ : BufTy).Contents (Elt F)),
    binary main_v11 main_v13 main_v14 (addi : (⟨S400x400, .i32⟩ : BufTy).Contents (Elt F) → (⟨S400x400, .i32⟩ : BufTy).Contents (Elt F) → (⟨S400x400, .i32⟩ : BufTy).Contents (Elt F)),
    binary main_v14 main_v12 main_v15 (cmpi .eq : (⟨S400x400, .i32⟩ : BufTy).Contents (Elt F) → (⟨S400x400, .i32⟩ : BufTy).Contents (Elt F) → (⟨S400x400, .i1⟩ : BufTy).Contents (Elt F)),
    unary main_v15 main_v16 (noti : (⟨S400x400, .i1⟩ : BufTy).Contents (Elt F) → (⟨S400x400, .i1⟩ : BufTy).Contents (Elt F)),
    nullary main_cst_0 (constant S_ .f32 0xD9FFCB9E#32),
    TRef.unary (.of main_cst_0) main_call1.v0 id,
    TRef.unary main_call1.v0 main_call1.v1 (broadcastInDim S400x400 ![] bcast_S_S400x400),
    TRef.ternary (.of main_v16) (.of main_v10) main_call1.v1 main_call1.v2 select,
    nullary main_cst_1 (constant S_ .f32 0xFF800000#32),
    binary main_v17 main_cst_1 main_v18 ((fun x v => Host.reduce FloatOps.maximumf x v reducesTo_S400x400_S400_d1 h_S_) : (⟨S400x400, .f32⟩ : BufTy).Contents (Elt F) → (⟨S_, .f32⟩ : BufTy).Contents (Elt F) → (⟨S400, .f32⟩ : BufTy).Contents (Elt F)),
    nullary main_cst_2 (constant S_ .f32 0xFF800000#32),
    unary main_cst_2 main_v19 (broadcastInDim S400 ![] bcast_S_S400 : (⟨S_, .f32⟩ : BufTy).Contents (Elt F) → (⟨S400, .f32⟩ : BufTy).Contents (Elt F)),
    binary main_v19 main_v18 main_v20 (maximumf : (⟨S400, .f32⟩ : BufTy).Contents (Elt F) → (⟨S400, .f32⟩ : BufTy).Contents (Elt F) → (⟨S400, .f32⟩ : BufTy).Contents (Elt F)),
    unary main_v20 main_v21 (broadcastInDim S400x1 ![0] bcast_S400_S400x1_0 : (⟨S400, .f32⟩ : BufTy).Contents (Elt F) → (⟨S400x1, .f32⟩ : BufTy).Contents (Elt F)),
    unary main_v21 main_v22 (broadcastInDim S400x400 ![0, 1] bcast_S400x1_S400x400_0_1 : (⟨S400x1, .f32⟩ : BufTy).Contents (Elt F) → (⟨S400x400, .f32⟩ : BufTy).Contents (Elt F)),
    binary main_v17 main_v22 main_v23 (subf : (⟨S400x400, .f32⟩ : BufTy).Contents (Elt F) → (⟨S400x400, .f32⟩ : BufTy).Contents (Elt F) → (⟨S400x400, .f32⟩ : BufTy).Contents (Elt F)),
    unary main_v23 main_v24 (Host.exp : (⟨S400x400, .f32⟩ : BufTy).Contents (Elt F) → (⟨S400x400, .f32⟩ : BufTy).Contents (Elt F)),
    nullary main_cst_3 (constant S_ .f32 0x00000000#32),
    binary main_v24 main_cst_3 main_v25 ((fun x v => Host.reduceAdd x v reducesTo_S400x400_S400_d1 h_S_) : (⟨S400x400, .f32⟩ : BufTy).Contents (Elt F) → (⟨S_, .f32⟩ : BufTy).Contents (Elt F) → (⟨S400, .f32⟩ : BufTy).Contents (Elt F)),
    unary main_v25 main_v26 (broadcastInDim S400x1 ![0] bcast_S400_S400x1_0 : (⟨S400, .f32⟩ : BufTy).Contents (Elt F) → (⟨S400x1, .f32⟩ : BufTy).Contents (Elt F)),
    unary main_v26 main_v27 (broadcastInDim S400x400 ![0, 1] bcast_S400x1_S400x400_0_1 : (⟨S400x1, .f32⟩ : BufTy).Contents (Elt F) → (⟨S400x400, .f32⟩ : BufTy).Contents (Elt F)),
    binary main_v24 main_v27 main_v28 (Host.divf : (⟨S400x400, .f32⟩ : BufTy).Contents (Elt F) → (⟨S400x400, .f32⟩ : BufTy).Contents (Elt F) → (⟨S400x400, .f32⟩ : BufTy).Contents (Elt F)),
    binary main_v28 main_v0 main_v29 ((fun l r => Host.dotGeneral dot_S400x400_S400x128_S400x128_1_0_0_1_n_n none l r) : (⟨S400x400, .f32⟩ : BufTy).Contents (Elt F) → (⟨S400x128, .f32⟩ : BufTy).Contents (Elt F) → (⟨S400x128, .f32⟩ : BufTy).Contents (Elt F)) ]

-- forty-four binds re-associated: the rewrite under the chain recurses once per statement
set_option maxRecDepth 2048 in
/-- @main is that straight line: the functions' definitions unfolded at their calls, both sides are one chain of
    steps once sequencing is re-associated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., reshape_bufs_sub .., reshape_bufs_sub .., unary_bufs_sub .., reshape_bufs_sub .., nary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-- A three-operand operation's result with each operand's contents at its own reference, so that the operands'
    contents can be rewritten in turn. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

attribute [local irreducible] Host.reduce Host.reduceAdd concatenate transpose shapeCast broadcastInDim in
set_option maxRecDepth 8192 in
/-- The fold at the result buffer is `resTerm` of the arguments' contents. -/
theorem res_eq (V : Valuation τ sig (Elt F)) :
    after ops V (main_v29 : DevRef τ sig)
      = resTerm (V (main_arg0 : DevRef τ sig)) (V (main_arg1 : DevRef τ sig)) (V (main_arg2 : DevRef τ sig))
          (V (main_arg3 : DevRef τ sig)) (V (main_arg4 : DevRef τ sig)) := by
  simp (disch := decide) only [after_cons, after_nil,
      nullary_result', unary_result', binary_result', ternary_result', reshape_result', nary3_result,
      nullary_result_ne', unary_result_ne', binary_result_ne', ternary_result_ne', reshape_result_ne', nary_result_ne']
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of
    @main terminates with the result at `resTerm` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v29)
          = resTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v29).trans (res_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.Hand

end
-- ==== Proof.RefValDot.lean ====
/-
  The reference's four matrix products read at an index: each is a plain rows-by-columns product, so at the ideal
  values its entry (a, b) is the sum over the contracted coordinate c of the products of the operands' entries
  (a, c) and (c, b).
-/
import proofs.«158061_j24318104830717_2_alg».proof.ReferenceIdeal
import proofs.«158061_j24318104830717_2_alg».proof.Proof.Gen.ReferenceIdeal
import Idealize.ShloMosaic.Lib.StackMember

noncomputable section

open scoped BigOperators

namespace Cert.ReferenceIdeal.Hand

open Cert.ReferenceIdeal Cert.ReferenceIdeal.Gen Idealize.ShloMosaic Idealize.ShloMosaic.ValueIdx

/-- h · W at (i, d). -/
theorem dot_hW (H : FVec Ideal S400x256 .f32) (W : FVec Ideal S256x128 .f32) (i : Fin 400) (d : Fin 128) :
    Host.dotGeneral dot_S400x256_S256x128_S400x128_1_0_0_1_n_n none H W (ix2 i d)
      = ∑ k : Fin 256, H (ix2 i k) * W (ix2 k d) :=
  StackMember.dotGeneral_plain_apply (m := 400) (n := 128) (k := 256) none H W i d

/-- The combined rows times a1 at (r, q). -/
theorem dot_combA1 (C : FVec Ideal S160000x261 .f32) (A1 : FVec Ideal S261x400 .f32) (r : Fin 160000) (q : Fin 400) :
    Host.dotGeneral dot_S160000x261_S261x400_S160000x400_1_0_0_1_n_n none C A1 (ix2 r q)
      = ∑ k : Fin 261, C (ix2 r k) * A1 (ix2 k q) :=
  StackMember.dotGeneral_plain_apply (m := 160000) (n := 400) (k := 261) none C A1 r q

/-- a3ᵀ times the projected rows at (p, q). -/
theorem dot_a3P (T : FVec Ideal S400x160000 .f32) (Pj : FVec Ideal S160000x400 .f32) (p q : Fin 400) :
    Host.dotGeneral dot_S400x160000_S160000x400_S400x400_1_0_0_1_n_n none T Pj (ix2 p q)
      = ∑ r : Fin 160000, T (ix2 p r) * Pj (ix2 r q) :=
  StackMember.dotGeneral_plain_apply (m := 400) (n := 400) (k := 160000) none T Pj p q

/-- attention · wh at (p, d). -/
theorem dot_attnWh (A : FVec Ideal S400x400 .f32) (wh : FVec Ideal S400x128 .f32) (p : Fin 400) (d : Fin 128) :
    Host.dotGeneral dot_S400x400_S400x128_S400x128_1_0_0_1_n_n none A wh (ix2 p d)
      = ∑ q : Fin 400, A (ix2 p q) * wh (ix2 q d) :=
  StackMember.dotGeneral_plain_apply (m := 400) (n := 128) (k := 400) none A wh p d

end Cert.ReferenceIdeal.Hand

end
-- ==== Proof.RefValLayout.lean ====
/-
  The reference's n² × 261 matrix read at an index. Row r of its first block is wh[r / n]: wh given a new middle axis
  of extent n and flattened, so row-major position r · 128 + d sits at (r / n, r % n, d). Row r of its second block is
  wh[r % n]: wh given a new leading axis of extent n. The third block is ef itself. Side by side along the columns,
  column k < 128 reads the first block, 128 ≤ k < 256 the second at k − 128, and the rest ef at k − 256.
-/
import proofs.«158061_j24318104830717_2_alg».proof.Proof.RefTerm
import proofs.«158061_j24318104830717_2_alg».proof.Proof.Spec
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-- Row r of the source block is wh's row r / n. -/
theorem sSrc_apply (wh : FVec Ideal S400x128 .f32) (r : Fin 160000) (d : Fin 128) :
    sSrc wh (ix2 r d) = wh (ix2 (⟨r.val / 400, by have := r.isLt; omega⟩ : Fin 400) d) := by
  unfold sSrc
  refine (shapeCast_apply _ shapeCasts_S400x400x128_S160000x128 (ix2 r d)
      (ix3 (⟨r.val / 400, by have := r.isLt; omega⟩ : Fin 400) (⟨r.val % 400, Nat.mod_lt _ (by decide)⟩ : Fin 400) d) ?_).trans ?_
  · rw [Shape.rowMajor_val_three, Shape.rowMajor_val_two]
    show ((r.val / 400) * 400 + r.val % 400) * 128 + d.val = r.val * 128 + d.val
    omega
  · refine broadcastInDim_apply _ _ wh _ _ ?_
    intro a
    match a with
    | ⟨0, _⟩ => rfl
    | ⟨1, _⟩ => rfl

/-- Row r of the target block is wh's row r % n. -/
theorem sDst_apply (wh : FVec Ideal S400x128 .f32) (r : Fin 160000) (d : Fin 128) :
    sDst wh (ix2 r d) = wh (ix2 (⟨r.val % 400, Nat.mod_lt _ (by decide)⟩ : Fin 400) d) := by
  unfold sDst
  refine (shapeCast_apply _ shapeCasts_S400x400x1x128_S160000x128 (ix2 r d)
      (ix4 (⟨r.val / 400, by have := r.isLt; omega⟩ : Fin 400) (⟨r.val % 400, Nat.mod_lt _ (by decide)⟩ : Fin 400) (0 : Fin 1) d) ?_).trans ?_
  · rw [Shape.rowMajor_val_four, Shape.rowMajor_val_two]
    show (((r.val / 400) * 400 + r.val % 400) * 1 + 0) * 128 + d.val = r.val * 128 + d.val
    omega
  refine (broadcastInDim_apply _ _ _ _
      (ix4 (0 : Fin 1) (⟨r.val % 400, Nat.mod_lt _ (by decide)⟩ : Fin 400) (0 : Fin 1) d) ?_).trans ?_
  · intro a
    match a with
    | ⟨0, _⟩ => rfl
    | ⟨1, _⟩ => rfl
    | ⟨2, _⟩ => rfl
    | ⟨3, _⟩ => rfl
  · refine shapeCast_apply wh shapeCasts_S400x128_S1x400x1x128 _ _ ?_
    rw [Shape.rowMajor_val_four, Shape.rowMajor_val_two]
    show (r.val % 400) * 128 + d.val = ((0 * 400 + r.val % 400) * 1 + 0) * 128 + d.val
    omega

/-- Three blocks side by side along the columns, of widths 128, 128 and 5, read at column k. -/
theorem concat3_apply (A B : FVec Ideal S160000x128 .f32) (EF : FVec Ideal S160000x5 .f32) (r : Fin 160000) (k : Fin 261) :
    concatenate S160000x261 1 [⟨S160000x128, A⟩, ⟨S160000x128, B⟩, ⟨S160000x5, EF⟩]
        concatenates_S160000x128_S160000x128_S160000x5_S160000x261_d1 (ix2 r k)
      = if h1 : k.val < 128 then A (ix2 r (⟨k.val, h1⟩ : Fin 128))
        else if h2 : k.val < 256 then B (ix2 r (⟨k.val - 128, by omega⟩ : Fin 128))
        else EF (ix2 r (⟨k.val - 256, by have := k.isLt; omega⟩ : Fin 5)) := by
  have key := concatenate_apply_piece (α := Ideal .f32) (t := S160000x261) (1 : Fin 2)
    [⟨S160000x128, A⟩, ⟨S160000x128, B⟩, ⟨S160000x5, EF⟩]
    concatenates_S160000x128_S160000x128_S160000x5_S160000x261_d1 (ix2 r k)
  by_cases h1 : k.val < 128
  · rw [dif_pos h1]
    refine key 0 (show 0 < 3 by omega) S160000x128 A rfl rfl 0 rfl
      (ix2 r (⟨k.val, h1⟩ : Fin 128)) ?_ ?_
    · intro b
      match b with
      | ⟨0, _⟩ => exact fun _ => rfl
      | ⟨1, _⟩ => exact fun hne => absurd rfl hne
    · show 0 + k.val = k.val
      omega
  · rw [dif_neg h1]
    by_cases h2 : k.val < 256
    · rw [dif_pos h2]
      refine key 1 (show 1 < 3 by omega) S160000x128 B rfl rfl 128 rfl
        (ix2 r (⟨k.val - 128, by omega⟩ : Fin 128)) ?_ ?_
      · intro b
        match b with
        | ⟨0, _⟩ => exact fun _ => rfl
        | ⟨1, _⟩ => exact fun hne => absurd rfl hne
      · show 128 + (k.val - 128) = k.val
        omega
    · rw [dif_neg h2]
      refine key 2 (show 2 < 3 by omega) S160000x5 EF rfl rfl 256 rfl
        (ix2 r (⟨k.val - 256, by have := k.isLt; omega⟩ : Fin 5)) ?_ ?_
      · intro b
        match b with
        | ⟨0, _⟩ => exact fun _ => rfl
        | ⟨1, _⟩ => exact fun hne => absurd rfl hne
      · show 256 + (k.val - 256) = k.val
        omega

/-- The combined matrix is the specification's row [wh[r / n] | wh[r % n] | ef[r]]. -/
theorem sComb_apply (wh : FVec Ideal S400x128 .f32) (EF : FVec Ideal S160000x5 .f32) (r : Fin 160000) (k : Fin 261) :
    sComb wh EF (ix2 r k) = Cert.GatSpec.comb (Cert.GatSpec.arr wh) (Cert.GatSpec.arr EF) r k := by
  unfold sComb Cert.GatSpec.comb
  rw [concat3_apply]
  by_cases h1 : k.val < 128
  · rw [dif_pos h1, dif_pos h1, sSrc_apply]
  · rw [dif_neg h1, dif_neg h1]
    by_cases h2 : k.val < 256
    · rw [dif_pos h2, dif_pos h2, sDst_apply]
    · rw [dif_neg h2, dif_neg h2]

end Cert.ReferenceIdeal.Hand

end
-- ==== Proof.RefValPoint.lean ====
/-
  What follows the score, read at an index: the leaky ReLU and the diagonal mask entry by entry, a row's maximum as
  the fold of max over the row (from −∞, then once more against −∞), the exponential of the shifted entry, a row's
  sum, and the quotient.
-/
import proofs.«158061_j24318104830717_2_alg».proof.Proof.RefTerm
import proofs.«158061_j24318104830717_2_alg».proof.Proof.Spec
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.GatSpec

/-- The leaky ReLU entry by entry. -/
theorem sLrelu_apply (E : FVec Ideal S400x400 .f32) (j : S400x400.Idx) : sLrelu E j = lrelu (E j) := rfl

/-- The mask's bit at (p, q): 0 on the diagonal, 1 off it. -/
theorem sOffDiag_apply (p q : Fin 400) : sOffDiag (ix2 p q) = if p = q then 0#1 else 1#1 := by
  show ~~~(BitVec.ofBool ((BitVec.ofNat 32 p.val + 0#32) == BitVec.ofNat 32 q.val)) = _
  by_cases h : p = q
  · subst h; simp
  · rw [if_neg h]
    have hne : BitVec.ofNat 32 p.val + 0#32 ≠ BitVec.ofNat 32 q.val := by
      intro e
      rw [BitVec.add_zero] at e
      have e' := congrArg BitVec.toNat e
      simp only [BitVec.toNat_ofNat] at e'
      have hp := p.isLt
      have hq := q.isLt
      exact h (Fin.ext (by omega))
    have hb : ((BitVec.ofNat 32 p.val + 0#32) == BitVec.ofNat 32 q.val) = false := by simpa using hne
    rw [hb]
    rfl

/-- The masked, activated score at (p, q). -/
theorem sMasked_apply (E : FVec Ideal S400x400 .f32) (p q : Fin 400) :
    sMasked E (ix2 p q) = masked (arr E) p q := by
  show Scalar.select (sOffDiag (ix2 p q)) (sLrelu E (ix2 p q)) negBig = _
  rw [sOffDiag_apply, sLrelu_apply]
  unfold masked
  by_cases h : p = q
  · rw [if_pos h, if_pos h]; exact select_zero _ _
  · rw [if_neg h, if_neg h]; exact select_one _ _

/-- A per-row value spread along its row reads the row's value. -/
theorem spread_apply (v : FVec Ideal S400 .f32) (p q : Fin 400) :
    broadcastInDim S400x400 ![0, 1] bcast_S400x1_S400x400_0_1 (broadcastInDim S400x1 ![0] bcast_S400_S400x1_0 v) (ix2 p q)
      = v (ix1 p) := by
  refine (broadcastInDim_apply _ _ _ (ix2 p q) (ix2 p (0 : Fin 1)) ?_).trans ?_
  · intro a
    match a with
    | ⟨0, _⟩ => rfl
    | ⟨1, _⟩ => rfl
  · refine broadcastInDim_apply _ _ v _ (ix1 p) ?_
    intro a
    match a with
    | ⟨0, _⟩ => rfl

theorem reduces_row : S400x400.Reduces [1] S400 := by decide

/-- Row p's index with the column k put back. -/
theorem lift_row (p k : Fin 400) : reduces_row.lift (ix1 p) k = ix2 p k := by
  funext c
  apply Fin.ext
  match c with
  | ⟨0, _⟩ => rfl
  | ⟨1, _⟩ => rfl

/-- A row's maximum. -/
theorem sRowMax_apply (X : FVec Ideal S400x400 .f32) (p q : Fin 400) :
    sRowMax X (ix2 p q) = rowMax (fun q' => X (ix2 p q')) := by
  unfold sRowMax
  rw [spread_apply]
  show max negInf (Host.reduce (max : EReal → EReal → EReal) X (constant (F := Ideal) S_ .f32 0xFF800000#32) reducesTo_S400x400_S400_d1 h_S_ (ix1 p)) = _
  rw [Host.reduce_eq_fold_single (max : EReal → EReal → EReal) X _ reducesTo_S400x400_S400_d1 reduces_row h_S_ (ix1 p)]
  have e : (X ∘ reduces_row.lift (ix1 p)) = fun q' : Fin 400 => X (ix2 p q') := funext fun k => congrArg X (lift_row p k)
  rw [e]
  rfl

/-- exp(x − row maximum) at (p, q). -/
theorem sExp_apply (X : FVec Ideal S400x400 .f32) (p q : Fin 400) :
    sExp X (ix2 p q) = Ideal.exp (X (ix2 p q) - rowMax (fun q' => X (ix2 p q'))) := by
  show Ideal.exp (X (ix2 p q) - sRowMax X (ix2 p q)) = _
  rw [sRowMax_apply]

/-- A row's sum. -/
theorem sRowSum_apply (Y : FVec Ideal S400x400 .f32) (p q : Fin 400) :
    sRowSum Y (ix2 p q) = ∑ k : Fin 400, Y (ix2 p k) := by
  unfold sRowSum
  rw [spread_apply]
  show Ideal.hostReduceAdd reducesTo_S400x400_S400_d1 Y (Ideal.ofBits .f32 0x00000000#32) (ix1 p) = _
  rw [Ideal.hostReduceAdd_single reducesTo_S400x400_S400_d1 reduces_row, Ideal.ofBits_zero_f32, zero_add]
  exact Finset.sum_congr rfl fun k _ => congrArg Y (lift_row p k)

/-- The softmax entry. -/
theorem sAttn_apply (X : FVec Ideal S400x400 .f32) (p q : Fin 400) :
    sAttn X (ix2 p q) = Ideal.div (sExp X (ix2 p q)) (∑ k : Fin 400, sExp X (ix2 p k)) := by
  show Ideal.div (sExp X (ix2 p q)) (sRowSum (sExp X) (ix2 p q)) = _
  rw [sRowSum_apply]

end Cert.ReferenceIdeal.Hand

end
-- ==== Proof.RefValue.lean ====
/-
  The reference's result is the specification's `outRef`: stage by stage, each array of the composed term read at an
  index is the corresponding function of the specification — wh, the combined row, the score as one product with it,
  the masked activation, the row softmax, and the final product with wh.
-/
import proofs.«158061_j24318104830717_2_alg».proof.Proof.RefTerm
import proofs.«158061_j24318104830717_2_alg».proof.Proof.Spec
import proofs.«158061_j24318104830717_2_alg».proof.Proof.RefValDot
import proofs.«158061_j24318104830717_2_alg».proof.Proof.RefValLayout
import proofs.«158061_j24318104830717_2_alg».proof.Proof.RefValPoint

noncomputable section

open scoped BigOperators

namespace Cert.ReferenceIdeal.Hand

open Cert.ReferenceIdeal Cert.ReferenceIdeal.Gen Idealize.ShloMosaic Idealize.ShloMosaic.ValueIdx Cert.GatSpec

/-- h · W, as an array, is the specification's wh. -/
theorem arr_sWh (H : FVec Ideal S400x256 .f32) (W : FVec Ideal S256x128 .f32) :
    arr (sWh H W) = wh (arr H) (arr W) := by
  funext i d
  show sWh H W (ix2 i d) = _
  unfold sWh
  rw [dot_hW]
  rfl

/-- a3 transposed at (p, r) is a3 at (r, p). -/
theorem a3T_apply (A3 : FVec Ideal S160000x400 .f32) (p : Fin 400) (r : Fin 160000) :
    transpose S400x160000 [1, 0] A3 transposes_S160000x400_S400x160000_1_0 (ix2 p r) = A3 (ix2 r p) := by
  refine transpose_apply [1, 0] A3 _ (ix2 p r) (ix2 r p) ?_
  intro b
  match b with
  | ⟨0, _⟩ => rfl
  | ⟨1, _⟩ => rfl

/-- The projected rows at (r, q): the combined row r times column q of a1. -/
theorem sProj_apply (whv : FVec Ideal S400x128 .f32) (EF : FVec Ideal S160000x5 .f32) (A1 : FVec Ideal S261x400 .f32)
    (r : Fin 160000) (q : Fin 400) :
    sProj whv EF A1 (ix2 r q) = ∑ k : Fin 261, comb (arr whv) (arr EF) r k * A1 (ix2 k q) := by
  unfold sProj
  rw [dot_combA1]
  exact Finset.sum_congr rfl fun k _ => by rw [sComb_apply]

/-- The score at (p, q) is the specification's single-product score. -/
theorem sScore_apply (whv : FVec Ideal S400x128 .f32) (EF : FVec Ideal S160000x5 .f32) (A1 : FVec Ideal S261x400 .f32)
    (A3 : FVec Ideal S160000x400 .f32) (p q : Fin 400) :
    sScore whv EF A1 A3 (ix2 p q) = scoreRef (arr whv) (arr EF) (arr A1) (arr A3) p q := by
  unfold sScore
  rw [dot_a3P]
  unfold scoreRef
  exact Finset.sum_congr rfl fun r _ => by rw [a3T_apply, sProj_apply]

/-- From a masked score to the attention weights: if X is the specification's masked score entry by entry, its row
    softmax is the specification's attention. -/
theorem sAttn_of_masked (X : FVec Ideal S400x400 .f32) (E : M 400 400) (hX : ∀ p q, X (ix2 p q) = masked E p q)
    (p q : Fin 400) : sAttn X (ix2 p q) = attn E p q := by
  have hrow : ∀ p, (fun q' : Fin 400 => X (ix2 p q')) = masked E p := fun p => funext (hX p)
  have hExp : ∀ p q, sExp X (ix2 p q) = expd E p q := fun p q => by
    rw [sExp_apply, hX, hrow]
    rfl
  rw [sAttn_apply, hExp, Finset.sum_congr rfl (fun k _ => hExp p k)]
  rfl

/-- The reference's result, index by index, is the specification's output with the score as one product. -/
theorem resTerm_eq (H : FVec Ideal S400x256 .f32) (EF : FVec Ideal S160000x5 .f32) (W : FVec Ideal S256x128 .f32)
    (A1 : FVec Ideal S261x400 .f32) (A3 : FVec Ideal S160000x400 .f32) :
    resTerm (F := Ideal) H EF W A1 A3
      = fun j => Cert.GatSpec.outRef (Cert.GatSpec.arr H) (Cert.GatSpec.arr EF) (Cert.GatSpec.arr W) (Cert.GatSpec.arr A1)
          (Cert.GatSpec.arr A3) (j 0) (j 1) := by
  funext j
  obtain ⟨p, d, rfl⟩ : ∃ (p : Fin 400) (d : Fin 128), j = ix2 p d := ⟨j 0, j 1, eq_ix2 j⟩
  show resTerm H EF W A1 A3 (ix2 p d) = outRef (arr H) (arr EF) (arr W) (arr A1) (arr A3) p d
  unfold resTerm outRef out
  rw [dot_attnWh]
  have hE : ∀ p q, sMasked (sScore (sWh H W) EF A1 A3) (ix2 p q)
      = masked (scoreRef (wh (arr H) (arr W)) (arr EF) (arr A1) (arr A3)) p q := fun p q => by
    rw [sMasked_apply]
    have e : arr (sScore (sWh H W) EF A1 A3) = scoreRef (wh (arr H) (arr W)) (arr EF) (arr A1) (arr A3) := by
      funext p' q'
      exact (sScore_apply (sWh H W) EF A1 A3 p' q').trans (by rw [arr_sWh])
    rw [e]
  refine Finset.sum_congr rfl fun q _ => ?_
  rw [sAttn_of_masked _ _ hE p q]
  exact congrArg (fun x => _ * x) (congrFun (congrFun (arr_sWh H W) q) d)

end Cert.ReferenceIdeal.Hand

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.SpecAlgebra.lean ====
/-
  The two forms of the score agree on real entries.

  With every entry real, multiplication distributes over finite sums and finite sums may be exchanged. The score
  as one product with the concatenated row splits, along the 128 + 128 + 5 columns, into a source term, a target
  term and an edge term; in each the sum over the n² edges r = i · n + j is carried out first over the index the
  other factor does not depend on, and the remaining sums are regrouped into 50 chunks.
-/
import proofs.«158061_j24318104830717_2_alg».proof.Proof.Spec
import proofs.«158061_j24318104830717_2_alg».proof.Proof.LibReindex
import Mathlib.Data.EReal.Basic
import Mathlib.Algebra.BigOperators.Ring.Finset

noncomputable section

open scoped BigOperators

namespace Cert.GatSpec

open Cert

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real arrays is real. -/
theorem wh_isReal {h : M 400 256} {W : M 256 128} (hh : IsReal h) (hW : IsReal W) : IsReal (wh h W) := by
  intro i d
  choose hr hhr using hh
  choose Wr hWr using hW
  refine ⟨∑ k : Fin 256, hr i k * Wr k d, ?_⟩
  simp only [wh, hhr, hWr, coe_sum, EReal.coe_mul]

/-- The product of the concatenated row with a column of a1, split along its 128 + 128 + 5 columns. -/
theorem comb_sum (wh : M 400 128) (ef : M 160000 5) (a1 : M 261 400) (r : Fin 160000) (q : Fin 400) :
    ∑ k : Fin 261, comb wh ef r k * a1 k q
      = (∑ d : Fin 128, wh ⟨r.val / 400, by omega⟩ d * a1i a1 d q
          + ∑ d : Fin 128, wh ⟨r.val % 400, by omega⟩ d * a1j a1 d q)
        + ∑ f : Fin 5, ef r f * a1e a1 f q := by
  rw [LibReindex.sum_three_blocks 128 128 5 rfl]
  refine congrArg₂ (· + ·) (congrArg₂ (· + ·) ?_ ?_) ?_
  · refine Finset.sum_congr rfl fun d _ => ?_
    have hd : d.val < 128 := d.isLt
    simp only [comb, a1i, dif_pos hd]
  · refine Finset.sum_congr rfl fun d _ => ?_
    have h1 : ¬ (128 + d.val < 128) := by omega
    have h2 : 128 + d.val < 256 := by omega
    simp only [comb, a1j, dif_neg h1, dif_pos h2, Nat.add_sub_cancel_left]
  · refine Finset.sum_congr rfl fun f _ => ?_
    have h1 : ¬ (128 + 128 + f.val < 128) := by omega
    have h2 : ¬ (128 + 128 + f.val < 256) := by omega
    simp only [comb, a1e, dif_neg h1, dif_neg h2, Nat.add_sub_cancel_left]

/-- The algebra of the score over a commutative semiring. With s a column of a3, P and Q what the source and the
target node contribute, e the edge features and A a column of a1's last block: the three factored terms, each
regrouped into 50 chunks, add up to the unfactored sum over the n² edges. -/
theorem score_core {R : Type*} [CommSemiring R] (s : Fin 160000 → R) (P Q : Fin 400 → R)
    (e : Fin 160000 → Fin 5 → R) (A : Fin 5 → R) :
    (∑ c : Fin 50, ∑ l : Fin 8,
          (∑ j : Fin 400, s ⟨(8 * c.val + l.val) * 400 + j.val, by omega⟩) * P ⟨8 * c.val + l.val, by omega⟩
        + ∑ j : Fin 400, (∑ c : Fin 50, ∑ l : Fin 8, s ⟨(8 * c.val + l.val) * 400 + j.val, by omega⟩) * Q j)
      + ∑ f : Fin 5, (∑ c : Fin 50, ∑ r' : Fin 3200,
          s ⟨3200 * c.val + r'.val, by omega⟩ * e ⟨3200 * c.val + r'.val, by omega⟩ f) * A f
    = ∑ r : Fin 160000,
        s r * ((P ⟨r.val / 400, by omega⟩ + Q ⟨r.val % 400, by omega⟩) + ∑ f : Fin 5, e r f * A f) := by
  simp only [mul_add, Finset.sum_add_distrib]
  refine congrArg₂ (· + ·) (congrArg₂ (· + ·) ?_ ?_) ?_
  · -- the source term: sum over the target index first
    symm
    refine (LibReindex.sum_mul_add 400 400 rfl _).trans ?_
    refine (LibReindex.sum_mul_add' 50 8 rfl _).trans ?_
    refine Finset.sum_congr rfl fun c _ => Finset.sum_congr rfl fun l _ => ?_
    rw [Finset.sum_mul]
    refine Finset.sum_congr rfl fun j _ => ?_
    refine congrArg₂ (· * ·) rfl (congrArg P (Fin.ext ?_))
    show ((8 * c.val + l.val) * 400 + j.val) / 400 = 8 * c.val + l.val
    omega
  · -- the target term: sum over the source index first
    symm
    refine (LibReindex.sum_mul_add 400 400 rfl _).trans ?_
    rw [Finset.sum_comm]
    refine Finset.sum_congr rfl fun j _ => ?_
    refine (Finset.sum_congr rfl fun i _ => ?_ :
      _ = ∑ i : Fin 400, s ⟨i.val * 400 + j.val, by omega⟩ * Q j).trans ?_
    · refine congrArg₂ (· * ·) rfl (congrArg Q (Fin.ext ?_))
      show (i.val * 400 + j.val) % 400 = j.val
      omega
    rw [← Finset.sum_mul]
    exact congrArg (· * Q j)
      (LibReindex.sum_mul_add' 50 8 rfl (fun i : Fin 400 => s ⟨i.val * 400 + j.val, by omega⟩))
  · -- the edge term: exchange the sum over the edges with the sum over the five features
    symm
    simp only [Finset.mul_sum]
    rw [Finset.sum_comm]
    refine Finset.sum_congr rfl fun f _ => ?_
    simp only [← mul_assoc]
    rw [← Finset.sum_mul]
    exact congrArg (· * A f) (LibReindex.sum_mul_add' 50 3200 rfl (fun r : Fin 160000 => s r * e r f))

/-- On real entries the factored score is the score. -/
theorem scoreKer_eq_scoreRef {wh : M 400 128} {ef : M 160000 5} {a1 : M 261 400} {a3 : M 160000 400}
    (hwh : IsReal wh) (hef : IsReal ef) (ha1 : IsReal a1) (ha3 : IsReal a3) :
    scoreKer wh ef a1 a3 = scoreRef wh ef a1 a3 := by
  funext p q
  simp only [scoreRef, comb_sum]
  choose w hw using hwh
  choose e he using hef
  choose a ha using ha1
  choose s hs using ha3
  obtain rfl : wh = fun i k => (w i k : EReal) := funext fun i => funext fun k => hw i k
  obtain rfl : ef = fun i k => (e i k : EReal) := funext fun i => funext fun k => he i k
  obtain rfl : a1 = fun i k => (a i k : EReal) := funext fun i => funext fun k => ha i k
  obtain rfl : a3 = fun i k => (s i k : EReal) := funext fun i => funext fun k => hs i k
  simp only [scoreKer, eAcc, rowsum, wiproj, sAcc, jproj, seAcc, a1i, a1j, a1e]
  simp only [← EReal.coe_mul, ← coe_sum, ← EReal.coe_add]
  exact congrArg _ (score_core (fun r => s r p) (fun i => ∑ d : Fin 128, w i d * a ⟨d.val, by omega⟩ q)
    (fun j => ∑ d : Fin 128, w j d * a ⟨128 + d.val, by omega⟩ q) e (fun f => a ⟨256 + f.val, by omega⟩ q))

/-- On real entries the two programs' outputs agree: what follows the score is one function of it. -/
theorem outKer_eq_outRef {h : M 400 256} {ef : M 160000 5} {W : M 256 128} {a1 : M 261 400} {a3 : M 160000 400}
    (hh : IsReal h) (hef : IsReal ef) (hW : IsReal W) (ha1 : IsReal a1) (ha3 : IsReal a3) :
    outKer h ef W a1 a3 = outRef h ef W a1 a3 :=
  congrArg (fun E => out E (wh h W)) (scoreKer_eq_scoreRef (wh_isReal hh hW) hef ha1 ha3)

end Cert.GatSpec

end
-- ==== Proof.Finite.lean ====
/-
  From the precondition to real entries. The precondition is the conjunction, over the five input arrays, of
  "every entry x has |x| < +∞"; at the extended reals |x| is max x (−x), which is +∞ exactly at x = ±∞, so every
  entry of every input is a real number.
-/
import proofs.«158061_j24318104830717_2_alg».proof.Proof.Spec
import proofs.«158061_j24318104830717_2_alg».proof.Pre_finite_inputs
import Idealize.ShloMosaic.Lib.ReduceAll

noncomputable section

namespace Cert.Finite

open Idealize.ShloMosaic Cert.Pre_finite_inputs

/-- The rank-0 shape has one index. -/
instance : Subsingleton S_.Idx := ⟨fun a b => funext fun d => d.elim0⟩

/-- The f32 word 0x7F800000 is +∞. -/
theorem inf_word : Ideal.ofBits .f32 0x7F800000#32 = (⊤ : EReal) := by
  simp [Ideal.ofBits, Ideal.ieee]

/-- An extended real whose absolute value is below +∞ is a real. -/
theorem real_of_abs_lt_inf (x : EReal)
    (h : FloatOps.cmpf (F := Ideal) (φ := .f32) .olt (FloatOps.absf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_word] at h
  induction x using EReal.rec with
  | bot => exfalso; revert h; simp [Ideal.cmp]
  | top => exfalso; revert h; simp [Ideal.cmp]
  | coe r => exact ⟨r, rfl⟩

/-- An array all of whose entries pass the test |x| < +∞ is real. -/
theorem isReal_of_all {a b : Nat} {axes : List (Fin (Shape.rank ⟨2, ![a, b]⟩))} (X : FVec Ideal ⟨2, ![a, b]⟩ .f32)
    (hb : S_.BroadcastsInDim ⟨2, ![a, b]⟩ ![]) (hr : Shape.ReducesTo (⟨2, ![a, b]⟩ : Shape) axes S_) (hu : 0 < S_.numel)
    (init : IVec S_ 1)
    (h : Host.reduce IntOp.andi
      (cmpf .olt (Host.absf X) (broadcastInDim ⟨2, ![a, b]⟩ ![] hb (constant S_ .f32 0x7F800000#32))) init hr hu
        ValueIdx.ix0 = 1#1) :
    GatSpec.IsReal (GatSpec.arr X) := by
  intro i k
  exact real_of_abs_lt_inf _ (Host.reduce_andi_all _ _ hr hu _ h (ValueIdx.ix2 i k))

/-- Under the precondition all five inputs are real arrays. -/
theorem of_pre [Cert.Pre_finite_inputs.Facts] (H : FVec Ideal S400x256 .f32) (EF : FVec Ideal S160000x5 .f32) (W : FVec Ideal S256x128 .f32)
    (A1 : FVec Ideal S261x400 .f32) (A3 : FVec Ideal S160000x400 .f32)
    (hpre : Cert.Pre_finite_inputs.fn (F := Ideal) H EF W A1 A3 = fun _ => 1#1) :
    Cert.GatSpec.IsReal (Cert.GatSpec.arr H) ∧ Cert.GatSpec.IsReal (Cert.GatSpec.arr EF) ∧
      Cert.GatSpec.IsReal (Cert.GatSpec.arr W) ∧ Cert.GatSpec.IsReal (Cert.GatSpec.arr A1) ∧
      Cert.GatSpec.IsReal (Cert.GatSpec.arr A3) := by
  have h := congrFun hpre ValueIdx.ix0
  dsimp only [Cert.Pre_finite_inputs.fn, Cert.Pre_finite_inputs.fn_part1] at h
  obtain ⟨h, h5⟩ := IntOp.andi_eq_one.1 (h : IntOp.andi _ _ = 1#1)
  obtain ⟨h, h4⟩ := IntOp.andi_eq_one.1 (h : IntOp.andi _ _ = 1#1)
  obtain ⟨h, h3⟩ := IntOp.andi_eq_one.1 (h : IntOp.andi _ _ = 1#1)
  obtain ⟨h1, h2⟩ := IntOp.andi_eq_one.1 (h : IntOp.andi _ _ = 1#1)
  exact ⟨isReal_of_all H _ _ _ _ h1, isReal_of_all EF _ _ _ _ h2, isReal_of_all W _ _ _ _ h3,
    isReal_of_all A1 _ _ _ _ h4, isReal_of_all A3 _ _ _ _ h5⟩

end Cert.Finite

end
-- ==== Proof.lean ====
/-
  The certificate's claim. A graph-attention layer over n = 400 nodes: wh = h · W; the score of the pair (p, q) is
  E[p, q] = Σ_r a3[r, p] · ([wh[r / n] | wh[r % n] | ef[r]] · a1)[q] over the n² edges r; then a leaky ReLU of slope 0.2,
  the diagonal replaced by −9·10¹⁵, a row softmax, and the product with wh.

  The reference computes the score literally, as two matrix products over the n² × 261 concatenation. The kernel never
  builds that matrix. It runs in two regions: the first forms wh; the second walks the edges in 50 chunks of 8 source
  nodes, and in four scratch buffers carried from chunk to chunk it accumulates Σ_i rowsum_i ⊗ (wh · a1_i)_i (the
  source term, rowsum_i the sum of a3 over the edges leaving i), Σ_i a3[i·n + j, ·] (the sums over the edges entering
  j, multiplied with wh · a1_j once at the end) and a3ᵀ · ef (multiplied with a1_e at the end); at the last chunk it
  adds the three terms and applies the common tail. On real entries the two scores agree by distributivity and
  exchange of finite sums — which is where the precondition (every input finite) is used; everything after the score
  is the same function on both sides and is never opened.

  Frames: each kernel region's body is run whole, once per case (first, middle, last chunk), the pieces each buffer
  ends with found by the run; the scratch buffers' contents are carried in the region's invariant; two windows of
  the second region stage the same array (wh, by rows of the chunk and whole), each at half of its share. The
  reference is a straight-line host program; its run gives both its frame and its result as a composed term, read at
  an index down to the specification. The word-level kernel shares the idealized kernel's text (nothing was rewritten),
  so its frame is the same proof at the other instance.
-/
import proofs.«158061_j24318104830717_2_alg».proof.Defs
import proofs.«158061_j24318104830717_2_alg».proof.Proof.Gen.Kernel
import proofs.«158061_j24318104830717_2_alg».proof.Proof.Gen.KernelIdeal
import proofs.«158061_j24318104830717_2_alg».proof.Proof.Gen.ReferenceIdeal
import proofs.«158061_j24318104830717_2_alg».proof.Proof.Gen.Pre_finite_inputs
import proofs.«158061_j24318104830717_2_alg».proof.Proof.BRun
import proofs.«158061_j24318104830717_2_alg».proof.Proof.KValue
import proofs.«158061_j24318104830717_2_alg».proof.Proof.RefRun
import proofs.«158061_j24318104830717_2_alg».proof.Proof.RefValue
import proofs.«158061_j24318104830717_2_alg».proof.Proof.SpecAlgebra
import proofs.«158061_j24318104830717_2_alg».proof.Proof.Finite

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- At the exact instance both programs end with the layer's output: the kernel with the score in its factored,
    chunk-accumulated form, the reference with the score as one product; on finite inputs the two scores are one
    function. -/
theorem algebraic : Cert.algebraic_KernelIdeal_ReferenceIdeal := by
  intro m ρ m' ρ' hpre hagree
  refine ⟨Cert.KernelIdeal.Hand.res1 (F := Ideal) m ρ, Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  rw [Cert.ReferenceIdeal.Hand.resTerm_eq, Cert.KernelIdeal.Hand.res1_eq m ρ c]
  obtain ⟨h0, h1, h2, h3, h4⟩ := Cert.Finite.of_pre _ _ _ _ _ (hpre c)
  funext j
  exact congrFun (congrFun (Cert.GatSpec.outKer_eq_outRef h0 h1 h2 h3 h4).symm (j 0)) (j 1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
